-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S200000x8 : Shape := ⟨2, ![200000, 8]⟩
abbrev S1000000 : Shape := ⟨1, ![1000000]⟩
abbrev S500000 : Shape := ⟨1, ![500000]⟩
abbrev S16x32 : Shape := ⟨2, ![16, 32]⟩
abbrev S32 : Shape := ⟨1, ![32]⟩
abbrev S8x32 : Shape := ⟨2, ![8, 32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S200000x8 : S_.BroadcastsInDim S200000x8 (![] : Fin 0 → Fin S200000x8.rank)
  reducesTo_S200000x8_S_d0_1 : S200000x8.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S8x32 : S_.BroadcastsInDim S8x32 (![] : Fin 0 → Fin S8x32.rank)
  reducesTo_S8x32_S_d0_1 : S8x32.ReducesTo [0, 1] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg20 : FVec F S32x32 .f32) (main_arg21 : FVec F S32x1 .f32) (main_arg22 : FVec F S1 .f32) (main_v63 : IVec S_ 1) (main_v67 : IVec S_ 1) : IVec S_ 1 :=
  let main_v68 : IVec S_ 1 := andi main_v63 main_v67
  let main_v69 : FVec F S32x32 .f32 := Host.absf main_arg20
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32x1 .f32 := Host.absf main_arg21
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg22
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg17 : FVec F S32x32 .f32) (main_arg18 : FVec F S32x32 .f32) (main_arg19 : FVec F S32 .f32) (main_arg20 : FVec F S32x32 .f32) (main_arg21 : FVec F S32x1 .f32) (main_arg22 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg17
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32x32 .f32 := Host.absf main_arg18
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg19
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg20 main_arg21 main_arg22 main_v63 main_v67

def fn_part2 {F : FTy → Type} [FloatOps F] (main_arg13 : FVec F S32 .f32) (main_arg14 : FVec F S32x32 .f32) (main_arg15 : FVec F S32x32 .f32) (main_arg16 : FVec F S32 .f32) (main_arg17 : FVec F S32x32 .f32) (main_arg18 : FVec F S32x32 .f32) (main_arg19 : FVec F S32 .f32) (main_arg20 : FVec F S32x32 .f32) (main_arg21 : FVec F S32x1 .f32) (main_arg22 : FVec F S1 .f32) (main_v33 : IVec S_ 1) : IVec S_ 1 :=
  let main_v34 : FVec F S32 .f32 := Host.absf main_arg13
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg14
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg15
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg16
  let main_cst_18 : FVec F S_ .f32 := constant S_ .f32 0x7F800000#32
  let main_v50 : FVec F S32 .f32 := broadcastInDim S32 ![] bcast_S_S32 main_cst_18
  fn_part3 (F := F) main_arg17 main_arg18 main_arg19 main_arg20 main_arg21 main_arg22 main_v48 main_v49 main_v50

def fn_part1 {F : FTy → Type} [FloatOps F] (main_arg10 : FVec F S8x32 .f32) (main_arg11 : FVec F S32 .f32) (main_arg12 : FVec F S32x32 .f32) (main_arg13 : FVec F S32 .f32) (main_arg14 : FVec F S32x32 .f32) (main_arg15 : FVec F S32x32 .f32) (main_arg16 : FVec F S32 .f32) (main_arg17 : FVec F S32x32 .f32) (main_arg18 : FVec F S32x32 .f32) (main_arg19 : FVec F S32 .f32) (main_arg20 : FVec F S32x32 .f32) (main_arg21 : FVec F S32x1 .f32) (main_arg22 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S8x32 .f32 := Host.absf main_arg10
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S32 .f32 := Host.absf main_arg11
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg12
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_v33

def fn {F : FTy → Type} [FloatOps F] (main_arg0 : FVec F S100000x16 .f32) (main_arg1 : FVec F S200000x8 .f32) (main_arg2 : IVec S1000000 32) (main_arg3 : IVec S1000000 32) (main_arg4 : IVec S1000000 32) (main_arg5 : IVec S1000000 32) (main_arg6 : IVec S500000 32) (main_arg7 : IVec S500000 32) (main_arg8 : FVec F S16x32 .f32) (main_arg9 : FVec F S32 .f32) (main_arg10 : FVec F S8x32 .f32) (main_arg11 : FVec F S32 .f32) (main_arg12 : FVec F S32x32 .f32) (main_arg13 : FVec F S32 .f32) (main_arg14 : FVec F S32x32 .f32) (main_arg15 : FVec F S32x32 .f32) (main_arg16 : FVec F S32 .f32) (main_arg17 : FVec F S32x32 .f32) (main_arg18 : FVec F S32x32 .f32) (main_arg19 : FVec F S32 .f32) (main_arg20 : FVec F S32x32 .f32) (main_arg21 : FVec F S32x1 .f32) (main_arg22 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S200000x8 .f32 := Host.absf main_arg1
  let main_cst_0 : FVec F S_ .f32 := constant S_ .f32 0x7F800000#32
  let main_v5 : FVec F S200000x8 .f32 := broadcastInDim S200000x8 ![] bcast_S_S200000x8 main_cst_0
  let main_v6 : IVec S200000x8 1 := cmpf .olt main_v4 main_v5
  let main_c_1 : IVec S_ 1 := constantI S_ 1 1#1
  let main_v7 : IVec S_ 1 := (fun x v => Host.reduce IntOp.andi x v reducesTo_S200000x8_S_d0_1 h_S_) main_v6 main_c_1
  let main_v8 : IVec S_ 1 := andi main_v3 main_v7
  let main_v9 : FVec F S16x32 .f32 := Host.absf main_arg8
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg9
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg10 main_arg11 main_arg12 main_arg13 main_arg14 main_arg15 main_arg16 main_arg17 main_arg18 main_arg19 main_arg20 main_arg21 main_arg22 main_v13 main_v16
-- ==== Kernel.lean ====
abbrev S100000x16 : Shape := ⟨2, ![100000, 16]⟩
abbrev S200000x8 : Shape := ⟨2, ![200000, 8]⟩
abbrev S1000000 : Shape := ⟨1, ![1000000]⟩
abbrev S500000 : Shape := ⟨1, ![500000]⟩
abbrev S16x32 : Shape := ⟨2, ![16, 32]⟩
abbrev S32 : Shape := ⟨1, ![32]⟩
abbrev S8x32 : Shape := ⟨2, ![8, 32]⟩
abbrev S32x32 : Shape := ⟨2, ![32, 32]⟩
abbrev S32x1 : Shape := ⟨2, ![32, 1]⟩
abbrev S1 : Shape := ⟨1, ![1]⟩
abbrev S1x32 : Shape := ⟨2, ![1, 32]⟩
abbrev S100000x32 : Shape := ⟨2, ![100000, 32]⟩
abbrev S10000x16 : Shape := ⟨2, ![10000, 16]⟩
abbrev S10000x32 : Shape := ⟨2, ![10000, 32]⟩
abbrev S200000x32 : Shape := ⟨2, ![200000, 32]⟩
abbrev S10000x8 : Shape := ⟨2, ![10000, 8]⟩
abbrev S_ : Shape := ⟨0, ![]⟩
abbrev S1000000x1 : Shape := ⟨2, ![1000000, 1]⟩
abbrev S1x1 : Shape := ⟨2, ![1, 1]⟩
abbrev S1000000x32 : Shape := ⟨2, ![1000000, 32]⟩
abbrev S100000 : Shape := ⟨1, ![100000]⟩
abbrev S100000x1 : Shape := ⟨2, ![100000, 1]⟩
abbrev S500000x1 : Shape := ⟨2, ![500000, 1]⟩
abbrev S500000x32 : Shape := ⟨2, ![500000, 32]⟩
abbrev S10000x1 : Shape := ⟨2, ![10000, 1]⟩

abbrev nBuf : Space → Nat
  | .hbm => 109
  | .vmem => 28
  | .smem => 0
  | _ => 0

abbrev bufTy : (tb : Table) → Fin (tcTables nBuf tb) → BufTy
  | .hbm, ⟨0, _⟩ => ⟨S100000x16, .f32⟩
  | .hbm, ⟨1, _⟩ => ⟨S200000x8, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S500000, .i32⟩
  | .hbm, ⟨7, _⟩ => ⟨S500000, .i32⟩
  | .hbm, ⟨8, _⟩ => ⟨S16x32, .f32⟩
  | .hbm, ⟨9, _⟩ => ⟨S32, .f32⟩
  | .hbm, ⟨10, _⟩ => ⟨S8x32, .f32⟩
  | .hbm, ⟨11, _⟩ => ⟨S32, .f32⟩
  | .hbm, ⟨12, _⟩ => ⟨S32x32, .f32⟩
  | .hbm, ⟨13, _⟩ => ⟨S32, .f32⟩
  | .hbm, ⟨14, _⟩ => ⟨S32x32, .f32⟩
  | .hbm, ⟨15, _⟩ => ⟨S32x32, .f32⟩
  | .hbm, ⟨16, _⟩ => ⟨S32, .f32⟩
  | .hbm, ⟨17, _⟩ => ⟨S32x32, .f32⟩
  | .hbm, ⟨18, _⟩ => ⟨S32x32, .f32⟩
  | .hbm, ⟨19, _⟩ => ⟨S32, .f32⟩
  | .hbm, ⟨20, _⟩ => ⟨S32x32, .f32⟩
  | .hbm, ⟨21, _⟩ => ⟨S32x1, .f32⟩
  | .hbm, ⟨22, _⟩ => ⟨S1, .f32⟩
  | .hbm, ⟨23, _⟩ => ⟨S1x32, .f32⟩
  | .hbm, ⟨24, _⟩ => ⟨S100000x32, .f32⟩
  | .hbm, ⟨25, _⟩ => ⟨S1x32, .f32⟩
  | .hbm, ⟨26, _⟩ => ⟨S200000x32, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1, .i32⟩
  | .hbm, ⟨36, _⟩ => ⟨S_, .i32⟩
  | .hbm, ⟨37, _⟩ => ⟨S1000000x1, .i32⟩
  | .hbm, ⟨38, _⟩ => ⟨S1000000x1, .i1⟩
  | .hbm, ⟨39, _⟩ => ⟨S1x1, .i32⟩
  | .hbm, ⟨40, _⟩ => ⟨S1000000x1, .i32⟩
  | .hbm, ⟨41, _⟩ => ⟨S1000000x1, .i1⟩
  | .hbm, ⟨42, _⟩ => ⟨S1000000x1, .i1⟩
  | .hbm, ⟨43, _⟩ => ⟨S_, .i1⟩
  | .hbm, ⟨44, _⟩ => ⟨S1000000, .i1⟩
  | .hbm, ⟨45, _⟩ => ⟨S1000000x32, .f32⟩
  | .hbm, ⟨46, _⟩ => ⟨S1000000x32, .i1⟩
  | .hbm, ⟨47, _⟩ => ⟨S_, .f32⟩
  | .hbm, ⟨48, _⟩ => ⟨S1000000x32, .f32⟩
  | .hbm, ⟨49, _⟩ => ⟨S1000000x32, .f32⟩
  | .hbm, ⟨50, _⟩ => ⟨S_, .f32⟩
  | .hbm, ⟨51, _⟩ => ⟨S100000x32, .f32⟩
  | .hbm, ⟨52, _⟩ => ⟨S1000000x1, .i32⟩
  | .hbm, ⟨53, _⟩ => ⟨S100000x32, .f32⟩
  | .hbm, ⟨54, _⟩ => ⟨S_, .f32⟩
  | .hbm, ⟨55, _⟩ => ⟨S1000000, .f32⟩
  | .hbm, ⟨56, _⟩ => ⟨S_, .f32⟩
  | .hbm, ⟨57, _⟩ => ⟨S100000, .f32⟩
  | .hbm, ⟨58, _⟩ => ⟨S1000000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x32, .f32⟩
  | .hbm, ⟨65, _⟩ => ⟨S100000x32, .f32⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S1, .i32⟩
  | .hbm, ⟨75, _⟩ => ⟨S_, .i32⟩
  | .hbm, ⟨76, _⟩ => ⟨S500000x1, .i32⟩
  | .hbm, ⟨77, _⟩ => ⟨S500000x1, .i1⟩
  | .hbm, ⟨78, _⟩ => ⟨S1x1, .i32⟩
  | .hbm, ⟨79, _⟩ => ⟨S500000x1, .i32⟩
  | .hbm, ⟨80, _⟩ => ⟨S500000x1, .i1⟩
  | .hbm, ⟨81, _⟩ => ⟨S500000x1, .i1⟩
  | .hbm, ⟨82, _⟩ => ⟨S_, .i1⟩
  | .hbm, ⟨83, _⟩ => ⟨S500000, .i1⟩
  | .hbm, ⟨84, _⟩ => ⟨S500000x32, .f32⟩
  | .hbm, ⟨85, _⟩ => ⟨S500000x32, .i1⟩
  | .hbm, ⟨86, _⟩ => ⟨S_, .f32⟩
  | .hbm, ⟨87, _⟩ => ⟨S500000x32, .f32⟩
  | .hbm, ⟨88, _⟩ => ⟨S500000x32, .f32⟩
  | .hbm, ⟨89, _⟩ => ⟨S_, .f32⟩
  | .hbm, ⟨90, _⟩ => ⟨S100000x32, .f32⟩
  | .hbm, ⟨91, _⟩ => ⟨S500000x1, .i32⟩
  | .hbm, ⟨92, _⟩ => ⟨S100000x32, .f32⟩
  | .hbm, ⟨93, _⟩ => ⟨S_, .f32⟩
  | .hbm, ⟨94, _⟩ => ⟨S500000, .f32⟩
  | .hbm, ⟨95, _⟩ => ⟨S_, .f32⟩
  | .hbm, ⟨96, _⟩ => ⟨S100000, .f32⟩
  | .hbm, ⟨97, _⟩ => ⟨S500000x1, .i32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x32, .f32⟩
  | .hbm, ⟨104, _⟩ => ⟨S100000x32, .f32⟩
  | .hbm, ⟨105, _⟩ => ⟨S1x32, .f32⟩
  | .hbm, ⟨106, _⟩ => ⟨S1x32, .f32⟩
  | .hbm, ⟨107, _⟩ => ⟨S1x1, .f32⟩
  | .hbm, ⟨108, _⟩ => ⟨S100000x1, .f32⟩
  | .local _ .vmem, ⟨0, _⟩ => ⟨S10000x16, .f32⟩
  | .local _ .vmem, ⟨1, _⟩ => ⟨S10000x16, .f32⟩
  | .local _ .vmem, ⟨2, _⟩ => ⟨S16x32, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S10000x8, .f32⟩
  | .local _ .vmem, ⟨7, _⟩ => ⟨S10000x8, .f32⟩
  | .local _ .vmem, ⟨8, _⟩ => ⟨S8x32, .f32⟩
  | .local _ .vmem, ⟨9, _⟩ => ⟨S1x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S32x32, .f32⟩
  | .local _ .vmem, ⟨19, _⟩ => ⟨S1x32, .f32⟩
  | .local _ .vmem, ⟨20, _⟩ => ⟨S32x32, .f32⟩
  | .local _ .vmem, ⟨21, _⟩ => ⟨S32x32, .f32⟩
  | .local _ .vmem, ⟨22, _⟩ => ⟨S1x32, .f32⟩
  | .local _ .vmem, ⟨23, _⟩ => ⟨S32x32, .f32⟩
  | .local _ .vmem, ⟨24, _⟩ => ⟨S32x1, .f32⟩
  | .local _ .vmem, ⟨25, _⟩ => ⟨S1x1, .f32⟩
  | .local _ .vmem, ⟨26, _⟩ => ⟨S10000x1, .f32⟩
  | .local _ .vmem, ⟨27, _⟩ => ⟨S10000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v4 : Ref sig .tc := ⟨.hbm, 49, rfl⟩
abbrev main_cst : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_cst_0 : Ref sig .tc := ⟨.hbm, 54, rfl⟩
abbrev main_v8 : Ref sig .tc := ⟨.hbm, 55, rfl⟩
abbrev main_cst_1 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_cst_2 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v17 : Ref sig .tc := ⟨.hbm, 88, rfl⟩
abbrev main_cst_3 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_cst_4 : Ref sig .tc := ⟨.hbm, 93, rfl⟩
abbrev main_v21 : Ref sig .tc := ⟨.hbm, 94, rfl⟩
abbrev main_cst_5 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_cst_6 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg11_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem11_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S32x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S10000x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  shapeCasts_S32_S1x32 : S32.ShapeCasts S1x32
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  inb_S10000x8_S10000x8_0_0 : ∀ a, (![0, 0] : Fin 2 → Nat) a + S10000x8.size a ≤ S10000x8.size a
  h_S10000x8 : 0 < S10000x8.numel
  inb_S8x32_S8x32_0_0 : ∀ a, (![0, 0] : Fin 2 → Nat) a + S8x32.size a ≤ S8x32.size a
  h_S8x32 : 0 < S8x32.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x32_0 : S1000000.BroadcastsInDim S1000000x32 (![0] : Fin 1 → Fin S1000000x32.rank)
  bcast_S_S1000000x32 : S_.BroadcastsInDim S1000000x32 (![] : Fin 0 → Fin S1000000x32.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x32_0 : S500000.BroadcastsInDim S500000x32 (![0] : Fin 1 → Fin S500000x32.rank)
  bcast_S_S500000x32 : S_.BroadcastsInDim S500000x32 (![] : Fin 0 → Fin S500000x32.rank)
  shapeCasts_S1_S1x1 : S1.ShapeCasts S1x1
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S10000x16_S16x32_S10000x32_1_0_0_1_n_n_wf : DotDims.WF S10000x16 S16x32 S10000x32 [1] [0] [0] [1] [] []
  dot_S10000x8_S8x32_S10000x32_1_0_0_1_n_n_wf : DotDims.WF S10000x8 S8x32 S10000x32 [1] [0] [0] [1] [] []
  gather_S200000x32_S1000000x1_S1000000x32_1_0_n_n_0_1_132_wf : GatherDims.WF S200000x32 S1000000x1 S1000000x32 [1] [0] [] [0] [] 1 ![1, 32]
  scatter_S100000x32_S1000000x1_S1000000x32_1_0_0_1_wf : ScatterDims.WF S100000x32 S1000000x1 S1000000x32 [1] [0] [0] 1
  scatter_S100000_S1000000x1_S1000000_n_0_0_1_wf : ScatterDims.WF S100000 S1000000x1 S1000000 [] [0] [0] 1
  gather_S100000x32_S500000x1_S500000x32_1_0_n_n_0_1_132_wf : GatherDims.WF S100000x32 S500000x1 S500000x32 [1] [0] [] [0] [] 1 ![1, 32]
  scatter_S100000x32_S500000x1_S500000x32_1_0_0_1_wf : ScatterDims.WF S100000x32 S500000x1 S500000x32 [1] [0] [0] 1
  scatter_S100000_S500000x1_S500000_n_0_0_1_wf : ScatterDims.WF S100000 S500000x1 S500000 [] [0] [0] 1
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S200000x8.size a
  hwx1_0 : ∀ i : grid1.Coords, EltTy.bits .f32 = 32 ∨ (Rect.block (s := S200000x8) S10000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x32.size a ≤ S8x32.size a
  hwx1_1 : ∀ i : grid1.Coords, EltTy.bits .f32 = 32 ∨ (Rect.block (s := S8x32) S8x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S200000x32.size a
  hwx1_3 : ∀ i : grid1.Coords, EltTy.bits .f32 = 32 ∨ (Rect.block (s := S200000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x32.size a ≤ S32x32.size a
  hwx2_6 : ∀ i : grid2.Coords, EltTy.bits .f32 = 32 ∨ (Rect.block (s := S32x32) S32x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x32.size a ≤ S32x32.size a
  hwx2_8 : ∀ i : grid2.Coords, EltTy.bits .f32 = 32 ∨ (Rect.block (s := S32x32) S32x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S32x1.size a ≤ S32x1.size a
  hwx2_9 : ∀ i : grid2.Coords, EltTy.bits .f32 = 32 ∨ (Rect.block (s := S32x1) S32x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S10000x1.size a ≤ S100000x1.size a
  hwx2_11 : ∀ i : grid2.Coords, EltTy.bits .f32 = 32 ∨ (Rect.block (s := S100000x1) S10000x1.size (cc2_transform_11 i) (hinb2_11 i)).WholeWords (EltTy.packing .f32)

variable [Facts₀]

def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x8_S8x32_S10000x32_1_0_0_1_n_n : DotDims S10000x8 S8x32 S10000x32 where
  lhsContracting := [1]
  rhsContracting := [0]
  lhsNonContracting := [0]
  rhsNonContracting := [1]
  lhsBatch := []
  rhsBatch := []
  wf := dot_S10000x8_S8x32_S10000x32_1_0_0_1_n_n_wf
def gather_S200000x32_S1000000x1_S1000000x32_1_0_n_n_0_1_132 : GatherDims S200000x32 S1000000x1 S1000000x32 where
  offsetDims := [1]
  collapsedSliceDims := [0]
  operandBatchingDims := []
  startIndicesBatchingDims := []
  startIndexMap := [0]
  indexVectorDim := 1
  sliceSizes := ![1, 32]
  wf := gather_S200000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x32_S500000x1_S500000x32_1_0_n_n_0_1_132 : GatherDims S100000x32 S500000x1 S500000x32 where
  offsetDims := [1]
  collapsedSliceDims := [0]
  operandBatchingDims := []
  startIndicesBatchingDims := []
  startIndexMap := [0]
  indexVectorDim := 1
  sliceSizes := ![1, 32]
  wf := gather_S100000x32_S500000x1_S500000x32_1_0_n_n_0_1_132_wf
def scatter_S100000x32_S500000x1_S500000x32_1_0_0_1 : ScatterDims S100000x32 S500000x1 S500000x32 where
  updateWindowDims := [1]
  insertedWindowDims := [0]
  scatterDimsToOperandDims := [0]
  indexVectorDim := 1
  wf := scatter_S100000x32_S500000x1_S500000x32_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S8x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S10000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S32x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg20) S32x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg21) S32x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v32) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v33) S10000x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x16 : Shape := ⟨2, ![100000, 16]⟩
abbrev S200000x8 : Shape := ⟨2, ![200000, 8]⟩
abbrev S1000000 : Shape := ⟨1, ![1000000]⟩
abbrev S500000 : Shape := ⟨1, ![500000]⟩
abbrev S16x32 : Shape := ⟨2, ![16, 32]⟩
abbrev S32 : Shape := ⟨1, ![32]⟩
abbrev S8x32 : Shape := ⟨2, ![8, 32]⟩
abbrev S32x32 : Shape := ⟨2, ![32, 32]⟩
abbrev S32x1 : Shape := ⟨2, ![32, 1]⟩
abbrev S1 : Shape := ⟨1, ![1]⟩
abbrev S100000x32 : Shape := ⟨2, ![100000, 32]⟩
abbrev S1x32 : Shape := ⟨2, ![1, 32]⟩
abbrev S_ : Shape := ⟨0, ![]⟩
abbrev S200000x32 : Shape := ⟨2, ![200000, 32]⟩
abbrev S1000000x1 : Shape := ⟨2, ![1000000, 1]⟩
abbrev S1x1 : Shape := ⟨2, ![1, 1]⟩
abbrev S1000000x32 : Shape := ⟨2, ![1000000, 32]⟩
abbrev S100000 : Shape := ⟨1, ![100000]⟩
abbrev S100000x1 : Shape := ⟨2, ![100000, 1]⟩
abbrev S500000x1 : Shape := ⟨2, ![500000, 1]⟩
abbrev S500000x32 : Shape := ⟨2, ![500000, 32]⟩

abbrev nBuf : Space → Nat
  | .hbm => 135
  | .vmem => 0
  | .smem => 0
  | _ => 0

abbrev hbmTy0_0 (i : Nat) : BufTy := match i % 128 with
  | 0 => ⟨S100000x16, .f32⟩
  | 1 => ⟨S200000x8, .f32⟩
  | 2 => ⟨S1000000, .i32⟩
  | 3 => ⟨S1000000, .i32⟩
  | 4 => ⟨S1000000, .i32⟩
  | 5 => ⟨S1000000, .i32⟩
  | 6 => ⟨S500000, .i32⟩
  | 7 => ⟨S500000, .i32⟩
  | 8 => ⟨S16x32, .f32⟩
  | 9 => ⟨S32, .f32⟩
  | 10 => ⟨S8x32, .f32⟩
  | 11 => ⟨S32, .f32⟩
  | 12 => ⟨S32x32, .f32⟩
  | 13 => ⟨S32, .f32⟩
  | 14 => ⟨S32x32, .f32⟩
  | 15 => ⟨S32x32, .f32⟩
  | 16 => ⟨S32, .f32⟩
  | 17 => ⟨S32x32, .f32⟩
  | 18 => ⟨S32x32, .f32⟩
  | 19 => ⟨S32, .f32⟩
  | 20 => ⟨S32x32, .f32⟩
  | 21 => ⟨S32x1, .f32⟩
  | 22 => ⟨S1, .f32⟩
  | 23 => ⟨S100000x32, .f32⟩
  | 24 => ⟨S1x32, .f32⟩
  | 25 => ⟨S100000x32, .f32⟩
  | 26 => ⟨S100000x32, .f32⟩
  | 27 => ⟨S_, .f32⟩
  | 28 => ⟨S100000x32, .f32⟩
  | 29 => ⟨S100000x32, .f32⟩
  | 30 => ⟨S200000x32, .f32⟩
  | 31 => ⟨S1x32, .f32⟩
  | 32 => ⟨S200000x32, .f32⟩
  | 33 => ⟨S200000x32, .f32⟩
  | 34 => ⟨S_, .f32⟩
  | 35 => ⟨S200000x32, .f32⟩
  | 36 => ⟨S200000x32, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1, .i32⟩
  | 46 => ⟨S_, .i32⟩
  | 47 => ⟨S1000000x1, .i32⟩
  | 48 => ⟨S1000000x1, .i1⟩
  | 49 => ⟨S1x1, .i32⟩
  | 50 => ⟨S1000000x1, .i32⟩
  | 51 => ⟨S1000000x1, .i1⟩
  | 52 => ⟨S1000000x1, .i1⟩
  | 53 => ⟨S_, .i1⟩
  | 54 => ⟨S1000000, .i1⟩
  | 55 => ⟨S1000000x32, .f32⟩
  | 56 => ⟨S1000000x32, .i1⟩
  | 57 => ⟨S_, .f32⟩
  | 58 => ⟨S1000000x32, .f32⟩
  | 59 => ⟨S1000000x32, .f32⟩
  | 60 => ⟨S_, .f32⟩
  | 61 => ⟨S100000x32, .f32⟩
  | 62 => ⟨S1000000x1, .i32⟩
  | 63 => ⟨S100000x32, .f32⟩
  | 64 => ⟨S_, .f32⟩
  | 65 => ⟨S1000000, .f32⟩
  | 66 => ⟨S_, .f32⟩
  | 67 => ⟨S100000, .f32⟩
  | 68 => ⟨S1000000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x32, .f32⟩
  | 75 => ⟨S100000x32, .f32⟩
  | 76 => ⟨S100000x32, .f32⟩
  | 77 => ⟨S1x32, .f32⟩
  | 78 => ⟨S100000x32, .f32⟩
  | 79 => ⟨S100000x32, .f32⟩
  | 80 => ⟨S100000x32, .f32⟩
  | 81 => ⟨S100000x32, .f32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S1, .i32⟩
  | 91 => ⟨S_, .i32⟩
  | 92 => ⟨S500000x1, .i32⟩
  | 93 => ⟨S500000x1, .i1⟩
  | 94 => ⟨S1x1, .i32⟩
  | 95 => ⟨S500000x1, .i32⟩
  | 96 => ⟨S500000x1, .i1⟩
  | 97 => ⟨S500000x1, .i1⟩
  | 98 => ⟨S_, .i1⟩
  | 99 => ⟨S500000, .i1⟩
  | 100 => ⟨S500000x32, .f32⟩
  | 101 => ⟨S500000x32, .i1⟩
  | 102 => ⟨S_, .f32⟩
  | 103 => ⟨S500000x32, .f32⟩
  | 104 => ⟨S500000x32, .f32⟩
  | 105 => ⟨S_, .f32⟩
  | 106 => ⟨S100000x32, .f32⟩
  | 107 => ⟨S500000x1, .i32⟩
  | 108 => ⟨S100000x32, .f32⟩
  | 109 => ⟨S_, .f32⟩
  | 110 => ⟨S500000, .f32⟩
  | 111 => ⟨S_, .f32⟩
  | 112 => ⟨S100000, .f32⟩
  | 113 => ⟨S500000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x32, .f32⟩
  | 120 => ⟨S100000x32, .f32⟩
  | 121 => ⟨S100000x32, .f32⟩
  | 122 => ⟨S1x32, .f32⟩
  | 123 => ⟨S100000x32, .f32⟩
  | 124 => ⟨S100000x32, .f32⟩
  | 125 => ⟨S100000x32, .f32⟩
  | 126 => ⟨S100000x32, .f32⟩
  | 127 => ⟨S100000x32, .f32⟩
  | _ => ⟨S100000x16, .f32⟩

abbrev hbmTy0_1 (i : Nat) : BufTy := match i % 128 with
  | 0 => ⟨S_, .f32⟩
  | 1 => ⟨S100000x32, .f32⟩
  | 2 => ⟨S100000x32, .f32⟩
  | 3 => ⟨S100000x1, .f32⟩
  | 4 => ⟨S1x1, .f32⟩
  | 5 => ⟨S100000x1, .f32⟩
  | 6 => ⟨S100000x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_v9 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v10 : Ref sig .tc := ⟨.hbm, 59, rfl⟩
abbrev main_cst : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_cst_0 : Ref sig .tc := ⟨.hbm, 64, rfl⟩
abbrev main_v14 : Ref sig .tc := ⟨.hbm, 65, rfl⟩
abbrev main_cst_1 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_cst_2 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v29 : Ref sig .tc := ⟨.hbm, 104, rfl⟩
abbrev main_cst_3 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_cst_4 : Ref sig .tc := ⟨.hbm, 109, rfl⟩
abbrev main_v33 : Ref sig .tc := ⟨.hbm, 110, rfl⟩
abbrev main_cst_5 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_cst_6 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_call4_cst : Ref sig .tc := ⟨.hbm, 128, rfl⟩
abbrev main_call4_v0 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x32_0 : S1000000.BroadcastsInDim S1000000x32 (![0] : Fin 1 → Fin S1000000x32.rank)
  bcast_S_S1000000x32 : S_.BroadcastsInDim S1000000x32 (![] : Fin 0 → Fin S1000000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x32_0 : S500000.BroadcastsInDim S500000x32 (![0] : Fin 1 → Fin S500000x32.rank)
  bcast_S_S500000x32 : S_.BroadcastsInDim S500000x32 (![] : Fin 0 → Fin S500000x32.rank)
  bcast_S1x1_S100000x1_0_1 : S1x1.BroadcastsInDim S100000x1 (![0, 1] : Fin 2 → Fin S100000x1.rank)
  dot_S100000x16_S16x32_S100000x32_1_0_0_1_n_n_wf : DotDims.WF S100000x16 S16x32 S100000x32 [1] [0] [0] [1] [] []
  dot_S200000x8_S8x32_S200000x32_1_0_0_1_n_n_wf : DotDims.WF S200000x8 S8x32 S200000x32 [1] [0] [0] [1] [] []
  gather_S200000x32_S1000000x1_S1000000x32_1_0_n_n_0_1_132_wf : GatherDims.WF S200000x32 S1000000x1 S1000000x32 [1] [0] [] [0] [] 1 ![1, 32]
  scatter_S100000x32_S1000000x1_S1000000x32_1_0_0_1_wf : ScatterDims.WF S100000x32 S1000000x1 S1000000x32 [1] [0] [0] 1
  scatter_S100000_S1000000x1_S1000000_n_0_0_1_wf : ScatterDims.WF S100000 S1000000x1 S1000000 [] [0] [0] 1
  dot_S100000x32_S32x32_S100000x32_1_0_0_1_n_n_wf : DotDims.WF S100000x32 S32x32 S100000x32 [1] [0] [0] [1] [] []
  gather_S100000x32_S500000x1_S500000x32_1_0_n_n_0_1_132_wf : GatherDims.WF S100000x32 S500000x1 S500000x32 [1] [0] [] [0] [] 1 ![1, 32]
  scatter_S100000x32_S500000x1_S500000x32_1_0_0_1_wf : ScatterDims.WF S100000x32 S500000x1 S500000x32 [1] [0] [0] 1
  scatter_S100000_S500000x1_S500000_n_0_0_1_wf : ScatterDims.WF S100000 S500000x1 S500000 [] [0] [0] 1
  dot_S100000x32_S32x1_S100000x1_1_0_0_1_n_n_wf : DotDims.WF S100000x32 S32x1 S100000x1 [1] [0] [0] [1] [] []

variable [Facts₀]

def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S200000x8_S8x32_S200000x32_1_0_0_1_n_n : DotDims S200000x8 S8x32 S200000x32 where
  lhsContracting := [1]
  rhsContracting := [0]
  lhsNonContracting := [0]
  rhsNonContracting := [1]
  lhsBatch := []
  rhsBatch := []
  wf := dot_S200000x8_S8x32_S200000x32_1_0_0_1_n_n_wf
def gather_S200000x32_S1000000x1_S1000000x32_1_0_n_n_0_1_132 : GatherDims S200000x32 S1000000x1 S1000000x32 where
  offsetDims := [1]
  collapsedSliceDims := [0]
  operandBatchingDims := []
  startIndicesBatchingDims := []
  startIndexMap := [0]
  indexVectorDim := 1
  sliceSizes := ![1, 32]
  wf := gather_S200000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S500000x1_S500000x32_1_0_n_n_0_1_132 : GatherDims S100000x32 S500000x1 S500000x32 where
  offsetDims := [1]
  collapsedSliceDims := [0]
  operandBatchingDims := []
  startIndicesBatchingDims := []
  startIndexMap := [0]
  indexVectorDim := 1
  sliceSizes := ![1, 32]
  wf := gather_S100000x32_S500000x1_S500000x32_1_0_n_n_0_1_132_wf
def scatter_S100000x32_S500000x1_S500000x32_1_0_0_1 : ScatterDims S100000x32 S500000x1 S500000x32 where
  updateWindowDims := [1]
  insertedWindowDims := [0]
  scatterDimsToOperandDims := [0]
  indexVectorDim := 1
  wf := scatter_S100000x32_S500000x1_S500000x32_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KerRun.lean ====
/-
  The idealized kernel program's run with its result named. The program is three pipelined kernel regions among
  stretches of host operations; the buffer contents at each boundary are a fold from the launch memory (the host
  stretches applied in order, each region's arrays replaced by what its write-backs leave). Every weakly fair
  execution terminates with the result array at the last boundary's contents and the arguments as launched.
-/
import proofs.«171575_j3770981286512_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the segments, the last thread state read against the final state: the result array holds the
    last boundary's contents, and each argument array what it held at launch. -/
theorem run_result : θ_run defs (onTc (τ := τ) (main (F := F))) ⟨m, fun _ => 0, ρ⟩ (fun r => ∀ c : Dev nD,
      r.2.mem ((c.tc : Thread nD τ).loc main_v33) = W9 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v33 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c)⟩)

end Cert.KernelIdeal.Gen

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibPlainDot.lean ====
/-
  A plain matrix product on the host, read at an index over the extended reals.
-/
import Idealize.ShloMosaic.PureOps.Ideal.Laws
import Idealize.ShloMosaic.Lib.ValueIdx
import Idealize.ShloMosaic.Lib.Pipeline.Value

noncomputable section

namespace Idealize.ShloMosaic.PlainDot

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals the host's plain matrix product is, at row `p` and column `q`, the sum over the contracted
    coordinate `k` of the left operand at `(p, k)` times the right operand at `(k, q)`, whatever the precision. -/
theorem dotGeneral_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (dims wf) prec lhs rhs (ix2 p q) = ∑ k : Fin K, lhs (ix2 p k) * rhs (ix2 k q) := by
  simp only [Host.dotGeneral]
  rw [Ideal.dotGeneral_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainDot

end
-- ==== Proof.LibDenseLayer.lean ====
/-
  Dense layers over the extended reals, read index by index.

  Three shapes of one layer of a feed-forward network, each as a function of whole arrays:
  `dense x w` is the matrix product, entry `(p, q)` the sum over `k` of `x (p, k) * w (k, q)`;
  `reluDense a b w` first adds the one-row array `b` to every row of `a` and takes the maximum with the word `z`
  (the zero word where it is used), then multiplies by `w`; `denseBias x w b` multiplies and then adds the one-row
  array `b` to every row. For each, two readings are proved equal to it: a ROW TILE computed by a matrix unit into a
  zero accumulator from operands rounded to a narrower format (over the extended reals the rounding is the identity), read
  at a row `p` of the tile, is the layer's entry at that row of the tile's operand; and the host's matrix product of the
  whole arrays is the layer. Sums are over `Fin K` in one fixed order on both sides, so no law of the extended reals
  beyond reading each operation at an index is used, and nothing needs the entries finite.
-/
import Idealize.ShloMosaic.PureOps.Ideal.Laws
import Idealize.ShloMosaic.Lib.ValueIdx
import Idealize.ShloMosaic.Lib.ValueLayout
import Idealize.ShloMosaic.Lib.Pipeline.Value
import proofs.«171575_j3770981286512_1_alg».proof.Proof.LibPlainMatmul
import proofs.«171575_j3770981286512_1_alg».proof.Proof.LibPlainDot

noncomputable section

namespace Idealize.ShloMosaic.DenseLayer

open Idealize.ShloMosaic Idealize.ShloMosaic.ValueIdx

variable {M R K N : Nat}

/-- The matrix product of an `[M, K]` array with a `[K, N]` array, entry by entry. -/
def dense (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

/-- Add the row `b` to every row of `a`, take the maximum with `z`, multiply by `w`. -/
def reluDense (z : Ideal .f32) (a : FVec Ideal ⟨2, ![M, K]⟩ .f32) (b : FVec Ideal ⟨2, ![1, K]⟩ .f32)
    (w : FVec Ideal ⟨2, ![K, N]⟩ .f32) : FVec Ideal ⟨2, ![M, N]⟩ .f32 :=
  fun i => ∑ k : Fin K, max (a (ix2 (n0 := M) (i 0) k) + b (ix2 (0 : Fin 1) k)) z * w (ix2 (n1 := N) k (i 1))

/-- Multiply `x` by `w`, then add the row `b` to every row. -/
def denseBias (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => (∑ k : Fin K, x (ix2 (n0 := M) (i 0) k) * w (ix2 (n1 := N) k (i 1))) + b (ix2 (0 : Fin 1) (i 1))

theorem dense_apply (x : FVec Ideal ⟨2, ![M, K]⟩ .f32) (w : FVec Ideal ⟨2, ![K, N]⟩ .f32) (p : Fin M) (q : Fin N) :
    dense x w (ix2 p q) = ∑ k : Fin K, x (ix2 p k) * w (ix2 k q) := rfl

theorem reluDense_apply (z : Ideal .f32) (a : FVec Ideal ⟨2, ![M, K]⟩ .f32) (b : FVec Ideal ⟨2, ![1, K]⟩ .f32)
    (w : FVec Ideal ⟨2, ![K, N]⟩ .f32) (p : Fin M) (q : Fin N) :
    reluDense z a b w (ix2 p q) = ∑ k : Fin K, max (a (ix2 p k) + b (ix2 (0 : Fin 1) k)) z * w (ix2 k q) := rfl

theorem denseBias_apply (x : FVec Ideal ⟨2, ![M, K]⟩ .f32) (w : FVec Ideal ⟨2, ![K, N]⟩ .f32)
    (b : FVec Ideal ⟨2, ![1, N]⟩ .f32) (p : Fin M) (q : Fin N) :
    denseBias x w b (ix2 p q) = (∑ k : Fin K, x (ix2 p k) * w (ix2 k q)) + b (ix2 (0 : Fin 1) q) := rfl

/-! ## A row tile computed by a matrix unit -/

/-- A tile of `R` rows times the whole `w`, both rounded on the way in, into a zero accumulator: entry `(p, q)` is
    the sum over `k` of the tile's `(p, k)` times `w (k, q)`. -/
theorem matmul_tile (wf : DotDims.WF ⟨2, ![R, K]⟩ ⟨2, ![K, N]⟩ ⟨2, ![R, N]⟩ [1] [0] [0] [1] [] [])
    (prec : Option ContractPrecision) {ψ : FTy} (h : ψ.bits < FTy.f32.bits)
    (x : FVec Ideal ⟨2, ![R, K]⟩ .f32) (w : FVec Ideal ⟨2, ![K, N]⟩ .f32) (p : Fin R) (q : Fin N) :
    matmul (PlainMatmul.dims wf) prec (truncf ψ x h) (truncf ψ w h) (constant ⟨2, ![R, N]⟩ .f32 0x00000000#32) (ix2 p q)
      = ∑ k : Fin K, x (ix2 p k) * w (ix2 k q) :=
  PlainMatmul.matmul_zero_apply wf prec (truncf ψ x h) (truncf ψ w h) p q

/-- The same tile when the left operand is first cast to its own shape, shifted by the one-row array `b` spread over
    the rows, and cut off below at the scalar word `z`. -/
theorem reluMatmul_tile (wf : DotDims.WF ⟨2, ![R, K]⟩ ⟨2, ![K, N]⟩ ⟨2, ![R, N]⟩ [1] [0] [0] [1] [] [])
    (prec : Option ContractPrecision) {ψ : FTy} (h : ψ.bits < FTy.f32.bits)
    (hs : (⟨2, ![R, K]⟩ : Shape).ShapeCasts ⟨2, ![R, K]⟩) (hs' : (⟨2, ![1, K]⟩ : Shape).ShapeCasts ⟨2, ![1, K]⟩)
    (hb : (⟨2, ![1, K]⟩ : Shape).Broadcasts ⟨2, ![R, K]⟩) (zb : BitVec FTy.f32.bits)
    (a : FVec Ideal ⟨2, ![R, K]⟩ .f32) (b : FVec Ideal ⟨2, ![1, K]⟩ .f32) (w : FVec Ideal ⟨2, ![K, N]⟩ .f32)
    (p : Fin R) (q : Fin N) :
    matmul (PlainMatmul.dims wf) prec
        (truncf ψ (maximumf (addf (shapeCast ⟨2, ![R, K]⟩ a hs) (broadcastTo ⟨2, ![R, K]⟩ (shapeCast ⟨2, ![1, K]⟩ b hs') hb))
          (broadcast ⟨2, ![R, K]⟩ (Scalar.ofBits (F := Ideal) .f32 zb))) h)
        (truncf ψ w h) (constant ⟨2, ![R, N]⟩ .f32 0x00000000#32) (ix2 p q)
      = ∑ k : Fin K, max (a (ix2 p k) + b (ix2 (0 : Fin 1) k)) (Ideal.ofBits .f32 zb) * w (ix2 k q) := by
  refine (PlainMatmul.matmul_zero_apply wf prec _ _ p q).trans (Finset.sum_congr rfl fun k _ => ?_)
  rw [truncf_apply, truncf_apply, maximumf_apply, addf_apply, shapeCast_self, shapeCast_self,
    broadcastTo_1b_ab_apply, broadcast_apply]
  rfl

/-- A whole-array product followed by the one-row array `b` spread over the rows and added. -/
theorem matmulBias_tile (wf : DotDims.WF ⟨2, ![R, K]⟩ ⟨2, ![K, N]⟩ ⟨2, ![R, N]⟩ [1] [0] [0] [1] [] [])
    (prec : Option ContractPrecision) {ψ : FTy} (h : ψ.bits < FTy.f32.bits)
    (hs : (⟨2, ![R, K]⟩ : Shape).ShapeCasts ⟨2, ![R, K]⟩) (hs' : (⟨2, ![1, N]⟩ : Shape).ShapeCasts ⟨2, ![1, N]⟩)
    (hb : (⟨2, ![1, N]⟩ : Shape).Broadcasts ⟨2, ![R, N]⟩)
    (x : FVec Ideal ⟨2, ![R, K]⟩ .f32) (w : FVec Ideal ⟨2, ![K, N]⟩ .f32) (b : FVec Ideal ⟨2, ![1, N]⟩ .f32)
    (p : Fin R) (q : Fin N) :
    addf (matmul (PlainMatmul.dims wf) prec (truncf ψ (shapeCast ⟨2, ![R, K]⟩ x hs) h) (truncf ψ w h)
          (constant ⟨2, ![R, N]⟩ .f32 0x00000000#32))
        (broadcastTo ⟨2, ![R, N]⟩ (shapeCast ⟨2, ![1, N]⟩ b hs') hb) (ix2 p q)
      = (∑ k : Fin K, x (ix2 p k) * w (ix2 k q)) + b (ix2 (0 : Fin 1) q) := by
  rw [addf_apply, broadcastTo_1b_ab_apply, shapeCast_self, shapeCast_self]
  exact congrArg (· + b (ix2 (0 : Fin 1) q)) (PlainMatmul.matmul_zero_apply wf prec _ _ p q)

/-! ## The host's product of the whole arrays -/

/-- The host's plain matrix product is the dense layer. -/
theorem dotGeneral_eq_dense (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32) :
    Host.dotGeneral (PlainDot.dims wf) prec x w = dense x w := by
  funext i
  obtain ⟨p, q, rfl⟩ : ∃ (p : Fin M) (q : Fin N), i = ix2 p q := ⟨i 0, i 1, eq_ix2 i⟩
  exact PlainDot.dotGeneral_apply wf prec x w p q

end Idealize.ShloMosaic.DenseLayer

end
-- ==== Proof.LibGnnLayers.lean ====
/-
  Layers of a message-passing network as functions of whole arrays over the extended reals, entry by entry, for any
  extents.

  `enc x w b` is an encoder: the matrix product of `x` with `w`, the one-row array `b` added to every row, the
  maximum with the zero word. `sage mean h wl bl wr` is one relation's aggregation layer before the activation: the
  neighbour mean times `wl` plus the bias row, plus the node's own features times `wr`. `head s1 s2 wo bo` is the
  output layer: the two relations' layers summed, the maximum with the zero word, the product with `wo`, the bias
  row added. Each sum runs over the contracted coordinate in one fixed order.
-/
import proofs.«171575_j3770981286512_1_alg».proof.Proof.LibDenseLayer

noncomputable section

namespace Hgnn

open Idealize.ShloMosaic Idealize.ShloMosaic.ValueIdx Idealize.ShloMosaic.DenseLayer

variable {M K N : Nat}

/-- The zero word as an extended real (never evaluated: both programs hold the same word). -/
abbrev z : Ideal .f32 := Ideal.ofBits .f32 0x00000000#32

/-- An encoder: product, bias row, rectifier. -/
def enc (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (denseBias x w b i) z

theorem enc_apply (x : FVec Ideal ⟨2, ![M, K]⟩ .f32) (w : FVec Ideal ⟨2, ![K, N]⟩ .f32) (b : FVec Ideal ⟨2, ![1, N]⟩ .f32)
    (p : Fin M) (q : Fin N) :
    enc x w b (ix2 p q) = max ((∑ k : Fin K, x (ix2 p k) * w (ix2 k q)) + b (ix2 (0 : Fin 1) q)) z := rfl

/-- One relation's aggregation layer before the activation. -/
def sage (mean h : FVec Ideal ⟨2, ![M, K]⟩ .f32) (wl : FVec Ideal ⟨2, ![K, N]⟩ .f32) (bl : FVec Ideal ⟨2, ![1, N]⟩ .f32)
    (wr : FVec Ideal ⟨2, ![K, N]⟩ .f32) : FVec Ideal ⟨2, ![M, N]⟩ .f32 :=
  fun i => denseBias mean wl bl i + dense h wr i

theorem sage_apply (mean h : FVec Ideal ⟨2, ![M, K]⟩ .f32) (wl : FVec Ideal ⟨2, ![K, N]⟩ .f32)
    (bl : FVec Ideal ⟨2, ![1, N]⟩ .f32) (wr : FVec Ideal ⟨2, ![K, N]⟩ .f32) (p : Fin M) (q : Fin N) :
    sage mean h wl bl wr (ix2 p q)
      = ((∑ k : Fin K, mean (ix2 p k) * wl (ix2 k q)) + bl (ix2 (0 : Fin 1) q)) + ∑ k : Fin K, h (ix2 p k) * wr (ix2 k q) := rfl

/-- The output layer over the two relations' layers. -/
def head (s1 s2 : FVec Ideal ⟨2, ![M, K]⟩ .f32) (wo : FVec Ideal ⟨2, ![K, N]⟩ .f32) (bo : FVec Ideal ⟨2, ![1, N]⟩ .f32) :
    FVec Ideal ⟨2, ![M, N]⟩ .f32 :=
  fun i => (∑ k : Fin K, max (s1 (ix2 (n0 := M) (i 0) k) + s2 (ix2 (n0 := M) (i 0) k)) z * wo (ix2 (n1 := N) k (i 1)))
    + bo (ix2 (0 : Fin 1) (i 1))

theorem head_apply (s1 s2 : FVec Ideal ⟨2, ![M, K]⟩ .f32) (wo : FVec Ideal ⟨2, ![K, N]⟩ .f32)
    (bo : FVec Ideal ⟨2, ![1, N]⟩ .f32) (p : Fin M) (q : Fin N) :
    head s1 s2 wo bo (ix2 p q)
      = (∑ k : Fin K, max (s1 (ix2 p k) + s2 (ix2 p k)) z * wo (ix2 k q)) + bo (ix2 (0 : Fin 1) q) := rfl

end Hgnn

end
-- ==== Proof.Payload2.lean ====
/-
  The combine kernel's arithmetic at a tile row. From a row of the two neighbour means and of the node features it
  forms, for each of the two relations, mean times the left weights plus the bias row plus features times the right
  weights; adds the two; cuts off below at zero; multiplies by the output weights and adds the output bias. Over the
  extended reals every format change is the identity and every matrix unit product into a zero accumulator is the plain
  sum of products over the contracted coordinate.
-/
import proofs.«171575_j3770981286512_1_alg».proof.Proof.Gen.KernelIdeal.Skeleton
import proofs.«171575_j3770981286512_1_alg».proof.Proof.LibGnnLayers

noncomputable section

namespace Cert.KernelIdeal.Pay

open Cert.KernelIdeal Cert.KernelIdeal.Gen Idealize.ShloMosaic Idealize.ShloMosaic.ValueIdx Idealize.ShloMosaic.DenseLayer

/-- A 10000-row tile times a 32 by 32 matrix, both rounded on the way in, into a zero accumulator. -/
theorem mm32 (x : FVec Ideal S10000x32 .f32) (w : FVec Ideal S32x32 .f32) (p : Fin 10000) (j : Fin 32) :
    matmul dot_S10000x32_S32x32_S10000x32_1_0_0_1_n_n none (truncf .bf16 x bitsLt_bf16_f32) (truncf .bf16 w bitsLt_bf16_f32)
        (constant S10000x32 .f32 0x00000000#32) (ix2 p j)
      = ∑ k : Fin 32, x (ix2 p k) * w (ix2 k j) :=
  PlainMatmul.matmul_zero_apply (M := 10000) (K := 32) (N := 32) dot_S10000x32_S32x32_S10000x32_1_0_0_1_n_n.wf none _ _ p j

/-- The rectified sum of the two relations' layers at row `p`, column `j`. -/
theorem pay2_apply (a0 a1 a2 : Vec Ideal S10000x32 .f32) (w3 w5 w6 w8 : Vec Ideal S32x32 .f32) (b4 b7 : Vec Ideal S1x32 .f32)
    (p : Fin 10000) (j : Fin 32) :
    k2_pay2 (F := Ideal) a0 a1 a2 w3 w5 w6 w8 b4 b7 (ix2 p j)
      = max ((((∑ k : Fin 32, a0 (ix2 p k) * w3 (ix2 k j)) + b4 (ix2 (0 : Fin 1) j)) + ∑ k : Fin 32, a2 (ix2 p k) * w5 (ix2 k j))
           + (((∑ k : Fin 32, a1 (ix2 p k) * w6 (ix2 k j)) + b7 (ix2 (0 : Fin 1) j)) + ∑ k : Fin 32, a2 (ix2 p k) * w8 (ix2 k j)))
          Hgnn.z := by
  unfold k2_pay2
  rw [truncf_apply, maximumf_apply, broadcast_apply]
  simp only [addf_apply, broadcastTo_1b_ab_apply, shapeCast_self, mm32]
  rfl

/-- The output projection at row `p`. -/
theorem pay1_apply (h : FVec Ideal S10000x32 .bf16) (wo : Vec Ideal S32x1 .f32) (bo : Vec Ideal S1x1 .f32)
    (p : Fin 10000) (q : Fin 1) :
    k2_pay1 (F := Ideal) h wo bo (ix2 p q) = (∑ j : Fin 32, h (ix2 p j) * wo (ix2 j q)) + bo (ix2 (0 : Fin 1) q) := by
  unfold k2_pay1
  rw [addf_apply, broadcastTo_1b_ab_apply, shapeCast_self]
  refine congrArg (fun s => s + bo (ix2 (0 : Fin 1) q)) ?_
  exact PlainMatmul.matmul_zero_apply (M := 10000) (K := 32) (N := 1) dot_S10000x32_S32x1_S10000x1_1_0_0_1_n_n.wf none _ _ p q

/-- The combine kernel's stored value at row `p`. -/
theorem combine_tile (a0 a1 a2 : Vec Ideal S10000x32 .f32) (w3 w5 w6 w8 : Vec Ideal S32x32 .f32) (b4 b7 : Vec Ideal S1x32 .f32)
    (wo : Vec Ideal S32x1 .f32) (bo : Vec Ideal S1x1 .f32) (p : Fin 10000) (q : Fin 1) :
    k2_pay1 (F := Ideal) (k2_pay2 a0 a1 a2 w3 w5 w6 w8 b4 b7) wo bo (ix2 p q)
      = (∑ j : Fin 32,
            max ((((∑ k : Fin 32, a0 (ix2 p k) * w3 (ix2 k j)) + b4 (ix2 (0 : Fin 1) j)) + ∑ k : Fin 32, a2 (ix2 p k) * w5 (ix2 k j))
              + (((∑ k : Fin 32, a1 (ix2 p k) * w6 (ix2 k j)) + b7 (ix2 (0 : Fin 1) j)) + ∑ k : Fin 32, a2 (ix2 p k) * w8 (ix2 k j)))
              Hgnn.z * wo (ix2 j q))
          + bo (ix2 (0 : Fin 1) q) := by
  rw [pay1_apply]
  refine congrArg (fun s => s + bo (ix2 (0 : Fin 1) q)) (Finset.sum_congr rfl fun j _ => ?_)
  rw [pay2_apply]

end Cert.KernelIdeal.Pay

end
-- ==== Proof.Region2.lean ====
/-
  The combine kernel's region, read as a value. The grid has ten points; point `t` stages rows
  `10000 t … 10000 t + 9999` of the two neighbour means and of the node features, the six small operands of the two
  relations' layers, the output weights and the output bias whole, and writes back the same rows of the one-column
  output array. What a point writes back is the block of ONE whole-array function — the output layer of the two
  relations' aggregation layers of the arrays as the region finds them — and the ten blocks cover the output array.
-/
import proofs.«171575_j3770981286512_1_alg».proof.Proof.Gen.KernelIdeal.Frame
import proofs.«171575_j3770981286512_1_alg».proof.Proof.Payload2
import Idealize.ShloMosaic.Lib.Pipeline.Value

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the ten points: the three row-blocked inputs move with the output window along the
    rows, every other block index is zero, and the output's row block index is below ten. -/
theorem idx_facts : ∀ t : Fin cfg2.N, win2_0.index t (0 : Fin 2) = win2_11.index t (0 : Fin 2)
    ∧ win2_0.index t (1 : Fin 2) = 0
    ∧ win2_1.index t (0 : Fin 2) = win2_11.index t (0 : Fin 2)
    ∧ win2_1.index t (1 : Fin 2) = 0
    ∧ win2_2.index t (0 : Fin 2) = win2_11.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (1 : Fin 2) = 0
    ∧ win2_11.index t (0 : Fin 2) ≤ 9 :=
  (by decide +kernel : ∀ t : Fin grid2.N, _)

/-- Every row block is some point's. -/
theorem idx_onto : ∀ q0 : Fin 10, ∃ t : Fin cfg2.N, win2_11.index t (0 : Fin 2) = q0.val :=
  (by decide +kernel : ∀ q0 : Fin 10, ∃ t : Fin grid2.N, win2_11.index t (0 : Fin 2) = q0.val)

/-- A tile row is an array row: if the tile's row `p` is the arrays' row `r`, the body's stored value at `(p, q)` is the
    output layer's entry `(r, q)`. -/
theorem comb_block (A0 A1 A2 : FVec Ideal S100000x32 .f32) (W3 W5 W6 W8 : FVec Ideal S32x32 .f32) (B4 B7 : FVec Ideal S1x32 .f32)
    (W9 : FVec Ideal S32x1 .f32) (B10 : FVec Ideal S1x1 .f32)
    (x0 x1 x2 : Vec Ideal S10000x32 .f32) (x3 x5 x6 x8 : Vec Ideal S32x32 .f32) (x4 x7 : Vec Ideal S1x32 .f32)
    (x9 : Vec Ideal S32x1 .f32) (x10 : Vec Ideal S1x1 .f32)
    (r : Fin 100000) (p : Fin 10000) (q : Fin 1)
    (h0 : ∀ k : Fin 32, x0 (ix2 p k) = A0 (ix2 r k)) (h1 : ∀ k : Fin 32, x1 (ix2 p k) = A1 (ix2 r k))
    (h2 : ∀ k : Fin 32, x2 (ix2 p k) = A2 (ix2 r k))
    (h3 : ∀ k j : Fin 32, x3 (ix2 k j) = W3 (ix2 k j)) (h5 : ∀ k j : Fin 32, x5 (ix2 k j) = W5 (ix2 k j))
    (h6 : ∀ k j : Fin 32, x6 (ix2 k j) = W6 (ix2 k j)) (h8 : ∀ k j : Fin 32, x8 (ix2 k j) = W8 (ix2 k j))
    (h4 : ∀ j : Fin 32, x4 (ix2 (0 : Fin 1) j) = B4 (ix2 (0 : Fin 1) j))
    (h7 : ∀ j : Fin 32, x7 (ix2 (0 : Fin 1) j) = B7 (ix2 (0 : Fin 1) j))
    (h9 : ∀ (k : Fin 32) (j : Fin 1), x9 (ix2 k j) = W9 (ix2 k j))
    (h10 : ∀ j : Fin 1, x10 (ix2 (0 : Fin 1) j) = B10 (ix2 (0 : Fin 1) j)) :
    k2_pay1 (F := Ideal) (k2_pay2 x0 x1 x2 x3 x5 x6 x8 x4 x7) x9 x10 (ix2 p q)
      = Hgnn.head (M := 100000) (K := 32) (N := 1) (Hgnn.sage (M := 100000) (K := 32) (N := 32) A0 A2 W3 B4 W5)
          (Hgnn.sage (M := 100000) (K := 32) (N := 32) A1 A2 W6 B7 W8) W9 B10 (ix2 r q) := by
  rw [Pay.combine_tile, Hgnn.head_apply, h10]
  refine congrArg (fun s => s + B10 (ix2 (0 : Fin 1) q)) (Finset.sum_congr rfl fun j _ => ?_)
  rw [Hgnn.sage_apply, Hgnn.sage_apply, h9, h4, h7]
  simp only [h0, h1, h2, h3, h5, h6, h8]

set_option maxHeartbeats 4000000 in
/-- What point `t` writes back is block `t` of the output layer of the arrays the region finds. -/
theorem flushed_eq (c : Dev nD) (t : Fin cfg2.N) :
    (dat2 (F := Ideal) V c).flushed 11 t
      = ((cfg2.win 11).blk t).view.read (Elt Ideal) (Hgnn.head (M := 100000) (K := 32) (N := 1) (Hgnn.sage (M := 100000) (K := 32) (N := 32) (V c main_v16) (V c main_v1) (V c main_arg15) (V c main_v30) (V c main_arg17)) (Hgnn.sage (M := 100000) (K := 32) (N := 32) (V c main_v29) (V c main_v1) (V c main_arg18) (V c main_v31) (V c main_arg20)) (V c main_arg21) (V c main_v32)) := by
  show (cfg2.win 11).cut (grid2.coords t) ((dat2 V c).after 11 t) = _
  rw [after2_11]
  unfold out2_11
  rw [View.canon_unit_zero hz]
  simp only [View.ld_unit_zero (S := S10000x32) hz, View.ld_unit_zero (S := S32x32) hz, View.ld_unit_zero (S := S1x32) hz,
    View.ld_unit_zero (S := S32x1) hz, View.ld_unit_zero (S := S1x1) hz]
  obtain ⟨e0, e1, e2, e3, e4, e5, e6, e7, e8, e9, e10, e11, e12, e13, e14, e15, e16, e17, e18, e19, e20, e21, e22, e23⟩ := idx_facts t
  funext j
  obtain ⟨p, q, rfl⟩ : ∃ (p : Fin 10000) (q : Fin 1), j = ix2 p q := ⟨j 0, j 1, eq_ix2 j⟩
  have hp : p.val < 10000 := p.isLt
  have hq : q.val < 1 := q.isLt
  show k2_pay1 (F := Ideal) (k2_pay2 (iblk2 V c 0 t) (iblk2 V c 1 t) (iblk2 V c 2 t) (iblk2 V c 3 t) (iblk2 V c 5 t) (iblk2 V c 6 t)
        (iblk2 V c 8 t) (iblk2 V c 4 t) (iblk2 V c 7 t)) (iblk2 V c 9 t) (iblk2 V c 10 t) (ix2 p q)
      = (Hgnn.head (M := 100000) (K := 32) (N := 1) (Hgnn.sage (M := 100000) (K := 32) (N := 32) (V c main_v16) (V c main_v1) (V c main_arg15) (V c main_v30) (V c main_arg17)) (Hgnn.sage (M := 100000) (K := 32) (N := 32) (V c main_v29) (V c main_v1) (V c main_arg18) (V c main_v31) (V c main_arg20)) (V c main_arg21) (V c main_v32)) (((cfg2.win 11).blk t).view.emb (ix2 p q))
  have hr : ((cfg2.win 11).blk t).view.emb (ix2 p q) = ix2 (⟨win2_11.index t (0 : Fin 2) * 10000 + p.val, by omega⟩ : Fin 100000) q := by
    funext a; apply Fin.ext
    match a with
    | ⟨0, _⟩ => show win2_11.index t (0 : Fin 2) * 10000 + 1 * p.val = win2_11.index t (0 : Fin 2) * 10000 + p.val; omega
    | ⟨1, _⟩ => show win2_11.index t (1 : Fin 2) * 1 + 1 * q.val = q.val; omega
  rw [hr]
  refine comb_block (V c main_v16) (V c main_v29) (V c main_v1) (V c main_arg15) (V c main_arg17) (V c main_arg18) (V c main_arg20)
    (V c main_v30) (V c main_v31) (V c main_arg21) (V c main_v32) _ _ _ _ _ _ _ _ _ _ _ _ p q ?_ ?_ ?_ ?_ ?_ ?_ ?_ ?_ ?_ ?_ ?_
  · intro k
    have hk : k.val < 32 := k.isLt
    show V c main_v16 (((cfg2.win 0).blk t).view.emb (ix2 p k)) = V c main_v16 (ix2 _ k)
    refine congrArg (V c main_v16) ?_
    funext a; apply Fin.ext
    match a with
    | ⟨0, _⟩ => show win2_0.index t (0 : Fin 2) * 10000 + 1 * p.val = win2_11.index t (0 : Fin 2) * 10000 + p.val; omega
    | ⟨1, _⟩ => show win2_0.index t (1 : Fin 2) * 32 + 1 * k.val = k.val; omega
  · intro k
    have hk : k.val < 32 := k.isLt
    show V c main_v29 (((cfg2.win 1).blk t).view.emb (ix2 p k)) = V c main_v29 (ix2 _ k)
    refine congrArg (V c main_v29) ?_
    funext a; apply Fin.ext
    match a with
    | ⟨0, _⟩ => show win2_1.index t (0 : Fin 2) * 10000 + 1 * p.val = win2_11.index t (0 : Fin 2) * 10000 + p.val; omega
    | ⟨1, _⟩ => show win2_1.index t (1 : Fin 2) * 32 + 1 * k.val = k.val; omega
  · intro k
    have hk : k.val < 32 := k.isLt
    show V c main_v1 (((cfg2.win 2).blk t).view.emb (ix2 p k)) = V c main_v1 (ix2 _ k)
    refine congrArg (V c main_v1) ?_
    funext a; apply Fin.ext
    match a with
    | ⟨0, _⟩ => show win2_2.index t (0 : Fin 2) * 10000 + 1 * p.val = win2_11.index t (0 : Fin 2) * 10000 + p.val; omega
    | ⟨1, _⟩ => show win2_2.index t (1 : Fin 2) * 32 + 1 * k.val = k.val; omega
  · intro k j
    have hk : k.val < 32 := k.isLt
    have hj : j.val < 32 := j.isLt
    show V c main_arg15 (((cfg2.win 3).blk t).view.emb (ix2 k j)) = V c main_arg15 (ix2 k j)
    refine congrArg (V c main_arg15) ?_
    funext a; apply Fin.ext
    match a with
    | ⟨0, _⟩ => show win2_3.index t (0 : Fin 2) * 32 + 1 * k.val = k.val; omega
    | ⟨1, _⟩ => show win2_3.index t (1 : Fin 2) * 32 + 1 * j.val = j.val; omega
  · intro k j
    have hk : k.val < 32 := k.isLt
    have hj : j.val < 32 := j.isLt
    show V c main_arg17 (((cfg2.win 5).blk t).view.emb (ix2 k j)) = V c main_arg17 (ix2 k j)
    refine congrArg (V c main_arg17) ?_
    funext a; apply Fin.ext
    match a with
    | ⟨0, _⟩ => show win2_5.index t (0 : Fin 2) * 32 + 1 * k.val = k.val; omega
    | ⟨1, _⟩ => show win2_5.index t (1 : Fin 2) * 32 + 1 * j.val = j.val; omega
  · intro k j
    have hk : k.val < 32 := k.isLt
    have hj : j.val < 32 := j.isLt
    show V c main_arg18 (((cfg2.win 6).blk t).view.emb (ix2 k j)) = V c main_arg18 (ix2 k j)
    refine congrArg (V c main_arg18) ?_
    funext a; apply Fin.ext
    match a with
    | ⟨0, _⟩ => show win2_6.index t (0 : Fin 2) * 32 + 1 * k.val = k.val; omega
    | ⟨1, _⟩ => show win2_6.index t (1 : Fin 2) * 32 + 1 * j.val = j.val; omega
  · intro k j
    have hk : k.val < 32 := k.isLt
    have hj : j.val < 32 := j.isLt
    show V c main_arg20 (((cfg2.win 8).blk t).view.emb (ix2 k j)) = V c main_arg20 (ix2 k j)
    refine congrArg (V c main_arg20) ?_
    funext a; apply Fin.ext
    match a with
    | ⟨0, _⟩ => show win2_8.index t (0 : Fin 2) * 32 + 1 * k.val = k.val; omega
    | ⟨1, _⟩ => show win2_8.index t (1 : Fin 2) * 32 + 1 * j.val = j.val; omega
  · intro j
    have hj : j.val < 32 := j.isLt
    show V c main_v30 (((cfg2.win 4).blk t).view.emb (ix2 (0 : Fin 1) j)) = V c main_v30 (ix2 (0 : Fin 1) j)
    refine congrArg (V c main_v30) ?_
    funext a; apply Fin.ext
    match a with
    | ⟨0, _⟩ => show win2_4.index t (0 : Fin 2) * 1 + 1 * 0 = 0; omega
    | ⟨1, _⟩ => show win2_4.index t (1 : Fin 2) * 32 + 1 * j.val = j.val; omega
  · intro j
    have hj : j.val < 32 := j.isLt
    show V c main_v31 (((cfg2.win 7).blk t).view.emb (ix2 (0 : Fin 1) j)) = V c main_v31 (ix2 (0 : Fin 1) j)
    refine congrArg (V c main_v31) ?_
    funext a; apply Fin.ext
    match a with
    | ⟨0, _⟩ => show win2_7.index t (0 : Fin 2) * 1 + 1 * 0 = 0; omega
    | ⟨1, _⟩ => show win2_7.index t (1 : Fin 2) * 32 + 1 * j.val = j.val; omega
  · intro k j
    have hk : k.val < 32 := k.isLt
    have hj : j.val < 1 := j.isLt
    show V c main_arg21 (((cfg2.win 9).blk t).view.emb (ix2 k j)) = V c main_arg21 (ix2 k j)
    refine congrArg (V c main_arg21) ?_
    funext a; apply Fin.ext
    match a with
    | ⟨0, _⟩ => show win2_9.index t (0 : Fin 2) * 32 + 1 * k.val = k.val; omega
    | ⟨1, _⟩ => show win2_9.index t (1 : Fin 2) * 1 + 1 * j.val = j.val; omega
  · intro j
    have hj : j.val < 1 := j.isLt
    show V c main_v32 (((cfg2.win 10).blk t).view.emb (ix2 (0 : Fin 1) j)) = V c main_v32 (ix2 (0 : Fin 1) j)
    refine congrArg (V c main_v32) ?_
    funext a; apply Fin.ext
    match a with
    | ⟨0, _⟩ => show win2_10.index t (0 : Fin 2) * 1 + 1 * 0 = 0; omega
    | ⟨1, _⟩ => show win2_10.index t (1 : Fin 2) * 1 + 1 * j.val = j.val; omega

/-- An index of the output array is in point `t`'s block iff each coordinate is in the block's range on its axis. -/
theorem mem_blk (t : Fin cfg2.N) (i : S100000x1.Idx) :
    i ∈ ((cfg2.win 11).blk t).view.set ↔ ∀ a : Fin 2, win2_11.index t a * S10000x1.size a ≤ (i a).val ∧ (i a).val < win2_11.index t a * S10000x1.size a + S10000x1.size a := by
  show i ∈ ((View.whole main_v33).slice (win2_11.rect t)).set ↔ _
  rw [View.set_slice_whole, Rect.mem_set_unit]
  exact Iff.rfl

/-- Every index of the output array is in some point's block: row `r` is in block `r / 10000`. -/
theorem cover (i : S100000x1.Idx) : ∃ t : Fin cfg2.N, (cfg2.win 11).flush t = true ∧ i ∈ ((cfg2.win 11).blk t).view.set := by
  have hi0 : (i 0).val < 100000 := (i 0).isLt
  have hi1 : (i 1).val < 1 := (i 1).isLt
  obtain ⟨t, ht⟩ := idx_onto ⟨(i 0).val / 10000, by omega⟩
  have q0 : win2_11.index t (0 : Fin 2) = (i 0).val / 10000 := ht
  obtain ⟨e0, e1, e2, e3, e4, e5, e6, e7, e8, e9, e10, e11, e12, e13, e14, e15, e16, e17, e18, e19, e20, e21, e22, e23⟩ := idx_facts t
  refine ⟨t, flush2_11 t, ?_⟩
  rw [mem_blk]
  intro a
  match a with
  | ⟨0, _⟩ => show win2_11.index t (0 : Fin 2) * 10000 ≤ (i 0).val ∧ (i 0).val < win2_11.index t (0 : Fin 2) * 10000 + 10000; omega
  | ⟨1, _⟩ => show win2_11.index t (1 : Fin 2) * 1 ≤ (i 1).val ∧ (i 1).val < win2_11.index t (1 : Fin 2) * 1 + 1; omega

/-- After the region the output array is the output layer of the arrays the region finds. -/
theorem final (c : Dev nD) :
    (dat2 (F := Ideal) V c).arrAt 11 cfg2.N = Hgnn.head (M := 100000) (K := 32) (N := 1) (Hgnn.sage (M := 100000) (K := 32) (N := 32) (V c main_v16) (V c main_v1) (V c main_arg15) (V c main_v30) (V c main_arg17)) (Hgnn.sage (M := 100000) (K := 32) (N := 32) (V c main_v29) (V c main_v1) (V c main_arg18) (V c main_v31) (V c main_arg20)) (V c main_arg21) (V c main_v32) :=
  (dat2 V c).arrAt_eq_of_cover 11 _ (fun t _ => flushed_eq V c t) cover

end Cert.KernelIdeal.Reg2

end
-- ==== Proof.KerChain.lean ====
/-
  The idealized kernel program's host stages between its regions, named: the row look-up with its out-of-range guard and
  the mean over incoming edges, for each of the two edge relations, as functions of the arrays they read.
-/
import proofs.«171575_j3770981286512_1_alg».proof.KernelIdeal

noncomputable section

namespace Cert.KernelIdeal.Chain

open Cert.KernelIdeal Idealize.ShloMosaic

variable {F : FTy → Type} [FloatOps F]
variable [Facts]
open Facts₀ Facts

/-- The row numbers of a look-up into 200000 rows: a negative number counts from the end, as one column. -/
def rowIxRB (src : (⟨S1000000, .i32⟩ : BufTy).Contents (Elt F)) : (⟨S1000000x1, .i32⟩ : BufTy).Contents (Elt F) :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 200000#32))) src)

/-- The look-up of 1000000 rows of a 200000-row table: the gathered row where the row number is in range, the fill word
    elsewhere. -/
def takeRB (h : (⟨S200000x32, .f32⟩ : BufTy).Contents (Elt F)) (src : (⟨S1000000, .i32⟩ : BufTy).Contents (Elt F)) : (⟨S1000000x32, .f32⟩ : BufTy).Contents (Elt F) :=
  select (broadcastInDim S1000000x32 ![0] bcast_S1000000_S1000000x32_0
      (Host.reduce IntOp.andi
        (andi (cmpi .sge (rowIxRB (F := F) src) (broadcastInDim S1000000x1 ![] bcast_S_S1000000x1 (constantI S_ 32 0#32)))
          (cmpi .sle (rowIxRB (F := F) src) (broadcastInDim S1000000x1 ![0, 1] bcast_S1x1_S1000000x1_0_1
            (broadcastInDim S1x1 ![1] bcast_S1_S1x1_1 (constantI S1 32 199999#32)))))
        (constantI S_ 1 1#1) reducesTo_S1000000x1_S1000000_d1 h_S_))
    (Host.gather gather_S200000x32_S1000000x1_S1000000x32_1_0_n_n_0_1_132 h (rowIxRB (F := F) src))
    (broadcastInDim S1000000x32 ![] bcast_S_S1000000x32 (constant (F := F) S_ .f32 0x7FC00000#32))

/-- The mean over incoming edges: the looked-up rows summed per destination, divided by the number of incoming edges
    clamped below at one. -/
def meanRB (msg : (⟨S1000000x32, .f32⟩ : BufTy).Contents (Elt F)) (dst : (⟨S1000000, .i32⟩ : BufTy).Contents (Elt F)) : (⟨S100000x32, .f32⟩ : BufTy).Contents (Elt F) :=
  Host.divf
    (Host.scatterAdd scatter_S100000x32_S1000000x1_S1000000x32_1_0_0_1
      (broadcastInDim S100000x32 ![] bcast_S_S100000x32 (constant (F := F) S_ .f32 0x00000000#32))
      (broadcastInDim S1000000x1 ![0] bcast_S1000000_S1000000x1_0 dst) msg)
    (broadcastInDim S100000x32 ![0, 1] bcast_S100000x1_S100000x32_0_1 (broadcastInDim S100000x1 ![0] bcast_S100000_S100000x1_0
      (maximumf
        (Host.scatterAdd scatter_S100000_S1000000x1_S1000000_n_0_0_1
          (broadcastInDim S100000 ![] bcast_S_S100000 (constant (F := F) S_ .f32 0x00000000#32))
          (broadcastInDim S1000000x1 ![0] bcast_S1000000_S1000000x1_0 dst)
          (broadcastInDim S1000000 ![] bcast_S_S1000000 (constant (F := F) S_ .f32 0x3F800000#32)))
        (broadcastInDim S100000 ![] bcast_S_S100000 (constant (F := F) S_ .f32 0x3F800000#32)))))

/-- The row numbers of a look-up into 100000 rows: a negative number counts from the end, as one column. -/
def rowIxBB (src : (⟨S500000, .i32⟩ : BufTy).Contents (Elt F)) : (⟨S500000x1, .i32⟩ : BufTy).Contents (Elt F) :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 100000#32))) src)

/-- The look-up of 500000 rows of a 100000-row table: the gathered row where the row number is in range, the fill word
    elsewhere. -/
def takeBB (h : (⟨S100000x32, .f32⟩ : BufTy).Contents (Elt F)) (src : (⟨S500000, .i32⟩ : BufTy).Contents (Elt F)) : (⟨S500000x32, .f32⟩ : BufTy).Contents (Elt F) :=
  select (broadcastInDim S500000x32 ![0] bcast_S500000_S500000x32_0
      (Host.reduce IntOp.andi
        (andi (cmpi .sge (rowIxBB (F := F) src) (broadcastInDim S500000x1 ![] bcast_S_S500000x1 (constantI S_ 32 0#32)))
          (cmpi .sle (rowIxBB (F := F) src) (broadcastInDim S500000x1 ![0, 1] bcast_S1x1_S500000x1_0_1
            (broadcastInDim S1x1 ![1] bcast_S1_S1x1_1 (constantI S1 32 99999#32)))))
        (constantI S_ 1 1#1) reducesTo_S500000x1_S500000_d1 h_S_))
    (Host.gather gather_S100000x32_S500000x1_S500000x32_1_0_n_n_0_1_132 h (rowIxBB (F := F) src))
    (broadcastInDim S500000x32 ![] bcast_S_S500000x32 (constant (F := F) S_ .f32 0x7FC00000#32))

/-- The mean over incoming edges: the looked-up rows summed per destination, divided by the number of incoming edges
    clamped below at one. -/
def meanBB (msg : (⟨S500000x32, .f32⟩ : BufTy).Contents (Elt F)) (dst : (⟨S500000, .i32⟩ : BufTy).Contents (Elt F)) : (⟨S100000x32, .f32⟩ : BufTy).Contents (Elt F) :=
  Host.divf
    (Host.scatterAdd scatter_S100000x32_S500000x1_S500000x32_1_0_0_1
      (broadcastInDim S100000x32 ![] bcast_S_S100000x32 (constant (F := F) S_ .f32 0x00000000#32))
      (broadcastInDim S500000x1 ![0] bcast_S500000_S500000x1_0 dst) msg)
    (broadcastInDim S100000x32 ![0, 1] bcast_S100000x1_S100000x32_0_1 (broadcastInDim S100000x1 ![0] bcast_S100000_S100000x1_0
      (maximumf
        (Host.scatterAdd scatter_S100000_S500000x1_S500000_n_0_0_1
          (broadcastInDim S100000 ![] bcast_S_S100000 (constant (F := F) S_ .f32 0x00000000#32))
          (broadcastInDim S500000x1 ![0] bcast_S500000_S500000x1_0 dst)
          (broadcastInDim S500000 ![] bcast_S_S500000 (constant (F := F) S_ .f32 0x3F800000#32)))
        (broadcastInDim S100000 ![] bcast_S_S100000 (constant (F := F) S_ .f32 0x3F800000#32)))))

end Cert.KernelIdeal.Chain

end
-- ==== Proof.KerHost.lean ====
/-
  The host stretches between the second and the third kernel region, read back. The third region's input arrays, as
  that region finds them, are: the two neighbour means (each the mean over incoming edges of the looked-up rows of an
  encoder's output), the bridge encoder's output, the six weight arrays and the three bias vectors viewed as one-row
  arrays — each a function of the buffer contents after the second region.
-/
import proofs.«171575_j3770981286512_1_alg».proof.Proof.Gen.KernelIdeal.Frame
import proofs.«171575_j3770981286512_1_alg».proof.Proof.KerChain
import Idealize.ShloMosaic.Lib.StableHlo.Run

set_option maxRecDepth 16384

noncomputable section

namespace Cert.KernelIdeal.HostBack

open Cert.KernelIdeal Cert.KernelIdeal.Gen Idealize.ShloMosaic Idealize.ShloMosaic.TcCoe Idealize.SL.Sem Idealize.ShloMosaic.StableHlo

variable {F : FTy → Type} [FloatOps F]

/-- The road-to-bridge row look-up's operations stated on the underlying buffers (the program states them on typed
    references to the same literal buffers, which transport contents along equations that hold by computation). -/
abbrev take1 : List (HloOp τ sig (Elt F)) :=
  [ StableHlo.nullary main_call0_c (constantI S_ 32 0#32 : (⟨S_, .i32⟩ : BufTy).Contents (Elt F)),
    StableHlo.unary main_call0_c main_call0_v0 ((broadcastInDim S1000000 ![] bcast_S_S1000000) : (⟨S_, .i32⟩ : BufTy).Contents (Elt F) → (⟨S1000000, .i32⟩ : BufTy).Contents (Elt F)),
    StableHlo.binary main_arg4 main_call0_v0 main_call0_v1 ((cmpi .slt) : (⟨S1000000, .i32⟩ : BufTy).Contents (Elt F) → (⟨S1000000, .i32⟩ : BufTy).Contents (Elt F) → (⟨S1000000, .i1⟩ : BufTy).Contents (Elt F)),
    StableHlo.nullary main_call0_c_0 (constantI S_ 32 200000#32 : (⟨S_, .i32⟩ : BufTy).Contents (Elt F)),
    StableHlo.unary main_call0_c_0 main_call0_v2 ((broadcastInDim S1000000 ![] bcast_S_S1000000) : (⟨S_, .i32⟩ : BufTy).Contents (Elt F) → (⟨S1000000, .i32⟩ : BufTy).Contents (Elt F)),
    StableHlo.binary main_arg4 main_call0_v2 main_call0_v3 ((addi) : (⟨S1000000, .i32⟩ : BufTy).Contents (Elt F) → (⟨S1000000, .i32⟩ : BufTy).Contents (Elt F) → (⟨S1000000, .i32⟩ : BufTy).Contents (Elt F)),
    StableHlo.ternary main_call0_v1 main_call0_v3 main_arg4 main_call0_v4 ((select) : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_call0_v4 main_call0_v5 ((broadcastInDim S1000000x1 ![0] bcast_S1000000_S1000000x1_0) : (⟨S1000000, .i32⟩ : BufTy).Contents (Elt F) → (⟨S1000000x1, .i32⟩ : BufTy).Contents (Elt F)),
    StableHlo.nullary main_call0_c_1 (constantI S1 32 199999#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 ((broadcastInDim S1000000x1 ![] bcast_S_S1000000x1) : (⟨S_, .i32⟩ : BufTy).Contents (Elt F) → (⟨S1000000x1, .i32⟩ : BufTy).Contents (Elt F)),
    StableHlo.binary main_call0_v5 main_call0_v6 main_call0_v7 ((cmpi .sge) : (⟨S1000000x1, .i32⟩ : BufTy).Contents (Elt F) → (⟨S1000000x1, .i32⟩ : BufTy).Contents (Elt F) → (⟨S1000000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S1000000x1 ![0, 1] bcast_S1x1_S1000000x1_0_1) : (⟨S1x1, .i32⟩ : BufTy).Contents (Elt F) → (⟨S1000000x1, .i32⟩ : BufTy).Contents (Elt F)),
    StableHlo.binary main_call0_v5 main_call0_v9 main_call0_v10 ((cmpi .sle) : (⟨S1000000x1, .i32⟩ : BufTy).Contents (Elt F) → (⟨S1000000x1, .i32⟩ : BufTy).Contents (Elt F) → (⟨S1000000x1, .i1⟩ : BufTy).Contents (Elt F)),
    StableHlo.binary main_call0_v7 main_call0_v10 main_call0_v11 ((andi) : (⟨S1000000x1, .i1⟩ : BufTy).Contents (Elt F) → (⟨S1000000x1, .i1⟩ : BufTy).Contents (Elt F) → (⟨S1000000x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 ((fun x v => Host.reduce IntOp.andi x v reducesTo_S1000000x1_S1000000_d1 h_S_) : (⟨S1000000x1, .i1⟩ : BufTy).Contents (Elt F) → (⟨S_, .i1⟩ : BufTy).Contents (Elt F) → (⟨S1000000, .i1⟩ : BufTy).Contents (Elt F)),
    StableHlo.binary main_v3 main_call0_v5 main_call0_v13 ((fun x i => Host.gather gather_S200000x32_S1000000x1_S1000000x32_1_0_n_n_0_1_132 x i) : (⟨S200000x32, .f32⟩ : BufTy).Contents (Elt F) → (⟨S1000000x1, .i32⟩ : BufTy).Contents (Elt F) → (⟨S1000000x32, .f32⟩ : BufTy).Contents (Elt F)),
    StableHlo.unary main_call0_v12 main_call0_v14 ((broadcastInDim S1000000x32 ![0] bcast_S1000000_S1000000x32_0) : (⟨S1000000, .i1⟩ : BufTy).Contents (Elt F) → (⟨S1000000x32, .i1⟩ : BufTy).Contents (Elt F)),
    StableHlo.nullary main_call0_cst (constant S_ .f32 0x7FC00000#32 : (⟨S_, .f32⟩ : BufTy).Contents (Elt F)),
    StableHlo.unary main_call0_cst main_call0_v15 ((broadcastInDim S1000000x32 ![] bcast_S_S1000000x32) : (⟨S_, .f32⟩ : BufTy).Contents (Elt F) → (⟨S1000000x32, .f32⟩ : BufTy).Contents (Elt F)),
    StableHlo.ternary main_call0_v14 main_call0_v13 main_call0_v15 main_v4 ((select) : (⟨S1000000x32, .i1⟩ : BufTy).Contents (Elt F) → (⟨S1000000x32, .f32⟩ : BufTy).Contents (Elt F) → (⟨S1000000x32, .f32⟩ : BufTy).Contents (Elt F) → (⟨S1000000x32, .f32⟩ : BufTy).Contents (Elt F)) ]

/-- The bridge-to-bridge row look-up's operations, likewise. -/
abbrev take2 : List (HloOp τ sig (Elt F)) :=
  [ StableHlo.nullary main_call1_c (constantI S_ 32 0#32 : (⟨S_, .i32⟩ : BufTy).Contents (Elt F)),
    StableHlo.unary main_call1_c main_call1_v0 ((broadcastInDim S500000 ![] bcast_S_S500000) : (⟨S_, .i32⟩ : BufTy).Contents (Elt F) → (⟨S500000, .i32⟩ : BufTy).Contents (Elt F)),
    StableHlo.binary main_arg6 main_call1_v0 main_call1_v1 ((cmpi .slt) : (⟨S500000, .i32⟩ : BufTy).Contents (Elt F) → (⟨S500000, .i32⟩ : BufTy).Contents (Elt F) → (⟨S500000, .i1⟩ : BufTy).Contents (Elt F)),
    StableHlo.nullary main_call1_c_0 (constantI S_ 32 100000#32 : (⟨S_, .i32⟩ : BufTy).Contents (Elt F)),
    StableHlo.unary main_call1_c_0 main_call1_v2 ((broadcastInDim S500000 ![] bcast_S_S500000) : (⟨S_, .i32⟩ : BufTy).Contents (Elt F) → (⟨S500000, .i32⟩ : BufTy).Contents (Elt F)),
    StableHlo.binary main_arg6 main_call1_v2 main_call1_v3 ((addi) : (⟨S500000, .i32⟩ : BufTy).Contents (Elt F) → (⟨S500000, .i32⟩ : BufTy).Contents (Elt F) → (⟨S500000, .i32⟩ : BufTy).Contents (Elt F)),
    StableHlo.ternary main_call1_v1 main_call1_v3 main_arg6 main_call1_v4 ((select) : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_call1_v4 main_call1_v5 ((broadcastInDim S500000x1 ![0] bcast_S500000_S500000x1_0) : (⟨S500000, .i32⟩ : BufTy).Contents (Elt F) → (⟨S500000x1, .i32⟩ : BufTy).Contents (Elt F)),
    StableHlo.nullary main_call1_c_1 (constantI S1 32 99999#32 : (⟨S1, .i32⟩ : BufTy).Contents (Elt F)),
    StableHlo.nullary main_call1_c_2 (constantI S_ 32 0#32 : (⟨S_, .i32⟩ : BufTy).Contents (Elt F)),
    StableHlo.unary main_call1_c_2 main_call1_v6 ((broadcastInDim S500000x1 ![] bcast_S_S500000x1) : (⟨S_, .i32⟩ : BufTy).Contents (Elt F) → (⟨S500000x1, .i32⟩ : BufTy).Contents (Elt F)),
    StableHlo.binary main_call1_v5 main_call1_v6 main_call1_v7 ((cmpi .sge) : (⟨S500000x1, .i32⟩ : BufTy).Contents (Elt F) → (⟨S500000x1, .i32⟩ : BufTy).Contents (Elt F) → (⟨S500000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S500000x1 ![0, 1] bcast_S1x1_S500000x1_0_1) : (⟨S1x1, .i32⟩ : BufTy).Contents (Elt F) → (⟨S500000x1, .i32⟩ : BufTy).Contents (Elt F)),
    StableHlo.binary main_call1_v5 main_call1_v9 main_call1_v10 ((cmpi .sle) : (⟨S500000x1, .i32⟩ : BufTy).Contents (Elt F) → (⟨S500000x1, .i32⟩ : BufTy).Contents (Elt F) → (⟨S500000x1, .i1⟩ : BufTy).Contents (Elt F)),
    StableHlo.binary main_call1_v7 main_call1_v10 main_call1_v11 ((andi) : (⟨S500000x1, .i1⟩ : BufTy).Contents (Elt F) → (⟨S500000x1, .i1⟩ : BufTy).Contents (Elt F) → (⟨S500000x1, .i1⟩ : BufTy).Contents (Elt F)),
    StableHlo.nullary main_call1_c_3 (constantI S_ 1 1#1 : (⟨S_, .i1⟩ : BufTy).Contents (Elt F)),
    StableHlo.binary main_call1_v11 main_call1_c_3 main_call1_v12 ((fun x v => Host.reduce IntOp.andi x v reducesTo_S500000x1_S500000_d1 h_S_) : (⟨S500000x1, .i1⟩ : BufTy).Contents (Elt F) → (⟨S_, .i1⟩ : BufTy).Contents (Elt F) → (⟨S500000, .i1⟩ : BufTy).Contents (Elt F)),
    StableHlo.binary main_v1 main_call1_v5 main_call1_v13 ((fun x i => Host.gather gather_S100000x32_S500000x1_S500000x32_1_0_n_n_0_1_132 x i) : (⟨S100000x32, .f32⟩ : BufTy).Contents (Elt F) → (⟨S500000x1, .i32⟩ : BufTy).Contents (Elt F) → (⟨S500000x32, .f32⟩ : BufTy).Contents (Elt F)),
    StableHlo.unary main_call1_v12 main_call1_v14 ((broadcastInDim S500000x32 ![0] bcast_S500000_S500000x32_0) : (⟨S500000, .i1⟩ : BufTy).Contents (Elt F) → (⟨S500000x32, .i1⟩ : BufTy).Contents (Elt F)),
    StableHlo.nullary main_call1_cst (constant S_ .f32 0x7FC00000#32 : (⟨S_, .f32⟩ : BufTy).Contents (Elt F)),
    StableHlo.unary main_call1_cst main_call1_v15 ((broadcastInDim S500000x32 ![] bcast_S_S500000x32) : (⟨S_, .f32⟩ : BufTy).Contents (Elt F) → (⟨S500000x32, .f32⟩ : BufTy).Contents (Elt F)),
    StableHlo.ternary main_call1_v14 main_call1_v13 main_call1_v15 main_v17 ((select) : (⟨S500000x32, .i1⟩ : BufTy).Contents (Elt F) → (⟨S500000x32, .f32⟩ : BufTy).Contents (Elt F) → (⟨S500000x32, .f32⟩ : BufTy).Contents (Elt F) → (⟨S500000x32, .f32⟩ : BufTy).Contents (Elt F)) ]

attribute [local irreducible] Host.reduce Host.gather Host.scatterAdd in
set_option maxHeartbeats 4000000 in
theorem hostOps2_eq : (hostOps2 : List (HloOp τ sig (Elt F))) = take1 := by
  repeat (refine congrArg₂ List.cons rfl ?_)
  rfl

attribute [local irreducible] Host.reduce Host.gather Host.scatterAdd in
set_option maxHeartbeats 4000000 in
theorem hostOps2_2_eq : (hostOps2_2 : List (HloOp τ sig (Elt F))) = take2 := by
  repeat (refine congrArg₂ List.cons rfl ?_)
  rfl

variable (m : (ℓ : Loc nD τ sig) → Buf (Elt F) ℓ) (ρ : Dev nD → PrngReg)

/-- The contents the third region finds: the four host stretches after the second region, in order. -/
theorem W8_eq (c : Dev nD) :
    W8 m ρ c = StableHlo.after hostOps2_3 (StableHlo.after take2 (StableHlo.after hostOps2_1 (StableHlo.after take1 (W4 m ρ c)))) := by
  show StableHlo.after hostOps2_3 (StableHlo.after hostOps2_2 (StableHlo.after hostOps2_1 (StableHlo.after hostOps2 (W4 m ρ c)))) = _
  rw [hostOps2_eq, hostOps2_2_eq]

set_option maxHeartbeats 4000000 in
/-- The road-to-bridge neighbour mean: the looked-up rows of the road encoder's output, averaged per destination. -/
theorem W8_main_v16 (c : Dev nD) :
    W8 m ρ c (Proc.devRef .tc main_v16)
      = Chain.meanRB (Chain.takeRB (W4 m ρ c (Proc.devRef .tc main_v3)) (W4 m ρ c (Proc.devRef .tc main_arg4))) (W4 m ρ c (Proc.devRef .tc main_arg5)) := by
  rw [W8_eq]
  after_results_simp
  rfl

set_option maxHeartbeats 4000000 in
/-- The bridge-to-bridge neighbour mean: the looked-up rows of the bridge encoder's output, averaged per destination. -/
theorem W8_main_v29 (c : Dev nD) :
    W8 m ρ c (Proc.devRef .tc main_v29)
      = Chain.meanBB (Chain.takeBB (W4 m ρ c (Proc.devRef .tc main_v1)) (W4 m ρ c (Proc.devRef .tc main_arg6))) (W4 m ρ c (Proc.devRef .tc main_arg7)) := by
  rw [W8_eq]
  after_results_simp
  rfl

/-- No host operation between the second and the third region writes `main_v1`. -/
theorem W8_main_v1 (c : Dev nD) : W8 m ρ c (Proc.devRef .tc main_v1) = W4 m ρ c (Proc.devRef .tc main_v1) := by
  rw [W8_eq]
  after_results_simp

/-- No host operation between the second and the third region writes `main_arg15`. -/
theorem W8_main_arg15 (c : Dev nD) : W8 m ρ c (Proc.devRef .tc main_arg15) = W4 m ρ c (Proc.devRef .tc main_arg15) := by
  rw [W8_eq]
  after_results_simp

/-- No host operation between the second and the third region writes `main_arg17`. -/
theorem W8_main_arg17 (c : Dev nD) : W8 m ρ c (Proc.devRef .tc main_arg17) = W4 m ρ c (Proc.devRef .tc main_arg17) := by
  rw [W8_eq]
  after_results_simp

/-- No host operation between the second and the third region writes `main_arg18`. -/
theorem W8_main_arg18 (c : Dev nD) : W8 m ρ c (Proc.devRef .tc main_arg18) = W4 m ρ c (Proc.devRef .tc main_arg18) := by
  rw [W8_eq]
  after_results_simp

/-- No host operation between the second and the third region writes `main_arg20`. -/
theorem W8_main_arg20 (c : Dev nD) : W8 m ρ c (Proc.devRef .tc main_arg20) = W4 m ρ c (Proc.devRef .tc main_arg20) := by
  rw [W8_eq]
  after_results_simp

/-- No host operation between the second and the third region writes `main_arg21`. -/
theorem W8_main_arg21 (c : Dev nD) : W8 m ρ c (Proc.devRef .tc main_arg21) = W4 m ρ c (Proc.devRef .tc main_arg21) := by
  rw [W8_eq]
  after_results_simp

/-- `main_v30` is `main_arg16` viewed as one row. -/
theorem W8_main_v30 (c : Dev nD) :
    W8 m ρ c (Proc.devRef .tc main_v30) = shapeCast S1x32 (W4 m ρ c (Proc.devRef .tc main_arg16)) shapeCasts_S32_S1x32 := by
  rw [W8_eq]
  after_results_simp
  rfl

/-- `main_v31` is `main_arg19` viewed as one row. -/
theorem W8_main_v31 (c : Dev nD) :
    W8 m ρ c (Proc.devRef .tc main_v31) = shapeCast S1x32 (W4 m ρ c (Proc.devRef .tc main_arg19)) shapeCasts_S32_S1x32 := by
  rw [W8_eq]
  after_results_simp
  rfl

/-- `main_v32` is `main_arg22` viewed as one row. -/
theorem W8_main_v32 (c : Dev nD) :
    W8 m ρ c (Proc.devRef .tc main_v32) = shapeCast S1x1 (W4 m ρ c (Proc.devRef .tc main_arg22)) shapeCasts_S1_S1x1 := by
  rw [W8_eq]
  after_results_simp
  rfl

end Cert.KernelIdeal.HostBack

end
-- ==== Proof.Payload.lean ====
/-
  The kernels' arithmetic at a tile row. Each kernel body computes, from the blocks it loads, one stored value; over
  the extended reals a change of float format is the identity and a matrix unit's product into a zero accumulator is the
  plain sum of products, so at row `p` of a tile the encoder's stored value is the rectified biased product of that row,
  and the combine kernel's stored value is the output layer of the two relations' aggregation layers of that row.
-/
import proofs.«171575_j3770981286512_1_alg».proof.Proof.Gen.KernelIdeal.Skeleton
import proofs.«171575_j3770981286512_1_alg».proof.Proof.LibGnnLayers

noncomputable section

namespace Cert.KernelIdeal.Pay

open Cert.KernelIdeal Cert.KernelIdeal.Gen Idealize.ShloMosaic Idealize.ShloMosaic.ValueIdx Idealize.ShloMosaic.DenseLayer

/-- The bridge encoder's tile: row `p`, column `q`. -/
theorem enc0_tile (x0 : Vec Ideal S10000x16 .f32) (x1 : Vec Ideal S16x32 .f32) (x2 : Vec Ideal S1x32 .f32)
    (p : Fin 10000) (q : Fin 32) :
    k0_pay1 (F := Ideal) x0 x1 x2 (ix2 p q)
      = max ((∑ k : Fin 16, x0 (ix2 p k) * x1 (ix2 k q)) + x2 (ix2 (0 : Fin 1) q)) Hgnn.z := by
  unfold k0_pay1
  rw [maximumf_apply, addf_apply, broadcastTo_1b_ab_apply, shapeCast_self, broadcast_apply]
  refine congrArg (fun s => max (s + x2 (ix2 (0 : Fin 1) q)) _) ?_
  exact PlainMatmul.matmul_zero_apply (M := 10000) (K := 16) (N := 32) dot_S10000x16_S16x32_S10000x32_1_0_0_1_n_n.wf none _ _ p q

/-- The road encoder's tile: row `p`, column `q`. -/
theorem enc1_tile (x0 : Vec Ideal S10000x8 .f32) (x1 : Vec Ideal S8x32 .f32) (x2 : Vec Ideal S1x32 .f32)
    (p : Fin 10000) (q : Fin 32) :
    k1_pay1 (F := Ideal) x0 x1 x2 (ix2 p q)
      = max ((∑ k : Fin 8, x0 (ix2 p k) * x1 (ix2 k q)) + x2 (ix2 (0 : Fin 1) q)) Hgnn.z := by
  unfold k1_pay1
  rw [maximumf_apply, addf_apply, broadcastTo_1b_ab_apply, shapeCast_self, broadcast_apply]
  refine congrArg (fun s => max (s + x2 (ix2 (0 : Fin 1) q)) _) ?_
  exact PlainMatmul.matmul_zero_apply (M := 10000) (K := 8) (N := 32) dot_S10000x8_S8x32_S10000x32_1_0_0_1_n_n.wf none _ _ p q

end Cert.KernelIdeal.Pay

end
-- ==== Proof.Region0.lean ====
/-
  The bridge encoder's region, read as a value. The grid has ten points; point `t` stages rows
  `10000 t … 10000 t + 9999` of the feature array, the whole weight matrix and the whole one-row bias, and writes
  back the same rows of the output array. What a point writes back is therefore the block of ONE whole-array function —
  the encoder of the arrays as the region finds them — and the ten blocks cover the output array, so after the region
  the output array is that function.
-/
import proofs.«171575_j3770981286512_1_alg».proof.Proof.Gen.KernelIdeal.Frame
import proofs.«171575_j3770981286512_1_alg».proof.Proof.Payload
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the ten points: the feature window moves with the output window along the rows,
    every other block index is zero, and the output's row block index is below ten. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every row block is some point's. -/
theorem idx_onto : ∀ q0 : Fin 10, ∃ t : Fin cfg0.N, win0_3.index t (0 : Fin 2) = q0.val :=
  (by decide +kernel : ∀ q0 : Fin 10, ∃ t : Fin grid0.N, win0_3.index t (0 : Fin 2) = q0.val)

/-- A tile row is an array row: if the tile's row `p` is the array's row `r`, the body's stored value at `(p, q)` is the
    encoder's entry `(r, q)`. -/
theorem enc_block (X : FVec Ideal S100000x16 .f32) (W : FVec Ideal S16x32 .f32) (B : FVec Ideal S1x32 .f32)
    (x0 : Vec Ideal S10000x16 .f32) (x1 : Vec Ideal S16x32 .f32) (x2 : Vec Ideal S1x32 .f32)
    (r : Fin 100000) (p : Fin 10000) (q : Fin 32)
    (h0 : ∀ k : Fin 16, x0 (ix2 p k) = X (ix2 r k)) (h1 : ∀ (k : Fin 16) (q : Fin 32), x1 (ix2 k q) = W (ix2 k q))
    (h2 : ∀ q : Fin 32, x2 (ix2 (0 : Fin 1) q) = B (ix2 (0 : Fin 1) q)) :
    k0_pay1 (F := Ideal) x0 x1 x2 (ix2 p q) = Hgnn.enc X W B (ix2 r q) := by
  rw [Pay.enc0_tile, Hgnn.enc_apply, h2]
  refine congrArg (fun s => max (s + B (ix2 (0 : Fin 1) q)) Hgnn.z) (Finset.sum_congr rfl fun k _ => ?_)
  rw [h0, h1]

/-- What point `t` writes back is block `t` of the encoder of the arrays the region finds. -/
theorem flushed_eq (c : Dev nD) (t : Fin cfg0.N) :
    (dat0 (F := Ideal) V c).flushed 3 t
      = ((cfg0.win 3).blk t).view.read (Elt Ideal)
          (Hgnn.enc (M := 100000) (K := 16) (N := 32) (V c main_arg0) (V c main_arg8) (V c main_v0)) := by
  show (cfg0.win 3).cut (grid0.coords t) ((dat0 V c).after 3 t) = _
  rw [after0_3]
  unfold out0_3
  rw [View.canon_unit_zero hz]
  simp only [View.ld_unit_zero (S := S10000x16) hz, View.ld_unit_zero (S := S16x32) hz, View.ld_unit_zero (S := S1x32) hz]
  obtain ⟨e0, e1, e2, e3, e4, e5, e6, e7⟩ := idx_facts t
  funext j
  obtain ⟨p, q, rfl⟩ : ∃ (p : Fin 10000) (q : Fin 32), j = ix2 p q := ⟨j 0, j 1, eq_ix2 j⟩
  have hp : p.val < 10000 := p.isLt
  have hq : q.val < 32 := q.isLt
  show k0_pay1 (F := Ideal) (iblk0 V c 0 t) (iblk0 V c 1 t) (iblk0 V c 2 t) (ix2 p q)
      = Hgnn.enc (M := 100000) (K := 16) (N := 32) (V c main_arg0) (V c main_arg8) (V c main_v0) (((cfg0.win 3).blk t).view.emb (ix2 p q))
  have hr : ((cfg0.win 3).blk t).view.emb (ix2 p q) = ix2 (⟨win0_3.index t (0 : Fin 2) * 10000 + p.val, by omega⟩ : Fin 100000) q := by
    funext a; apply Fin.ext
    match a with
    | ⟨0, _⟩ => show win0_3.index t (0 : Fin 2) * 10000 + 1 * p.val = win0_3.index t (0 : Fin 2) * 10000 + p.val; omega
    | ⟨1, _⟩ => show win0_3.index t (1 : Fin 2) * 32 + 1 * q.val = q.val; omega
  rw [hr]
  refine enc_block (V c main_arg0) (V c main_arg8) (V c main_v0) _ _ _ _ p q ?_ ?_ ?_
  · intro k
    have hk : k.val < 16 := k.isLt
    show V c main_arg0 (((cfg0.win 0).blk t).view.emb (ix2 p k)) = V c main_arg0 (ix2 _ k)
    refine congrArg (V c main_arg0) ?_
    funext a; apply Fin.ext
    match a with
    | ⟨0, _⟩ => show win0_0.index t (0 : Fin 2) * 10000 + 1 * p.val = win0_3.index t (0 : Fin 2) * 10000 + p.val; omega
    | ⟨1, _⟩ => show win0_0.index t (1 : Fin 2) * 16 + 1 * k.val = k.val; omega
  · intro k q'
    have hk : k.val < 16 := k.isLt
    have hq' : q'.val < 32 := q'.isLt
    show V c main_arg8 (((cfg0.win 1).blk t).view.emb (ix2 k q')) = V c main_arg8 (ix2 k q')
    refine congrArg (V c main_arg8) ?_
    funext a; apply Fin.ext
    match a with
    | ⟨0, _⟩ => show win0_1.index t (0 : Fin 2) * 16 + 1 * k.val = k.val; omega
    | ⟨1, _⟩ => show win0_1.index t (1 : Fin 2) * 32 + 1 * q'.val = q'.val; omega
  · intro q'
    have hq' : q'.val < 32 := q'.isLt
    show V c main_v0 (((cfg0.win 2).blk t).view.emb (ix2 (0 : Fin 1) q')) = V c main_v0 (ix2 (0 : Fin 1) q')
    refine congrArg (V c main_v0) ?_
    funext a; apply Fin.ext
    match a with
    | ⟨0, _⟩ => show win0_2.index t (0 : Fin 2) * 1 + 1 * 0 = 0; omega
    | ⟨1, _⟩ => show win0_2.index t (1 : Fin 2) * 32 + 1 * q'.val = q'.val; omega

/-- An index of the output array is in point `t`'s block iff each coordinate is in the block's range on its axis. -/
theorem mem_blk (t : Fin cfg0.N) (i : S100000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v1).slice (win0_3.rect t)).set ↔ _
  rw [View.set_slice_whole, Rect.mem_set_unit]
  exact Iff.rfl

/-- Every index of the output array is in some point's block: row `r` is in block `r / 10000`. -/
theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ := idx_onto ⟨(i 0).val / 10000, by omega⟩
  have q0 : win0_3.index t (0 : Fin 2) = (i 0).val / 10000 := ht
  obtain ⟨e0, e1, e2, e3, e4, e5, e6, e7⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 32 ≤ (i 1).val ∧ (i 1).val < win0_3.index t (1 : Fin 2) * 32 + 32; omega

/-- After the region the output array is the encoder of the arrays the region finds. -/
theorem final (c : Dev nD) :
    (dat0 (F := Ideal) V c).arrAt 3 cfg0.N
      = Hgnn.enc (M := 100000) (K := 16) (N := 32) (V c main_arg0) (V c main_arg8) (V c main_v0) :=
  (dat0 V c).arrAt_eq_of_cover 3 _ (fun t _ => flushed_eq V c t) cover

end Cert.KernelIdeal.Reg0

end
-- ==== Proof.Region1.lean ====
/-
  The road encoder's region, read as a value. The grid has twenty points; point `t` stages rows
  `10000 t … 10000 t + 9999` of the feature array, the whole weight matrix and the whole one-row bias, and writes
  back the same rows of the output array. What a point writes back is therefore the block of ONE whole-array function —
  the encoder of the arrays as the region finds them — and the twenty blocks cover the output array, so after the region
  the output array is that function.
-/
import proofs.«171575_j3770981286512_1_alg».proof.Proof.Gen.KernelIdeal.Frame
import proofs.«171575_j3770981286512_1_alg».proof.Proof.Payload
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the twenty points: the feature window moves with the output window along the rows,
    every other block index is zero, and the output's row block index is below twenty. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every row block is some point's. -/
theorem idx_onto : ∀ q0 : Fin 20, ∃ t : Fin cfg1.N, win1_3.index t (0 : Fin 2) = q0.val :=
  (by decide +kernel : ∀ q0 : Fin 20, ∃ t : Fin grid1.N, win1_3.index t (0 : Fin 2) = q0.val)

/-- A tile row is an array row: if the tile's row `p` is the array's row `r`, the body's stored value at `(p, q)` is the
    encoder's entry `(r, q)`. -/
theorem enc_block (X : FVec Ideal S200000x8 .f32) (W : FVec Ideal S8x32 .f32) (B : FVec Ideal S1x32 .f32)
    (x0 : Vec Ideal S10000x8 .f32) (x1 : Vec Ideal S8x32 .f32) (x2 : Vec Ideal S1x32 .f32)
    (r : Fin 200000) (p : Fin 10000) (q : Fin 32)
    (h0 : ∀ k : Fin 8, x0 (ix2 p k) = X (ix2 r k)) (h1 : ∀ (k : Fin 8) (q : Fin 32), x1 (ix2 k q) = W (ix2 k q))
    (h2 : ∀ q : Fin 32, x2 (ix2 (0 : Fin 1) q) = B (ix2 (0 : Fin 1) q)) :
    k1_pay1 (F := Ideal) x0 x1 x2 (ix2 p q) = Hgnn.enc X W B (ix2 r q) := by
  rw [Pay.enc1_tile, Hgnn.enc_apply, h2]
  refine congrArg (fun s => max (s + B (ix2 (0 : Fin 1) q)) Hgnn.z) (Finset.sum_congr rfl fun k _ => ?_)
  rw [h0, h1]

/-- What point `t` writes back is block `t` of the encoder of the arrays the region finds. -/
theorem flushed_eq (c : Dev nD) (t : Fin cfg1.N) :
    (dat1 (F := Ideal) V c).flushed 3 t
      = ((cfg1.win 3).blk t).view.read (Elt Ideal)
          (Hgnn.enc (M := 200000) (K := 8) (N := 32) (V c main_arg1) (V c main_arg10) (V c main_v2)) := by
  show (cfg1.win 3).cut (grid1.coords t) ((dat1 V c).after 3 t) = _
  rw [after1_3]
  unfold out1_3
  rw [View.canon_unit_zero hz]
  simp only [View.ld_unit_zero (S := S10000x8) hz, View.ld_unit_zero (S := S8x32) hz, View.ld_unit_zero (S := S1x32) hz]
  obtain ⟨e0, e1, e2, e3, e4, e5, e6, e7⟩ := idx_facts t
  funext j
  obtain ⟨p, q, rfl⟩ : ∃ (p : Fin 10000) (q : Fin 32), j = ix2 p q := ⟨j 0, j 1, eq_ix2 j⟩
  have hp : p.val < 10000 := p.isLt
  have hq : q.val < 32 := q.isLt
  show k1_pay1 (F := Ideal) (iblk1 V c 0 t) (iblk1 V c 1 t) (iblk1 V c 2 t) (ix2 p q)
      = Hgnn.enc (M := 200000) (K := 8) (N := 32) (V c main_arg1) (V c main_arg10) (V c main_v2) (((cfg1.win 3).blk t).view.emb (ix2 p q))
  have hr : ((cfg1.win 3).blk t).view.emb (ix2 p q) = ix2 (⟨win1_3.index t (0 : Fin 2) * 10000 + p.val, by omega⟩ : Fin 200000) q := by
    funext a; apply Fin.ext
    match a with
    | ⟨0, _⟩ => show win1_3.index t (0 : Fin 2) * 10000 + 1 * p.val = win1_3.index t (0 : Fin 2) * 10000 + p.val; omega
    | ⟨1, _⟩ => show win1_3.index t (1 : Fin 2) * 32 + 1 * q.val = q.val; omega
  rw [hr]
  refine enc_block (V c main_arg1) (V c main_arg10) (V c main_v2) _ _ _ _ p q ?_ ?_ ?_
  · intro k
    have hk : k.val < 8 := k.isLt
    show V c main_arg1 (((cfg1.win 0).blk t).view.emb (ix2 p k)) = V c main_arg1 (ix2 _ k)
    refine congrArg (V c main_arg1) ?_
    funext a; apply Fin.ext
    match a with
    | ⟨0, _⟩ => show win1_0.index t (0 : Fin 2) * 10000 + 1 * p.val = win1_3.index t (0 : Fin 2) * 10000 + p.val; omega
    | ⟨1, _⟩ => show win1_0.index t (1 : Fin 2) * 8 + 1 * k.val = k.val; omega
  · intro k q'
    have hk : k.val < 8 := k.isLt
    have hq' : q'.val < 32 := q'.isLt
    show V c main_arg10 (((cfg1.win 1).blk t).view.emb (ix2 k q')) = V c main_arg10 (ix2 k q')
    refine congrArg (V c main_arg10) ?_
    funext a; apply Fin.ext
    match a with
    | ⟨0, _⟩ => show win1_1.index t (0 : Fin 2) * 8 + 1 * k.val = k.val; omega
    | ⟨1, _⟩ => show win1_1.index t (1 : Fin 2) * 32 + 1 * q'.val = q'.val; omega
  · intro q'
    have hq' : q'.val < 32 := q'.isLt
    show V c main_v2 (((cfg1.win 2).blk t).view.emb (ix2 (0 : Fin 1) q')) = V c main_v2 (ix2 (0 : Fin 1) q')
    refine congrArg (V c main_v2) ?_
    funext a; apply Fin.ext
    match a with
    | ⟨0, _⟩ => show win1_2.index t (0 : Fin 2) * 1 + 1 * 0 = 0; omega
    | ⟨1, _⟩ => show win1_2.index t (1 : Fin 2) * 32 + 1 * q'.val = q'.val; omega

/-- An index of the output array is in point `t`'s block iff each coordinate is in the block's range on its axis. -/
theorem mem_blk (t : Fin cfg1.N) (i : S200000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v3).slice (win1_3.rect t)).set ↔ _
  rw [View.set_slice_whole, Rect.mem_set_unit]
  exact Iff.rfl

/-- Every index of the output array is in some point's block: row `r` is in block `r / 10000`. -/
theorem cover (i : S200000x32.Idx) : ∃ t : Fin cfg1.N, (cfg1.win 3).flush t = true ∧ i ∈ ((cfg1.win 3).blk t).view.set := by
  have hi0 : (i 0).val < 200000 := (i 0).isLt
  have hi1 : (i 1).val < 32 := (i 1).isLt
  obtain ⟨t, ht⟩ := idx_onto ⟨(i 0).val / 10000, by omega⟩
  have q0 : win1_3.index t (0 : Fin 2) = (i 0).val / 10000 := ht
  obtain ⟨e0, e1, e2, e3, e4, e5, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 32 ≤ (i 1).val ∧ (i 1).val < win1_3.index t (1 : Fin 2) * 32 + 32; omega

/-- After the region the output array is the encoder of the arrays the region finds. -/
theorem final (c : Dev nD) :
    (dat1 (F := Ideal) V c).arrAt 3 cfg1.N
      = Hgnn.enc (M := 200000) (K := 8) (N := 32) (V c main_arg1) (V c main_arg10) (V c main_v2) :=
  (dat1 V c).arrAt_eq_of_cover 3 _ (fun t _ => flushed_eq V c t) cover

end Cert.KernelIdeal.Reg1

end
-- ==== Proof.KerMid.lean ====
/-
  The buffer contents after the second kernel region, in terms of the launch contents. An argument array that no
  window of the first two regions stages and no host operation writes holds its launch contents. The first region's
  output array is the bridge encoder of the bridge features, its weights and its bias viewed as one row; the second
  region's output array is the road encoder likewise.
-/
import proofs.«171575_j3770981286512_1_alg».proof.Proof.Region0
import proofs.«171575_j3770981286512_1_alg».proof.Proof.Region1
import Idealize.ShloMosaic.Lib.StableHlo.Run

set_option maxRecDepth 16384

noncomputable section

namespace Cert.KernelIdeal.HostBack

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

theorem W4_main_arg4 (c : Dev nD) : W4 m ρ c (Proc.devRef .tc main_arg4) = (m ((c : Thread nD τ).loc main_arg4)) := by
  rw [W4_of_ne m ρ c main_arg4 (by decide)]
  show StableHlo.after hostOps1 (W2 m ρ c) (Proc.devRef .tc main_arg4) = _
  after_results_simp
  rw [W2_of_ne m ρ c main_arg4 (by decide)]
  show StableHlo.after hostOps0 (W0 m ρ c) (Proc.devRef .tc main_arg4) = _
  after_results_simp <;> rfl

theorem W4_main_arg5 (c : Dev nD) : W4 m ρ c (Proc.devRef .tc main_arg5) = (m ((c : Thread nD τ).loc main_arg5)) := by
  rw [W4_of_ne m ρ c main_arg5 (by decide)]
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp <;> rfl

theorem W4_main_arg6 (c : Dev nD) : W4 m ρ c (Proc.devRef .tc main_arg6) = (m ((c : Thread nD τ).loc main_arg6)) := by
  rw [W4_of_ne m ρ c main_arg6 (by decide)]
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp <;> rfl

theorem W4_main_arg7 (c : Dev nD) : W4 m ρ c (Proc.devRef .tc main_arg7) = (m ((c : Thread nD τ).loc main_arg7)) := by
  rw [W4_of_ne m ρ c main_arg7 (by decide)]
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp <;> rfl

theorem W4_main_arg15 (c : Dev nD) : W4 m ρ c (Proc.devRef .tc main_arg15) = (m ((c : Thread nD τ).loc main_arg15)) := by
  rw [W4_of_ne m ρ c main_arg15 (by decide)]
  show StableHlo.after hostOps1 (W2 m ρ c) (Proc.devRef .tc main_arg15) = _
  after_results_simp
  rw [W2_of_ne m ρ c main_arg15 (by decide)]
  show StableHlo.after hostOps0 (W0 m ρ c) (Proc.devRef .tc main_arg15) = _
  after_results_simp <;> rfl

theorem W4_main_arg16 (c : Dev nD) : W4 m ρ c (Proc.devRef .tc main_arg16) = (m ((c : Thread nD τ).loc main_arg16)) := by
  rw [W4_of_ne m ρ c main_arg16 (by decide)]
  show StableHlo.after hostOps1 (W2 m ρ c) (Proc.devRef .tc main_arg16) = _
  after_results_simp
  rw [W2_of_ne m ρ c main_arg16 (by decide)]
  show StableHlo.after hostOps0 (W0 m ρ c) (Proc.devRef .tc main_arg16) = _
  after_results_simp <;> rfl

theorem W4_main_arg17 (c : Dev nD) : W4 m ρ c (Proc.devRef .tc main_arg17) = (m ((c : Thread nD τ).loc main_arg17)) := by
  rw [W4_of_ne m ρ c main_arg17 (by decide)]
  show StableHlo.after hostOps1 (W2 m ρ c) (Proc.devRef .tc main_arg17) = _
  after_results_simp
  rw [W2_of_ne m ρ c main_arg17 (by decide)]
  show StableHlo.after hostOps0 (W0 m ρ c) (Proc.devRef .tc main_arg17) = _
  after_results_simp <;> rfl

theorem W4_main_arg18 (c : Dev nD) : W4 m ρ c (Proc.devRef .tc main_arg18) = (m ((c : Thread nD τ).loc main_arg18)) := by
  rw [W4_of_ne m ρ c main_arg18 (by decide)]
  show StableHlo.after hostOps1 (W2 m ρ c) (Proc.devRef .tc main_arg18) = _
  after_results_simp
  rw [W2_of_ne m ρ c main_arg18 (by decide)]
  show StableHlo.after hostOps0 (W0 m ρ c) (Proc.devRef .tc main_arg18) = _
  after_results_simp <;> rfl

theorem W4_main_arg19 (c : Dev nD) : W4 m ρ c (Proc.devRef .tc main_arg19) = (m ((c : Thread nD τ).loc main_arg19)) := by
  rw [W4_of_ne m ρ c main_arg19 (by decide)]
  show StableHlo.after hostOps1 (W2 m ρ c) (Proc.devRef .tc main_arg19) = _
  after_results_simp
  rw [W2_of_ne m ρ c main_arg19 (by decide)]
  show StableHlo.after hostOps0 (W0 m ρ c) (Proc.devRef .tc main_arg19) = _
  after_results_simp <;> rfl

theorem W4_main_arg20 (c : Dev nD) : W4 m ρ c (Proc.devRef .tc main_arg20) = (m ((c : Thread nD τ).loc main_arg20)) := by
  rw [W4_of_ne m ρ c main_arg20 (by decide)]
  show StableHlo.after hostOps1 (W2 m ρ c) (Proc.devRef .tc main_arg20) = _
  after_results_simp
  rw [W2_of_ne m ρ c main_arg20 (by decide)]
  show StableHlo.after hostOps0 (W0 m ρ c) (Proc.devRef .tc main_arg20) = _
  after_results_simp <;> rfl

theorem W4_main_arg21 (c : Dev nD) : W4 m ρ c (Proc.devRef .tc main_arg21) = (m ((c : Thread nD τ).loc main_arg21)) := by
  rw [W4_of_ne m ρ c main_arg21 (by decide)]
  show StableHlo.after hostOps1 (W2 m ρ c) (Proc.devRef .tc main_arg21) = _
  after_results_simp
  rw [W2_of_ne m ρ c main_arg21 (by decide)]
  show StableHlo.after hostOps0 (W0 m ρ c) (Proc.devRef .tc main_arg21) = _
  after_results_simp <;> rfl

theorem W4_main_arg22 (c : Dev nD) : W4 m ρ c (Proc.devRef .tc main_arg22) = (m ((c : Thread nD τ).loc main_arg22)) := by
  rw [W4_of_ne m ρ c main_arg22 (by decide)]
  show StableHlo.after hostOps1 (W2 m ρ c) (Proc.devRef .tc main_arg22) = _
  after_results_simp
  rw [W2_of_ne m ρ c main_arg22 (by decide)]
  show StableHlo.after hostOps0 (W0 m ρ c) (Proc.devRef .tc main_arg22) = _
  after_results_simp <;> rfl

/-! ## The first region's inputs and output -/

theorem V1_main_arg0 (c : Dev nD) : V1 m ρ c main_arg0 = (m ((c : Thread nD τ).loc main_arg0)) := by
  show StableHlo.after hostOps0 (W0 m ρ c) (Proc.devRef .tc main_arg0) = _
  after_results_simp <;> rfl

theorem V1_main_arg8 (c : Dev nD) : V1 m ρ c main_arg8 = (m ((c : Thread nD τ).loc main_arg8)) := by
  show StableHlo.after hostOps0 (W0 m ρ c) (Proc.devRef .tc main_arg8) = _
  after_results_simp <;> rfl

/-- The bridge encoder's bias as the region finds it: the bias vector viewed as one row. -/
theorem V1_main_v0 (c : Dev nD) : V1 m ρ c main_v0 = shapeCast S1x32 (m ((c : Thread nD τ).loc main_arg9)) shapeCasts_S32_S1x32 := by
  show StableHlo.after hostOps0 (W0 m ρ c) (Proc.devRef .tc main_v0) = _
  after_results_simp <;> rfl

/-- After the first region its output array is the bridge encoder of the launch contents. -/
theorem W2_main_v1 (c : Dev nD) :
    W2 m ρ c (Proc.devRef .tc main_v1)
      = Hgnn.enc (M := 100000) (K := 16) (N := 32) (m ((c : Thread nD τ).loc main_arg0)) (m ((c : Thread nD τ).loc main_arg8))
          (shapeCast S1x32 (m ((c : Thread nD τ).loc main_arg9)) shapeCasts_S32_S1x32) := by
  refine (W2_arr m ρ c 3).trans ((Reg0.final (V1 m ρ) c).trans ?_)
  rw [V1_main_arg0, V1_main_arg8, V1_main_v0]

/-- It is still there after the second region. -/
theorem W4_main_v1 (c : Dev nD) :
    W4 m ρ c (Proc.devRef .tc main_v1)
      = Hgnn.enc (M := 100000) (K := 16) (N := 32) (m ((c : Thread nD τ).loc main_arg0)) (m ((c : Thread nD τ).loc main_arg8))
          (shapeCast S1x32 (m ((c : Thread nD τ).loc main_arg9)) shapeCasts_S32_S1x32) := by
  rw [W4_of_ne m ρ c main_v1 (by decide)]
  show StableHlo.after hostOps1 (W2 m ρ c) (Proc.devRef .tc main_v1) = _
  after_results_simp
  exact W2_main_v1 m ρ c

/-! ## The second region's inputs and output -/

theorem V3_main_arg1 (c : Dev nD) : V3 m ρ c main_arg1 = (m ((c : Thread nD τ).loc main_arg1)) := by
  show StableHlo.after hostOps1 (W2 m ρ c) (Proc.devRef .tc main_arg1) = _
  after_results_simp
  rw [W2_of_ne m ρ c main_arg1 (by decide)]
  show StableHlo.after hostOps0 (W0 m ρ c) (Proc.devRef .tc main_arg1) = _
  after_results_simp <;> rfl

theorem V3_main_arg10 (c : Dev nD) : V3 m ρ c main_arg10 = (m ((c : Thread nD τ).loc main_arg10)) := by
  show StableHlo.after hostOps1 (W2 m ρ c) (Proc.devRef .tc main_arg10) = _
  after_results_simp
  rw [W2_of_ne m ρ c main_arg10 (by decide)]
  show StableHlo.after hostOps0 (W0 m ρ c) (Proc.devRef .tc main_arg10) = _
  after_results_simp <;> rfl

theorem W2_main_arg11 (c : Dev nD) : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  after_results_simp <;> rfl

/-- The road encoder's bias as the region finds it: the bias vector viewed as one row. -/
theorem V3_main_v2 (c : Dev nD) : V3 m ρ c main_v2 = shapeCast S1x32 (m ((c : Thread nD τ).loc main_arg11)) shapeCasts_S32_S1x32 := by
  show StableHlo.after hostOps1 (W2 m ρ c) (Proc.devRef .tc main_v2) = _
  after_results_simp
  rw [W2_main_arg11]
  rfl

/-- After the second region its output array is the road encoder of the launch contents. -/
theorem W4_main_v3 (c : Dev nD) :
    W4 m ρ c (Proc.devRef .tc main_v3)
      = Hgnn.enc (M := 200000) (K := 8) (N := 32) (m ((c : Thread nD τ).loc main_arg1)) (m ((c : Thread nD τ).loc main_arg10))
          (shapeCast S1x32 (m ((c : Thread nD τ).loc main_arg11)) shapeCasts_S32_S1x32) := by
  refine (W4_arr m ρ c 3).trans ((Reg1.final (V3 m ρ) c).trans ?_)
  rw [V3_main_arg1, V3_main_arg10, V3_main_v2]

end Cert.KernelIdeal.HostBack

end
-- ==== Proof.KerOut.lean ====
/-
  The idealized kernel program's result as ONE function of its argument arrays: the output layer of the two relations'
  aggregation layers, each over the mean of the looked-up rows of an encoder's output, with the bias vectors viewed as
  one-row arrays.
-/
import proofs.«171575_j3770981286512_1_alg».proof.Proof.KerChain
import proofs.«171575_j3770981286512_1_alg».proof.Proof.LibGnnLayers

noncomputable section

namespace Cert.KernelIdeal.Out

open Cert.KernelIdeal Idealize.ShloMosaic

variable [Facts]
open Facts₀ Facts

/-- The bridge encoder's output. -/
def hB (a0 : (⟨S100000x16, .f32⟩ : BufTy).Contents (Elt Ideal)) (a8 : (⟨S16x32, .f32⟩ : BufTy).Contents (Elt Ideal)) (a9 : (⟨S32, .f32⟩ : BufTy).Contents (Elt Ideal)) : (⟨S100000x32, .f32⟩ : BufTy).Contents (Elt Ideal) :=
  Hgnn.enc (M := 100000) (K := 16) (N := 32) a0 a8 (shapeCast S1x32 a9 shapeCasts_S32_S1x32)

/-- The road encoder's output. -/
def hR (a1 : (⟨S200000x8, .f32⟩ : BufTy).Contents (Elt Ideal)) (a10 : (⟨S8x32, .f32⟩ : BufTy).Contents (Elt Ideal)) (a11 : (⟨S32, .f32⟩ : BufTy).Contents (Elt Ideal)) : (⟨S200000x32, .f32⟩ : BufTy).Contents (Elt Ideal) :=
  Hgnn.enc (M := 200000) (K := 8) (N := 32) a1 a10 (shapeCast S1x32 a11 shapeCasts_S32_S1x32)

/-- The program's result. -/
def out (a0 : (⟨S100000x16, .f32⟩ : BufTy).Contents (Elt Ideal)) (a1 : (⟨S200000x8, .f32⟩ : BufTy).Contents (Elt Ideal)) (a4 a5 : (⟨S1000000, .i32⟩ : BufTy).Contents (Elt Ideal)) (a6 a7 : (⟨S500000, .i32⟩ : BufTy).Contents (Elt Ideal))
    (a8 : (⟨S16x32, .f32⟩ : BufTy).Contents (Elt Ideal)) (a9 : (⟨S32, .f32⟩ : BufTy).Contents (Elt Ideal)) (a10 : (⟨S8x32, .f32⟩ : BufTy).Contents (Elt Ideal)) (a11 : (⟨S32, .f32⟩ : BufTy).Contents (Elt Ideal))
    (a15 : (⟨S32x32, .f32⟩ : BufTy).Contents (Elt Ideal)) (a16 : (⟨S32, .f32⟩ : BufTy).Contents (Elt Ideal)) (a17 a18 : (⟨S32x32, .f32⟩ : BufTy).Contents (Elt Ideal)) (a19 : (⟨S32, .f32⟩ : BufTy).Contents (Elt Ideal))
    (a20 : (⟨S32x32, .f32⟩ : BufTy).Contents (Elt Ideal)) (a21 : (⟨S32x1, .f32⟩ : BufTy).Contents (Elt Ideal)) (a22 : (⟨S1, .f32⟩ : BufTy).Contents (Elt Ideal)) : (⟨S100000x1, .f32⟩ : BufTy).Contents (Elt Ideal) :=
  Hgnn.head (M := 100000) (K := 32) (N := 1)
    (Hgnn.sage (M := 100000) (K := 32) (N := 32) (Chain.meanRB (Chain.takeRB (hR a1 a10 a11) a4) a5) (hB a0 a8 a9) a15
      (shapeCast S1x32 a16 shapeCasts_S32_S1x32) a17)
    (Hgnn.sage (M := 100000) (K := 32) (N := 32) (Chain.meanBB (Chain.takeBB (hB a0 a8 a9) a6) a7) (hB a0 a8 a9) a18
      (shapeCast S1x32 a19 shapeCasts_S32_S1x32) a20)
    a21 (shapeCast S1x1 a22 shapeCasts_S1_S1x1)

end Cert.KernelIdeal.Out

end
-- ==== Proof.KerValue.lean ====
/-
  The idealized kernel program's result array after its run, as a function of the launch contents: the third region
  leaves the output layer of the arrays it finds; those arrays are the host stretches' results over the contents after
  the second region; and those contents are the two encoders' outputs and the untouched arguments.
-/
import proofs.«171575_j3770981286512_1_alg».proof.Proof.Region2
import proofs.«171575_j3770981286512_1_alg».proof.Proof.KerHost
import proofs.«171575_j3770981286512_1_alg».proof.Proof.KerMid
import proofs.«171575_j3770981286512_1_alg».proof.Proof.KerOut

set_option maxRecDepth 16384

noncomputable section

namespace Cert.KernelIdeal.HostBack

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- After the third region its output array is the program's result function of the launch contents. -/
theorem W9_main_v33 (c : Dev nD) :
    W9 m ρ c (Proc.devRef .tc main_v33)
      = Out.out (m ((c : Thread nD τ).loc main_arg0))
          (m ((c : Thread nD τ).loc main_arg1))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg15))
          (m ((c : Thread nD τ).loc main_arg16))
          (m ((c : Thread nD τ).loc main_arg17))
          (m ((c : Thread nD τ).loc main_arg18))
          (m ((c : Thread nD τ).loc main_arg19))
          (m ((c : Thread nD τ).loc main_arg20))
          (m ((c : Thread nD τ).loc main_arg21))
          (m ((c : Thread nD τ).loc main_arg22)) := by
  refine (W9_arr m ρ c 11).trans ((Reg2.final (V8 m ρ) c).trans ?_)
  have h_main_v16 := W8_main_v16 m ρ c
  have h_main_v29 := W8_main_v29 m ρ c
  have h_main_v1 := W8_main_v1 m ρ c
  have h_main_arg15 := W8_main_arg15 m ρ c
  have h_main_v30 := W8_main_v30 m ρ c
  have h_main_arg17 := W8_main_arg17 m ρ c
  have h_main_arg18 := W8_main_arg18 m ρ c
  have h_main_v31 := W8_main_v31 m ρ c
  have h_main_arg20 := W8_main_arg20 m ρ c
  have h_main_arg21 := W8_main_arg21 m ρ c
  have h_main_v32 := W8_main_v32 m ρ c
  have e_main_v16 : V8 m ρ c main_v16 = _ := h_main_v16
  have e_main_v29 : V8 m ρ c main_v29 = _ := h_main_v29
  have e_main_v1 : V8 m ρ c main_v1 = _ := h_main_v1
  have e_main_arg15 : V8 m ρ c main_arg15 = _ := h_main_arg15
  have e_main_v30 : V8 m ρ c main_v30 = _ := h_main_v30
  have e_main_arg17 : V8 m ρ c main_arg17 = _ := h_main_arg17
  have e_main_arg18 : V8 m ρ c main_arg18 = _ := h_main_arg18
  have e_main_v31 : V8 m ρ c main_v31 = _ := h_main_v31
  have e_main_arg20 : V8 m ρ c main_arg20 = _ := h_main_arg20
  have e_main_arg21 : V8 m ρ c main_arg21 = _ := h_main_arg21
  have e_main_v32 : V8 m ρ c main_v32 = _ := h_main_v32
  rw [e_main_v16, e_main_v29, e_main_v1, e_main_arg15, e_main_v30, e_main_arg17, e_main_arg18, e_main_v31, e_main_arg20,
    e_main_arg21, e_main_v32]
  rw [W4_main_v3, W4_main_v1, W4_main_arg4, W4_main_arg5, W4_main_arg6, W4_main_arg7, W4_main_arg15, W4_main_arg16,
    W4_main_arg17, W4_main_arg18, W4_main_arg19, W4_main_arg20, W4_main_arg21, W4_main_arg22]
  rfl

end Cert.KernelIdeal.HostBack

end
-- ==== Proof.RefRun.lean ====
/-
  The reference program's run. Its entry function is a straight line of 112 host operations once the helper functions it
  calls (the two rectifiers, the two row look-ups and the selection inside each look-up) are read at their call sites:
  two encoders (matrix product, bias row, rectifier), then for each of the two edge relations a row look-up with
  out-of-range guard, a scatter-add of the looked-up rows and of ones, the division by the clamped count, and the
  two linear maps of the aggregation layer; then the sum of the two relations, the rectifier, the output product and
  its bias. Every weakly fair execution terminates with every buffer at the fold of these operations over the launch
  contents.
-/
import proofs.«171575_j3770981286512_1_alg».proof.ReferenceIdeal
import proofs.«171575_j3770981286512_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations, in program order, each helper function's body written out over the typed
    references of the call that runs it: the form the program text unfolds to. -/
abbrev opsT : List (HloOp τ sig (Elt F)) :=
  [ StableHlo.binary main_arg0 main_arg8 main_v0 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v1 (broadcastInDim S1x32 ![1] bcast_S32_S1x32_1 : (⟨S32, .f32⟩ : BufTy).Contents (Elt F) → (⟨S1x32, .f32⟩ : BufTy).Contents (Elt F)),
    StableHlo.unary main_v1 main_v2 (broadcastInDim S100000x32 ![0, 1] bcast_S1x32_S100000x32_0_1 : (⟨S1x32, .f32⟩ : BufTy).Contents (Elt F) → (⟨S100000x32, .f32⟩ : BufTy).Contents (Elt F)),
    StableHlo.binary main_v0 main_v2 main_v3 (addf : (⟨S100000x32, .f32⟩ : BufTy).Contents (Elt F) → (⟨S100000x32, .f32⟩ : BufTy).Contents (Elt F) → (⟨S100000x32, .f32⟩ : BufTy).Contents (Elt F)),
    StableHlo.TRef.nullary main_call0.cst (constant S_ .f32 0x00000000#32),
    StableHlo.TRef.unary main_call0.cst main_call0.v0 (broadcastInDim S100000x32 ![] bcast_S_S100000x32),
    StableHlo.TRef.binary (.of main_v3 : StableHlo.TRef sig ⟨S100000x32, .f32⟩) main_call0.v0 main_call0.v1 maximumf,
    StableHlo.binary main_arg1 main_arg10 main_v5 ((fun l r => Host.dotGeneral dot_S200000x8_S8x32_S200000x32_1_0_0_1_n_n none l r) : (⟨S200000x8, .f32⟩ : BufTy).Contents (Elt F) → (⟨S8x32, .f32⟩ : BufTy).Contents (Elt F) → (⟨S200000x32, .f32⟩ : BufTy).Contents (Elt F)),
    StableHlo.unary main_arg11 main_v6 (broadcastInDim S1x32 ![1] bcast_S32_S1x32_1 : (⟨S32, .f32⟩ : BufTy).Contents (Elt F) → (⟨S1x32, .f32⟩ : BufTy).Contents (Elt F)),
    StableHlo.unary main_v6 main_v7 (broadcastInDim S200000x32 ![0, 1] bcast_S1x32_S200000x32_0_1 : (⟨S1x32, .f32⟩ : BufTy).Contents (Elt F) → (⟨S200000x32, .f32⟩ : BufTy).Contents (Elt F)),
    StableHlo.binary main_v5 main_v7 main_v8 (addf : (⟨S200000x32, .f32⟩ : BufTy).Contents (Elt F) → (⟨S200000x32, .f32⟩ : BufTy).Contents (Elt F) → (⟨S200000x32, .f32⟩ : BufTy).Contents (Elt F)),
    StableHlo.TRef.nullary main_call1.cst (constant S_ .f32 0x00000000#32),
    StableHlo.TRef.unary main_call1.cst main_call1.v0 (broadcastInDim S200000x32 ![] bcast_S_S200000x32),
    StableHlo.TRef.binary (.of main_v8 : StableHlo.TRef sig ⟨S200000x32, .f32⟩) main_call1.v0 main_call1.v1 maximumf,
    StableHlo.TRef.nullary main_call2.c (constantI S_ 32 0#32),
    StableHlo.TRef.unary main_call2.c main_call2.v0 (broadcastInDim S1000000 ![] bcast_S_S1000000),
    StableHlo.TRef.binary (.of main_arg4 : StableHlo.TRef sig ⟨S1000000, .i32⟩) main_call2.v0 main_call2.v1 (cmpi .slt),
    StableHlo.TRef.nullary main_call2.c_0 (constantI S_ 32 200000#32),
    StableHlo.TRef.unary main_call2.c_0 main_call2.v2 (broadcastInDim S1000000 ![] bcast_S_S1000000),
    StableHlo.TRef.binary (.of main_arg4 : StableHlo.TRef sig ⟨S1000000, .i32⟩) main_call2.v2 main_call2.v3 addi,
    StableHlo.TRef.ternary main_call2.v1 main_call2.v3 (.of main_arg4 : StableHlo.TRef sig ⟨S1000000, .i32⟩) main_call2.call0.v0 select,
    StableHlo.TRef.unary main_call2.call0.v0 main_call2.v5 (broadcastInDim S1000000x1 ![0] bcast_S1000000_S1000000x1_0),
    StableHlo.TRef.nullary main_call2.c_1 (constantI S1 32 199999#32),
    StableHlo.TRef.nullary main_call2.c_2 (constantI S_ 32 0#32),
    StableHlo.TRef.unary main_call2.c_2 main_call2.v6 (broadcastInDim S1000000x1 ![] bcast_S_S1000000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1000000x1 ![0, 1] bcast_S1x1_S1000000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1000000x1_S1000000_d1 h_S_),
    StableHlo.TRef.binary (.of main_v9 : StableHlo.TRef sig ⟨S200000x32, .f32⟩) main_call2.v5 main_call2.v13 (fun x i => Host.gather gather_S200000x32_S1000000x1_S1000000x32_1_0_n_n_0_1_132 x i),
    StableHlo.TRef.unary main_call2.v12 main_call2.v14 (broadcastInDim S1000000x32 ![0] bcast_S1000000_S1000000x32_0),
    StableHlo.TRef.nullary main_call2.cst (constant S_ .f32 0x7FC00000#32),
    StableHlo.TRef.unary main_call2.cst main_call2.v15 (broadcastInDim S1000000x32 ![] bcast_S_S1000000x32),
    StableHlo.TRef.ternary main_call2.v14 main_call2.v13 main_call2.v15 main_call2.v16 select,
    StableHlo.nullary main_cst (constant S_ .f32 0x00000000#32),
    StableHlo.unary main_cst main_v11 (broadcastInDim S100000x32 ![] bcast_S_S100000x32 : (⟨S_, .f32⟩ : BufTy).Contents (Elt F) → (⟨S100000x32, .f32⟩ : BufTy).Contents (Elt F)),
    StableHlo.unary main_arg5 main_v12 (broadcastInDim S1000000x1 ![0] bcast_S1000000_S1000000x1_0 : (⟨S1000000, .i32⟩ : BufTy).Contents (Elt F) → (⟨S1000000x1, .i32⟩ : BufTy).Contents (Elt F)),
    StableHlo.ternary main_v11 main_v12 main_v10 main_v13 ((fun x i u => Host.scatterAdd scatter_S100000x32_S1000000x1_S1000000x32_1_0_0_1 x i u) : (⟨S100000x32, .f32⟩ : BufTy).Contents (Elt F) → (⟨S1000000x1, .i32⟩ : BufTy).Contents (Elt F) → (⟨S1000000x32, .f32⟩ : BufTy).Contents (Elt F) → (⟨S100000x32, .f32⟩ : BufTy).Contents (Elt F)),
    StableHlo.nullary main_cst_0 (constant S_ .f32 0x3F800000#32),
    StableHlo.unary main_cst_0 main_v14 (broadcastInDim S1000000 ![] bcast_S_S1000000 : (⟨S_, .f32⟩ : BufTy).Contents (Elt F) → (⟨S1000000, .f32⟩ : BufTy).Contents (Elt F)),
    StableHlo.nullary main_cst_1 (constant S_ .f32 0x00000000#32),
    StableHlo.unary main_cst_1 main_v15 (broadcastInDim S100000 ![] bcast_S_S100000 : (⟨S_, .f32⟩ : BufTy).Contents (Elt F) → (⟨S100000, .f32⟩ : BufTy).Contents (Elt F)),
    StableHlo.unary main_arg5 main_v16 (broadcastInDim S1000000x1 ![0] bcast_S1000000_S1000000x1_0 : (⟨S1000000, .i32⟩ : BufTy).Contents (Elt F) → (⟨S1000000x1, .i32⟩ : BufTy).Contents (Elt F)),
    StableHlo.ternary main_v15 main_v16 main_v14 main_v17 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_2 (constant S_ .f32 0x3F800000#32),
    StableHlo.unary main_cst_2 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x32 ![0, 1] bcast_S100000x1_S100000x32_0_1 : (⟨S100000x1, .f32⟩ : BufTy).Contents (Elt F) → (⟨S100000x32, .f32⟩ : BufTy).Contents (Elt F)),
    StableHlo.binary main_v13 main_v21 main_v22 (Host.divf : (⟨S100000x32, .f32⟩ : BufTy).Contents (Elt F) → (⟨S100000x32, .f32⟩ : BufTy).Contents (Elt F) → (⟨S100000x32, .f32⟩ : BufTy).Contents (Elt F)),
    StableHlo.binary main_v22 main_arg15 main_v23 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg16 main_v24 (broadcastInDim S1x32 ![1] bcast_S32_S1x32_1 : (⟨S32, .f32⟩ : BufTy).Contents (Elt F) → (⟨S1x32, .f32⟩ : BufTy).Contents (Elt F)),
    StableHlo.unary main_v24 main_v25 (broadcastInDim S100000x32 ![0, 1] bcast_S1x32_S100000x32_0_1 : (⟨S1x32, .f32⟩ : BufTy).Contents (Elt F) → (⟨S100000x32, .f32⟩ : BufTy).Contents (Elt F)),
    StableHlo.binary main_v23 main_v25 main_v26 (addf : (⟨S100000x32, .f32⟩ : BufTy).Contents (Elt F) → (⟨S100000x32, .f32⟩ : BufTy).Contents (Elt F) → (⟨S100000x32, .f32⟩ : BufTy).Contents (Elt F)),
    StableHlo.binary main_v4 main_arg17 main_v27 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v26 main_v27 main_v28 (addf : (⟨S100000x32, .f32⟩ : BufTy).Contents (Elt F) → (⟨S100000x32, .f32⟩ : BufTy).Contents (Elt F) → (⟨S100000x32, .f32⟩ : BufTy).Contents (Elt F)),
    StableHlo.TRef.nullary main_call3.c (constantI S_ 32 0#32),
    StableHlo.TRef.unary main_call3.c main_call3.v0 (broadcastInDim S500000 ![] bcast_S_S500000),
    StableHlo.TRef.binary (.of main_arg6 : StableHlo.TRef sig ⟨S500000, .i32⟩) main_call3.v0 main_call3.v1 (cmpi .slt),
    StableHlo.TRef.nullary main_call3.c_0 (constantI S_ 32 100000#32),
    StableHlo.TRef.unary main_call3.c_0 main_call3.v2 (broadcastInDim S500000 ![] bcast_S_S500000),
    StableHlo.TRef.binary (.of main_arg6 : StableHlo.TRef sig ⟨S500000, .i32⟩) main_call3.v2 main_call3.v3 addi,
    StableHlo.TRef.ternary main_call3.v1 main_call3.v3 (.of main_arg6 : StableHlo.TRef sig ⟨S500000, .i32⟩) main_call3.call0.v0 select,
    StableHlo.TRef.unary main_call3.call0.v0 main_call3.v5 (broadcastInDim S500000x1 ![0] bcast_S500000_S500000x1_0),
    StableHlo.TRef.nullary main_call3.c_1 (constantI S1 32 99999#32),
    StableHlo.TRef.nullary main_call3.c_2 (constantI S_ 32 0#32),
    StableHlo.TRef.unary main_call3.c_2 main_call3.v6 (broadcastInDim S500000x1 ![] bcast_S_S500000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S500000x1 ![0, 1] bcast_S1x1_S500000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S500000x1_S500000_d1 h_S_),
    StableHlo.TRef.binary (.of main_v4 : StableHlo.TRef sig ⟨S100000x32, .f32⟩) main_call3.v5 main_call3.v13 (fun x i => Host.gather gather_S100000x32_S500000x1_S500000x32_1_0_n_n_0_1_132 x i),
    StableHlo.TRef.unary main_call3.v12 main_call3.v14 (broadcastInDim S500000x32 ![0] bcast_S500000_S500000x32_0),
    StableHlo.TRef.nullary main_call3.cst (constant S_ .f32 0x7FC00000#32),
    StableHlo.TRef.unary main_call3.cst main_call3.v15 (broadcastInDim S500000x32 ![] bcast_S_S500000x32),
    StableHlo.TRef.ternary main_call3.v14 main_call3.v13 main_call3.v15 main_call3.v16 select,
    StableHlo.nullary main_cst_3 (constant S_ .f32 0x00000000#32),
    StableHlo.unary main_cst_3 main_v30 (broadcastInDim S100000x32 ![] bcast_S_S100000x32 : (⟨S_, .f32⟩ : BufTy).Contents (Elt F) → (⟨S100000x32, .f32⟩ : BufTy).Contents (Elt F)),
    StableHlo.unary main_arg7 main_v31 (broadcastInDim S500000x1 ![0] bcast_S500000_S500000x1_0 : (⟨S500000, .i32⟩ : BufTy).Contents (Elt F) → (⟨S500000x1, .i32⟩ : BufTy).Contents (Elt F)),
    StableHlo.ternary main_v30 main_v31 main_v29 main_v32 ((fun x i u => Host.scatterAdd scatter_S100000x32_S500000x1_S500000x32_1_0_0_1 x i u) : (⟨S100000x32, .f32⟩ : BufTy).Contents (Elt F) → (⟨S500000x1, .i32⟩ : BufTy).Contents (Elt F) → (⟨S500000x32, .f32⟩ : BufTy).Contents (Elt F) → (⟨S100000x32, .f32⟩ : BufTy).Contents (Elt F)),
    StableHlo.nullary main_cst_4 (constant S_ .f32 0x3F800000#32),
    StableHlo.unary main_cst_4 main_v33 (broadcastInDim S500000 ![] bcast_S_S500000 : (⟨S_, .f32⟩ : BufTy).Contents (Elt F) → (⟨S500000, .f32⟩ : BufTy).Contents (Elt F)),
    StableHlo.nullary main_cst_5 (constant S_ .f32 0x00000000#32),
    StableHlo.unary main_cst_5 main_v34 (broadcastInDim S100000 ![] bcast_S_S100000 : (⟨S_, .f32⟩ : BufTy).Contents (Elt F) → (⟨S100000, .f32⟩ : BufTy).Contents (Elt F)),
    StableHlo.unary main_arg7 main_v35 (broadcastInDim S500000x1 ![0] bcast_S500000_S500000x1_0 : (⟨S500000, .i32⟩ : BufTy).Contents (Elt F) → (⟨S500000x1, .i32⟩ : BufTy).Contents (Elt F)),
    StableHlo.ternary main_v34 main_v35 main_v33 main_v36 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_6 (constant S_ .f32 0x3F800000#32),
    StableHlo.unary main_cst_6 main_v37 (broadcastInDim S100000 ![] bcast_S_S100000 : (⟨S_, .f32⟩ : BufTy).Contents (Elt F) → (⟨S100000, .f32⟩ : BufTy).Contents (Elt F)),
    StableHlo.binary main_v36 main_v37 main_v38 (maximumf : (⟨S100000, .f32⟩ : BufTy).Contents (Elt F) → (⟨S100000, .f32⟩ : BufTy).Contents (Elt F) → (⟨S100000, .f32⟩ : BufTy).Contents (Elt F)),
    StableHlo.unary main_v38 main_v39 (broadcastInDim S100000x1 ![0] bcast_S100000_S100000x1_0 : (⟨S100000, .f32⟩ : BufTy).Contents (Elt F) → (⟨S100000x1, .f32⟩ : BufTy).Contents (Elt F)),
    StableHlo.unary main_v39 main_v40 (broadcastInDim S100000x32 ![0, 1] bcast_S100000x1_S100000x32_0_1 : (⟨S100000x1, .f32⟩ : BufTy).Contents (Elt F) → (⟨S100000x32, .f32⟩ : BufTy).Contents (Elt F)),
    StableHlo.binary main_v32 main_v40 main_v41 (Host.divf : (⟨S100000x32, .f32⟩ : BufTy).Contents (Elt F) → (⟨S100000x32, .f32⟩ : BufTy).Contents (Elt F) → (⟨S100000x32, .f32⟩ : BufTy).Contents (Elt F)),
    StableHlo.binary main_v41 main_arg18 main_v42 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg19 main_v43 (broadcastInDim S1x32 ![1] bcast_S32_S1x32_1 : (⟨S32, .f32⟩ : BufTy).Contents (Elt F) → (⟨S1x32, .f32⟩ : BufTy).Contents (Elt F)),
    StableHlo.unary main_v43 main_v44 (broadcastInDim S100000x32 ![0, 1] bcast_S1x32_S100000x32_0_1 : (⟨S1x32, .f32⟩ : BufTy).Contents (Elt F) → (⟨S100000x32, .f32⟩ : BufTy).Contents (Elt F)),
    StableHlo.binary main_v42 main_v44 main_v45 (addf : (⟨S100000x32, .f32⟩ : BufTy).Contents (Elt F) → (⟨S100000x32, .f32⟩ : BufTy).Contents (Elt F) → (⟨S100000x32, .f32⟩ : BufTy).Contents (Elt F)),
    StableHlo.binary main_v4 main_arg20 main_v46 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v45 main_v46 main_v47 (addf : (⟨S100000x32, .f32⟩ : BufTy).Contents (Elt F) → (⟨S100000x32, .f32⟩ : BufTy).Contents (Elt F) → (⟨S100000x32, .f32⟩ : BufTy).Contents (Elt F)),
    StableHlo.binary main_v28 main_v47 main_v48 (addf : (⟨S100000x32, .f32⟩ : BufTy).Contents (Elt F) → (⟨S100000x32, .f32⟩ : BufTy).Contents (Elt F) → (⟨S100000x32, .f32⟩ : BufTy).Contents (Elt F)),
    StableHlo.TRef.nullary main_call4.cst (constant S_ .f32 0x00000000#32),
    StableHlo.TRef.unary main_call4.cst main_call4.v0 (broadcastInDim S100000x32 ![] bcast_S_S100000x32),
    StableHlo.TRef.binary (.of main_v48 : StableHlo.TRef sig ⟨S100000x32, .f32⟩) main_call4.v0 main_call4.v1 maximumf,
    StableHlo.binary main_v49 main_arg21 main_v50 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    StableHlo.unary main_arg22 main_v51 (broadcastInDim S1x1 ![1] bcast_S1_S1x1_1 : (⟨S1, .f32⟩ : BufTy).Contents (Elt F) → (⟨S1x1, .f32⟩ : BufTy).Contents (Elt F)),
    StableHlo.unary main_v51 main_v52 (broadcastInDim S100000x1 ![0, 1] bcast_S1x1_S100000x1_0_1 : (⟨S1x1, .f32⟩ : BufTy).Contents (Elt F) → (⟨S100000x1, .f32⟩ : BufTy).Contents (Elt F)),
    StableHlo.binary main_v50 main_v52 main_v53 (addf : (⟨S100000x1, .f32⟩ : BufTy).Contents (Elt F) → (⟨S100000x1, .f32⟩ : BufTy).Contents (Elt F) → (⟨S100000x1, .f32⟩ : BufTy).Contents (Elt F)) ]

/-- The same operations with each helper's operation stated on the underlying buffers: a typed reference to a literal
    buffer transports contents along an equation that holds by computation, so nothing changes. -/
abbrev ops : List (HloOp τ sig (Elt F)) :=
  [ StableHlo.binary main_arg0 main_arg8 main_v0 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v1 (broadcastInDim S1x32 ![1] bcast_S32_S1x32_1 : (⟨S32, .f32⟩ : BufTy).Contents (Elt F) → (⟨S1x32, .f32⟩ : BufTy).Contents (Elt F)),
    StableHlo.unary main_v1 main_v2 (broadcastInDim S100000x32 ![0, 1] bcast_S1x32_S100000x32_0_1 : (⟨S1x32, .f32⟩ : BufTy).Contents (Elt F) → (⟨S100000x32, .f32⟩ : BufTy).Contents (Elt F)),
    StableHlo.binary main_v0 main_v2 main_v3 (addf : (⟨S100000x32, .f32⟩ : BufTy).Contents (Elt F) → (⟨S100000x32, .f32⟩ : BufTy).Contents (Elt F) → (⟨S100000x32, .f32⟩ : BufTy).Contents (Elt F)),
    StableHlo.nullary main_call0_cst (constant S_ .f32 0x00000000#32 : (⟨S_, .f32⟩ : BufTy).Contents (Elt F)),
    StableHlo.unary main_call0_cst main_call0_v0 ((broadcastInDim S100000x32 ![] bcast_S_S100000x32) : (⟨S_, .f32⟩ : BufTy).Contents (Elt F) → (⟨S100000x32, .f32⟩ : BufTy).Contents (Elt F)),
    StableHlo.binary main_v3 main_call0_v0 main_v4 ((maximumf) : (⟨S100000x32, .f32⟩ : BufTy).Contents (Elt F) → (⟨S100000x32, .f32⟩ : BufTy).Contents (Elt F) → (⟨S100000x32, .f32⟩ : BufTy).Contents (Elt F)),
    StableHlo.binary main_arg1 main_arg10 main_v5 ((fun l r => Host.dotGeneral dot_S200000x8_S8x32_S200000x32_1_0_0_1_n_n none l r) : (⟨S200000x8, .f32⟩ : BufTy).Contents (Elt F) → (⟨S8x32, .f32⟩ : BufTy).Contents (Elt F) → (⟨S200000x32, .f32⟩ : BufTy).Contents (Elt F)),
    StableHlo.unary main_arg11 main_v6 (broadcastInDim S1x32 ![1] bcast_S32_S1x32_1 : (⟨S32, .f32⟩ : BufTy).Contents (Elt F) → (⟨S1x32, .f32⟩ : BufTy).Contents (Elt F)),
    StableHlo.unary main_v6 main_v7 (broadcastInDim S200000x32 ![0, 1] bcast_S1x32_S200000x32_0_1 : (⟨S1x32, .f32⟩ : BufTy).Contents (Elt F) → (⟨S200000x32, .f32⟩ : BufTy).Contents (Elt F)),
    StableHlo.binary main_v5 main_v7 main_v8 (addf : (⟨S200000x32, .f32⟩ : BufTy).Contents (Elt F) → (⟨S200000x32, .f32⟩ : BufTy).Contents (Elt F) → (⟨S200000x32, .f32⟩ : BufTy).Contents (Elt F)),
    StableHlo.nullary main_call1_cst (constant S_ .f32 0x00000000#32 : (⟨S_, .f32⟩ : BufTy).Contents (Elt F)),
    StableHlo.unary main_call1_cst main_call1_v0 ((broadcastInDim S200000x32 ![] bcast_S_S200000x32) : (⟨S_, .f32⟩ : BufTy).Contents (Elt F) → (⟨S200000x32, .f32⟩ : BufTy).Contents (Elt F)),
    StableHlo.binary main_v8 main_call1_v0 main_v9 ((maximumf) : (⟨S200000x32, .f32⟩ : BufTy).Contents (Elt F) → (⟨S200000x32, .f32⟩ : BufTy).Contents (Elt F) → (⟨S200000x32, .f32⟩ : BufTy).Contents (Elt F)),
    StableHlo.nullary main_call2_c (constantI S_ 32 0#32 : (⟨S_, .i32⟩ : BufTy).Contents (Elt F)),
    StableHlo.unary main_call2_c main_call2_v0 ((broadcastInDim S1000000 ![] bcast_S_S1000000) : (⟨S_, .i32⟩ : BufTy).Contents (Elt F) → (⟨S1000000, .i32⟩ : BufTy).Contents (Elt F)),
    StableHlo.binary main_arg4 main_call2_v0 main_call2_v1 ((cmpi .slt) : (⟨S1000000, .i32⟩ : BufTy).Contents (Elt F) → (⟨S1000000, .i32⟩ : BufTy).Contents (Elt F) → (⟨S1000000, .i1⟩ : BufTy).Contents (Elt F)),
    StableHlo.nullary main_call2_c_0 (constantI S_ 32 200000#32 : (⟨S_, .i32⟩ : BufTy).Contents (Elt F)),
    StableHlo.unary main_call2_c_0 main_call2_v2 ((broadcastInDim S1000000 ![] bcast_S_S1000000) : (⟨S_, .i32⟩ : BufTy).Contents (Elt F) → (⟨S1000000, .i32⟩ : BufTy).Contents (Elt F)),
    StableHlo.binary main_arg4 main_call2_v2 main_call2_v3 ((addi) : (⟨S1000000, .i32⟩ : BufTy).Contents (Elt F) → (⟨S1000000, .i32⟩ : BufTy).Contents (Elt F) → (⟨S1000000, .i32⟩ : BufTy).Contents (Elt F)),
    StableHlo.ternary main_call2_v1 main_call2_v3 main_arg4 main_call2_v4 ((select) : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_call2_v4 main_call2_v5 ((broadcastInDim S1000000x1 ![0] bcast_S1000000_S1000000x1_0) : (⟨S1000000, .i32⟩ : BufTy).Contents (Elt F) → (⟨S1000000x1, .i32⟩ : BufTy).Contents (Elt F)),
    StableHlo.nullary main_call2_c_1 (constantI S1 32 199999#32 : (⟨S1, .i32⟩ : BufTy).Contents (Elt F)),
    StableHlo.nullary main_call2_c_2 (constantI S_ 32 0#32 : (⟨S_, .i32⟩ : BufTy).Contents (Elt F)),
    StableHlo.unary main_call2_c_2 main_call2_v6 ((broadcastInDim S1000000x1 ![] bcast_S_S1000000x1) : (⟨S_, .i32⟩ : BufTy).Contents (Elt F) → (⟨S1000000x1, .i32⟩ : BufTy).Contents (Elt F)),
    StableHlo.binary main_call2_v5 main_call2_v6 main_call2_v7 ((cmpi .sge) : (⟨S1000000x1, .i32⟩ : BufTy).Contents (Elt F) → (⟨S1000000x1, .i32⟩ : BufTy).Contents (Elt F) → (⟨S1000000x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S1000000x1 ![0, 1] bcast_S1x1_S1000000x1_0_1) : (⟨S1x1, .i32⟩ : BufTy).Contents (Elt F) → (⟨S1000000x1, .i32⟩ : BufTy).Contents (Elt F)),
    StableHlo.binary main_call2_v5 main_call2_v9 main_call2_v10 ((cmpi .sle) : (⟨S1000000x1, .i32⟩ : BufTy).Contents (Elt F) → (⟨S1000000x1, .i32⟩ : BufTy).Contents (Elt F) → (⟨S1000000x1, .i1⟩ : BufTy).Contents (Elt F)),
    StableHlo.binary main_call2_v7 main_call2_v10 main_call2_v11 ((andi) : (⟨S1000000x1, .i1⟩ : BufTy).Contents (Elt F) → (⟨S1000000x1, .i1⟩ : BufTy).Contents (Elt F) → (⟨S1000000x1, .i1⟩ : BufTy).Contents (Elt F)),
    StableHlo.nullary main_call2_c_3 (constantI S_ 1 1#1 : (⟨S_, .i1⟩ : BufTy).Contents (Elt F)),
    StableHlo.binary main_call2_v11 main_call2_c_3 main_call2_v12 ((fun x v => Host.reduce IntOp.andi x v reducesTo_S1000000x1_S1000000_d1 h_S_) : (⟨S1000000x1, .i1⟩ : BufTy).Contents (Elt F) → (⟨S_, .i1⟩ : BufTy).Contents (Elt F) → (⟨S1000000, .i1⟩ : BufTy).Contents (Elt F)),
    StableHlo.binary main_v9 main_call2_v5 main_call2_v13 ((fun x i => Host.gather gather_S200000x32_S1000000x1_S1000000x32_1_0_n_n_0_1_132 x i) : (⟨S200000x32, .f32⟩ : BufTy).Contents (Elt F) → (⟨S1000000x1, .i32⟩ : BufTy).Contents (Elt F) → (⟨S1000000x32, .f32⟩ : BufTy).Contents (Elt F)),
    StableHlo.unary main_call2_v12 main_call2_v14 ((broadcastInDim S1000000x32 ![0] bcast_S1000000_S1000000x32_0) : (⟨S1000000, .i1⟩ : BufTy).Contents (Elt F) → (⟨S1000000x32, .i1⟩ : BufTy).Contents (Elt F)),
    StableHlo.nullary main_call2_cst (constant S_ .f32 0x7FC00000#32 : (⟨S_, .f32⟩ : BufTy).Contents (Elt F)),
    StableHlo.unary main_call2_cst main_call2_v15 ((broadcastInDim S1000000x32 ![] bcast_S_S1000000x32) : (⟨S_, .f32⟩ : BufTy).Contents (Elt F) → (⟨S1000000x32, .f32⟩ : BufTy).Contents (Elt F)),
    StableHlo.ternary main_call2_v14 main_call2_v13 main_call2_v15 main_v10 ((select) : (⟨S1000000x32, .i1⟩ : BufTy).Contents (Elt F) → (⟨S1000000x32, .f32⟩ : BufTy).Contents (Elt F) → (⟨S1000000x32, .f32⟩ : BufTy).Contents (Elt F) → (⟨S1000000x32, .f32⟩ : BufTy).Contents (Elt F)),
    StableHlo.nullary main_cst (constant S_ .f32 0x00000000#32),
    StableHlo.unary main_cst main_v11 (broadcastInDim S100000x32 ![] bcast_S_S100000x32 : (⟨S_, .f32⟩ : BufTy).Contents (Elt F) → (⟨S100000x32, .f32⟩ : BufTy).Contents (Elt F)),
    StableHlo.unary main_arg5 main_v12 (broadcastInDim S1000000x1 ![0] bcast_S1000000_S1000000x1_0 : (⟨S1000000, .i32⟩ : BufTy).Contents (Elt F) → (⟨S1000000x1, .i32⟩ : BufTy).Contents (Elt F)),
    StableHlo.ternary main_v11 main_v12 main_v10 main_v13 ((fun x i u => Host.scatterAdd scatter_S100000x32_S1000000x1_S1000000x32_1_0_0_1 x i u) : (⟨S100000x32, .f32⟩ : BufTy).Contents (Elt F) → (⟨S1000000x1, .i32⟩ : BufTy).Contents (Elt F) → (⟨S1000000x32, .f32⟩ : BufTy).Contents (Elt F) → (⟨S100000x32, .f32⟩ : BufTy).Contents (Elt F)),
    StableHlo.nullary main_cst_0 (constant S_ .f32 0x3F800000#32),
    StableHlo.unary main_cst_0 main_v14 (broadcastInDim S1000000 ![] bcast_S_S1000000 : (⟨S_, .f32⟩ : BufTy).Contents (Elt F) → (⟨S1000000, .f32⟩ : BufTy).Contents (Elt F)),
    StableHlo.nullary main_cst_1 (constant S_ .f32 0x00000000#32),
    StableHlo.unary main_cst_1 main_v15 (broadcastInDim S100000 ![] bcast_S_S100000 : (⟨S_, .f32⟩ : BufTy).Contents (Elt F) → (⟨S100000, .f32⟩ : BufTy).Contents (Elt F)),
    StableHlo.unary main_arg5 main_v16 (broadcastInDim S1000000x1 ![0] bcast_S1000000_S1000000x1_0 : (⟨S1000000, .i32⟩ : BufTy).Contents (Elt F) → (⟨S1000000x1, .i32⟩ : BufTy).Contents (Elt F)),
    StableHlo.ternary main_v15 main_v16 main_v14 main_v17 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_2 (constant S_ .f32 0x3F800000#32),
    StableHlo.unary main_cst_2 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x32 ![0, 1] bcast_S100000x1_S100000x32_0_1 : (⟨S100000x1, .f32⟩ : BufTy).Contents (Elt F) → (⟨S100000x32, .f32⟩ : BufTy).Contents (Elt F)),
    StableHlo.binary main_v13 main_v21 main_v22 (Host.divf : (⟨S100000x32, .f32⟩ : BufTy).Contents (Elt F) → (⟨S100000x32, .f32⟩ : BufTy).Contents (Elt F) → (⟨S100000x32, .f32⟩ : BufTy).Contents (Elt F)),
    StableHlo.binary main_v22 main_arg15 main_v23 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg16 main_v24 (broadcastInDim S1x32 ![1] bcast_S32_S1x32_1 : (⟨S32, .f32⟩ : BufTy).Contents (Elt F) → (⟨S1x32, .f32⟩ : BufTy).Contents (Elt F)),
    StableHlo.unary main_v24 main_v25 (broadcastInDim S100000x32 ![0, 1] bcast_S1x32_S100000x32_0_1 : (⟨S1x32, .f32⟩ : BufTy).Contents (Elt F) → (⟨S100000x32, .f32⟩ : BufTy).Contents (Elt F)),
    StableHlo.binary main_v23 main_v25 main_v26 (addf : (⟨S100000x32, .f32⟩ : BufTy).Contents (Elt F) → (⟨S100000x32, .f32⟩ : BufTy).Contents (Elt F) → (⟨S100000x32, .f32⟩ : BufTy).Contents (Elt F)),
    StableHlo.binary main_v4 main_arg17 main_v27 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v26 main_v27 main_v28 (addf : (⟨S100000x32, .f32⟩ : BufTy).Contents (Elt F) → (⟨S100000x32, .f32⟩ : BufTy).Contents (Elt F) → (⟨S100000x32, .f32⟩ : BufTy).Contents (Elt F)),
    StableHlo.nullary main_call3_c (constantI S_ 32 0#32 : (⟨S_, .i32⟩ : BufTy).Contents (Elt F)),
    StableHlo.unary main_call3_c main_call3_v0 ((broadcastInDim S500000 ![] bcast_S_S500000) : (⟨S_, .i32⟩ : BufTy).Contents (Elt F) → (⟨S500000, .i32⟩ : BufTy).Contents (Elt F)),
    StableHlo.binary main_arg6 main_call3_v0 main_call3_v1 ((cmpi .slt) : (⟨S500000, .i32⟩ : BufTy).Contents (Elt F) → (⟨S500000, .i32⟩ : BufTy).Contents (Elt F) → (⟨S500000, .i1⟩ : BufTy).Contents (Elt F)),
    StableHlo.nullary main_call3_c_0 (constantI S_ 32 100000#32 : (⟨S_, .i32⟩ : BufTy).Contents (Elt F)),
    StableHlo.unary main_call3_c_0 main_call3_v2 ((broadcastInDim S500000 ![] bcast_S_S500000) : (⟨S_, .i32⟩ : BufTy).Contents (Elt F) → (⟨S500000, .i32⟩ : BufTy).Contents (Elt F)),
    StableHlo.binary main_arg6 main_call3_v2 main_call3_v3 ((addi) : (⟨S500000, .i32⟩ : BufTy).Contents (Elt F) → (⟨S500000, .i32⟩ : BufTy).Contents (Elt F) → (⟨S500000, .i32⟩ : BufTy).Contents (Elt F)),
    StableHlo.ternary main_call3_v1 main_call3_v3 main_arg6 main_call3_v4 ((select) : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_call3_v4 main_call3_v5 ((broadcastInDim S500000x1 ![0] bcast_S500000_S500000x1_0) : (⟨S500000, .i32⟩ : BufTy).Contents (Elt F) → (⟨S500000x1, .i32⟩ : BufTy).Contents (Elt F)),
    StableHlo.nullary main_call3_c_1 (constantI S1 32 99999#32 : (⟨S1, .i32⟩ : BufTy).Contents (Elt F)),
    StableHlo.nullary main_call3_c_2 (constantI S_ 32 0#32 : (⟨S_, .i32⟩ : BufTy).Contents (Elt F)),
    StableHlo.unary main_call3_c_2 main_call3_v6 ((broadcastInDim S500000x1 ![] bcast_S_S500000x1) : (⟨S_, .i32⟩ : BufTy).Contents (Elt F) → (⟨S500000x1, .i32⟩ : BufTy).Contents (Elt F)),
    StableHlo.binary main_call3_v5 main_call3_v6 main_call3_v7 ((cmpi .sge) : (⟨S500000x1, .i32⟩ : BufTy).Contents (Elt F) → (⟨S500000x1, .i32⟩ : BufTy).Contents (Elt F) → (⟨S500000x1, .i1⟩ : BufTy).Contents (Elt F)),
    StableHlo.unary main_call3_c_1 main_call3_v8 ((broadcastInDim S1x1 ![1] bcast_S1_S1x1_1) : (⟨S1, .i32⟩ : BufTy).Contents (Elt F) → (⟨S1x1, .i32⟩ : BufTy).Contents (Elt F)),
    StableHlo.unary main_call3_v8 main_call3_v9 ((broadcastInDim S500000x1 ![0, 1] bcast_S1x1_S500000x1_0_1) : (⟨S1x1, .i32⟩ : BufTy).Contents (Elt F) → (⟨S500000x1, .i32⟩ : BufTy).Contents (Elt F)),
    StableHlo.binary main_call3_v5 main_call3_v9 main_call3_v10 ((cmpi .sle) : (⟨S500000x1, .i32⟩ : BufTy).Contents (Elt F) → (⟨S500000x1, .i32⟩ : BufTy).Contents (Elt F) → (⟨S500000x1, .i1⟩ : BufTy).Contents (Elt F)),
    StableHlo.binary main_call3_v7 main_call3_v10 main_call3_v11 ((andi) : (⟨S500000x1, .i1⟩ : BufTy).Contents (Elt F) → (⟨S500000x1, .i1⟩ : BufTy).Contents (Elt F) → (⟨S500000x1, .i1⟩ : BufTy).Contents (Elt F)),
    StableHlo.nullary main_call3_c_3 (constantI S_ 1 1#1 : (⟨S_, .i1⟩ : BufTy).Contents (Elt F)),
    StableHlo.binary main_call3_v11 main_call3_c_3 main_call3_v12 ((fun x v => Host.reduce IntOp.andi x v reducesTo_S500000x1_S500000_d1 h_S_) : (⟨S500000x1, .i1⟩ : BufTy).Contents (Elt F) → (⟨S_, .i1⟩ : BufTy).Contents (Elt F) → (⟨S500000, .i1⟩ : BufTy).Contents (Elt F)),
    StableHlo.binary main_v4 main_call3_v5 main_call3_v13 ((fun x i => Host.gather gather_S100000x32_S500000x1_S500000x32_1_0_n_n_0_1_132 x i) : (⟨S100000x32, .f32⟩ : BufTy).Contents (Elt F) → (⟨S500000x1, .i32⟩ : BufTy).Contents (Elt F) → (⟨S500000x32, .f32⟩ : BufTy).Contents (Elt F)),
    StableHlo.unary main_call3_v12 main_call3_v14 ((broadcastInDim S500000x32 ![0] bcast_S500000_S500000x32_0) : (⟨S500000, .i1⟩ : BufTy).Contents (Elt F) → (⟨S500000x32, .i1⟩ : BufTy).Contents (Elt F)),
    StableHlo.nullary main_call3_cst (constant S_ .f32 0x7FC00000#32 : (⟨S_, .f32⟩ : BufTy).Contents (Elt F)),
    StableHlo.unary main_call3_cst main_call3_v15 ((broadcastInDim S500000x32 ![] bcast_S_S500000x32) : (⟨S_, .f32⟩ : BufTy).Contents (Elt F) → (⟨S500000x32, .f32⟩ : BufTy).Contents (Elt F)),
    StableHlo.ternary main_call3_v14 main_call3_v13 main_call3_v15 main_v29 ((select) : (⟨S500000x32, .i1⟩ : BufTy).Contents (Elt F) → (⟨S500000x32, .f32⟩ : BufTy).Contents (Elt F) → (⟨S500000x32, .f32⟩ : BufTy).Contents (Elt F) → (⟨S500000x32, .f32⟩ : BufTy).Contents (Elt F)),
    StableHlo.nullary main_cst_3 (constant S_ .f32 0x00000000#32),
    StableHlo.unary main_cst_3 main_v30 (broadcastInDim S100000x32 ![] bcast_S_S100000x32 : (⟨S_, .f32⟩ : BufTy).Contents (Elt F) → (⟨S100000x32, .f32⟩ : BufTy).Contents (Elt F)),
    StableHlo.unary main_arg7 main_v31 (broadcastInDim S500000x1 ![0] bcast_S500000_S500000x1_0 : (⟨S500000, .i32⟩ : BufTy).Contents (Elt F) → (⟨S500000x1, .i32⟩ : BufTy).Contents (Elt F)),
    StableHlo.ternary main_v30 main_v31 main_v29 main_v32 ((fun x i u => Host.scatterAdd scatter_S100000x32_S500000x1_S500000x32_1_0_0_1 x i u) : (⟨S100000x32, .f32⟩ : BufTy).Contents (Elt F) → (⟨S500000x1, .i32⟩ : BufTy).Contents (Elt F) → (⟨S500000x32, .f32⟩ : BufTy).Contents (Elt F) → (⟨S100000x32, .f32⟩ : BufTy).Contents (Elt F)),
    StableHlo.nullary main_cst_4 (constant S_ .f32 0x3F800000#32),
    StableHlo.unary main_cst_4 main_v33 (broadcastInDim S500000 ![] bcast_S_S500000 : (⟨S_, .f32⟩ : BufTy).Contents (Elt F) → (⟨S500000, .f32⟩ : BufTy).Contents (Elt F)),
    StableHlo.nullary main_cst_5 (constant S_ .f32 0x00000000#32),
    StableHlo.unary main_cst_5 main_v34 (broadcastInDim S100000 ![] bcast_S_S100000 : (⟨S_, .f32⟩ : BufTy).Contents (Elt F) → (⟨S100000, .f32⟩ : BufTy).Contents (Elt F)),
    StableHlo.unary main_arg7 main_v35 (broadcastInDim S500000x1 ![0] bcast_S500000_S500000x1_0 : (⟨S500000, .i32⟩ : BufTy).Contents (Elt F) → (⟨S500000x1, .i32⟩ : BufTy).Contents (Elt F)),
    StableHlo.ternary main_v34 main_v35 main_v33 main_v36 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_6 (constant S_ .f32 0x3F800000#32),
    StableHlo.unary main_cst_6 main_v37 (broadcastInDim S100000 ![] bcast_S_S100000 : (⟨S_, .f32⟩ : BufTy).Contents (Elt F) → (⟨S100000, .f32⟩ : BufTy).Contents (Elt F)),
    StableHlo.binary main_v36 main_v37 main_v38 (maximumf : (⟨S100000, .f32⟩ : BufTy).Contents (Elt F) → (⟨S100000, .f32⟩ : BufTy).Contents (Elt F) → (⟨S100000, .f32⟩ : BufTy).Contents (Elt F)),
    StableHlo.unary main_v38 main_v39 (broadcastInDim S100000x1 ![0] bcast_S100000_S100000x1_0 : (⟨S100000, .f32⟩ : BufTy).Contents (Elt F) → (⟨S100000x1, .f32⟩ : BufTy).Contents (Elt F)),
    StableHlo.unary main_v39 main_v40 (broadcastInDim S100000x32 ![0, 1] bcast_S100000x1_S100000x32_0_1 : (⟨S100000x1, .f32⟩ : BufTy).Contents (Elt F) → (⟨S100000x32, .f32⟩ : BufTy).Contents (Elt F)),
    StableHlo.binary main_v32 main_v40 main_v41 (Host.divf : (⟨S100000x32, .f32⟩ : BufTy).Contents (Elt F) → (⟨S100000x32, .f32⟩ : BufTy).Contents (Elt F) → (⟨S100000x32, .f32⟩ : BufTy).Contents (Elt F)),
    StableHlo.binary main_v41 main_arg18 main_v42 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg19 main_v43 (broadcastInDim S1x32 ![1] bcast_S32_S1x32_1 : (⟨S32, .f32⟩ : BufTy).Contents (Elt F) → (⟨S1x32, .f32⟩ : BufTy).Contents (Elt F)),
    StableHlo.unary main_v43 main_v44 (broadcastInDim S100000x32 ![0, 1] bcast_S1x32_S100000x32_0_1 : (⟨S1x32, .f32⟩ : BufTy).Contents (Elt F) → (⟨S100000x32, .f32⟩ : BufTy).Contents (Elt F)),
    StableHlo.binary main_v42 main_v44 main_v45 (addf : (⟨S100000x32, .f32⟩ : BufTy).Contents (Elt F) → (⟨S100000x32, .f32⟩ : BufTy).Contents (Elt F) → (⟨S100000x32, .f32⟩ : BufTy).Contents (Elt F)),
    StableHlo.binary main_v4 main_arg20 main_v46 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v45 main_v46 main_v47 (addf : (⟨S100000x32, .f32⟩ : BufTy).Contents (Elt F) → (⟨S100000x32, .f32⟩ : BufTy).Contents (Elt F) → (⟨S100000x32, .f32⟩ : BufTy).Contents (Elt F)),
    StableHlo.binary main_v28 main_v47 main_v48 (addf : (⟨S100000x32, .f32⟩ : BufTy).Contents (Elt F) → (⟨S100000x32, .f32⟩ : BufTy).Contents (Elt F) → (⟨S100000x32, .f32⟩ : BufTy).Contents (Elt F)),
    StableHlo.nullary main_call4_cst (constant S_ .f32 0x00000000#32 : (⟨S_, .f32⟩ : BufTy).Contents (Elt F)),
    StableHlo.unary main_call4_cst main_call4_v0 ((broadcastInDim S100000x32 ![] bcast_S_S100000x32) : (⟨S_, .f32⟩ : BufTy).Contents (Elt F) → (⟨S100000x32, .f32⟩ : BufTy).Contents (Elt F)),
    StableHlo.binary main_v48 main_call4_v0 main_v49 ((maximumf) : (⟨S100000x32, .f32⟩ : BufTy).Contents (Elt F) → (⟨S100000x32, .f32⟩ : BufTy).Contents (Elt F) → (⟨S100000x32, .f32⟩ : BufTy).Contents (Elt F)),
    StableHlo.binary main_v49 main_arg21 main_v50 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    StableHlo.unary main_arg22 main_v51 (broadcastInDim S1x1 ![1] bcast_S1_S1x1_1 : (⟨S1, .f32⟩ : BufTy).Contents (Elt F) → (⟨S1x1, .f32⟩ : BufTy).Contents (Elt F)),
    StableHlo.unary main_v51 main_v52 (broadcastInDim S100000x1 ![0, 1] bcast_S1x1_S100000x1_0_1 : (⟨S1x1, .f32⟩ : BufTy).Contents (Elt F) → (⟨S100000x1, .f32⟩ : BufTy).Contents (Elt F)),
    StableHlo.binary main_v50 main_v52 main_v53 (addf : (⟨S100000x1, .f32⟩ : BufTy).Contents (Elt F) → (⟨S100000x1, .f32⟩ : BufTy).Contents (Elt F) → (⟨S100000x1, .f32⟩ : BufTy).Contents (Elt F)) ]

set_option maxRecDepth 4096 in
set_option maxHeartbeats 4000000 in
/-- The entry function is the first list run in order: the helper functions unfolded at their calls, the sequencing
    reassociated. -/
theorem main_eqT (c : Dev nD) : main (F := F) c = seq opsT := by
  simp only [main, main_part0, main_part1, fn_relu.body, fn_relu_0.body, fn_where.body, fn_take.body, fn_where_2.body,
    fn_take_1.body, seq, bind_assoc, pure_bind]

attribute [local irreducible] Host.reduce Host.gather Host.scatterAdd in
set_option maxHeartbeats 4000000 in
/-- The two lists are equal, operation by operation (the reductions, gathers and scatters stay folded: the comparison
    never looks inside them). -/
theorem opsT_eq : (opsT : List (HloOp τ sig (Elt F))) = ops := by
  repeat (refine congrArg₂ List.cons rfl ?_)
  rfl

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- From any memory with zero counters every weakly fair execution of the entry function terminates, and every buffer
    ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.RefChain.lean ====
/-
  The reference program's terms, named. Each stage of the reference is a function of the arrays it reads: the two
  encoders (host matrix product, bias row spread over the rows, maximum with zero), the row look-up with its
  out-of-range guard, the mean over incoming edges (a scatter-add of the looked-up rows divided by a scatter-add of
  ones clamped below at one), one relation's layer (mean times left weights plus bias plus features times right
  weights) and the output layer. `out` composes them as the program does.
-/
import proofs.«171575_j3770981286512_1_alg».proof.ReferenceIdeal

noncomputable section

namespace Cert.ReferenceIdeal.Chain

open Cert.ReferenceIdeal Idealize.ShloMosaic

variable {F : FTy → Type} [FloatOps F]
variable [Facts]
open Facts₀ Facts

/-- The row numbers of a look-up into 200000 rows: a negative number counts from the end, as one column. -/
def rowIxRB (src : (⟨S1000000, .i32⟩ : BufTy).Contents (Elt F)) : (⟨S1000000x1, .i32⟩ : BufTy).Contents (Elt F) :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 200000#32))) src)

/-- The look-up of 1000000 rows of a 200000-row table: the gathered row where the row number is in range, the fill word
    elsewhere. -/
def takeRB (h : (⟨S200000x32, .f32⟩ : BufTy).Contents (Elt F)) (src : (⟨S1000000, .i32⟩ : BufTy).Contents (Elt F)) : (⟨S1000000x32, .f32⟩ : BufTy).Contents (Elt F) :=
  select (broadcastInDim S1000000x32 ![0] bcast_S1000000_S1000000x32_0
      (Host.reduce IntOp.andi
        (andi (cmpi .sge (rowIxRB (F := F) src) (broadcastInDim S1000000x1 ![] bcast_S_S1000000x1 (constantI S_ 32 0#32)))
          (cmpi .sle (rowIxRB (F := F) src) (broadcastInDim S1000000x1 ![0, 1] bcast_S1x1_S1000000x1_0_1
            (broadcastInDim S1x1 ![1] bcast_S1_S1x1_1 (constantI S1 32 199999#32)))))
        (constantI S_ 1 1#1) reducesTo_S1000000x1_S1000000_d1 h_S_))
    (Host.gather gather_S200000x32_S1000000x1_S1000000x32_1_0_n_n_0_1_132 h (rowIxRB (F := F) src))
    (broadcastInDim S1000000x32 ![] bcast_S_S1000000x32 (constant (F := F) S_ .f32 0x7FC00000#32))

/-- The mean over incoming edges: the looked-up rows summed per destination, divided by the number of incoming edges
    clamped below at one. -/
def meanRB (msg : (⟨S1000000x32, .f32⟩ : BufTy).Contents (Elt F)) (dst : (⟨S1000000, .i32⟩ : BufTy).Contents (Elt F)) : (⟨S100000x32, .f32⟩ : BufTy).Contents (Elt F) :=
  Host.divf
    (Host.scatterAdd scatter_S100000x32_S1000000x1_S1000000x32_1_0_0_1
      (broadcastInDim S100000x32 ![] bcast_S_S100000x32 (constant (F := F) S_ .f32 0x00000000#32))
      (broadcastInDim S1000000x1 ![0] bcast_S1000000_S1000000x1_0 dst) msg)
    (broadcastInDim S100000x32 ![0, 1] bcast_S100000x1_S100000x32_0_1 (broadcastInDim S100000x1 ![0] bcast_S100000_S100000x1_0
      (maximumf
        (Host.scatterAdd scatter_S100000_S1000000x1_S1000000_n_0_0_1
          (broadcastInDim S100000 ![] bcast_S_S100000 (constant (F := F) S_ .f32 0x00000000#32))
          (broadcastInDim S1000000x1 ![0] bcast_S1000000_S1000000x1_0 dst)
          (broadcastInDim S1000000 ![] bcast_S_S1000000 (constant (F := F) S_ .f32 0x3F800000#32)))
        (broadcastInDim S100000 ![] bcast_S_S100000 (constant (F := F) S_ .f32 0x3F800000#32)))))

/-- The row numbers of a look-up into 100000 rows: a negative number counts from the end, as one column. -/
def rowIxBB (src : (⟨S500000, .i32⟩ : BufTy).Contents (Elt F)) : (⟨S500000x1, .i32⟩ : BufTy).Contents (Elt F) :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 100000#32))) src)

/-- The look-up of 500000 rows of a 100000-row table: the gathered row where the row number is in range, the fill word
    elsewhere. -/
def takeBB (h : (⟨S100000x32, .f32⟩ : BufTy).Contents (Elt F)) (src : (⟨S500000, .i32⟩ : BufTy).Contents (Elt F)) : (⟨S500000x32, .f32⟩ : BufTy).Contents (Elt F) :=
  select (broadcastInDim S500000x32 ![0] bcast_S500000_S500000x32_0
      (Host.reduce IntOp.andi
        (andi (cmpi .sge (rowIxBB (F := F) src) (broadcastInDim S500000x1 ![] bcast_S_S500000x1 (constantI S_ 32 0#32)))
          (cmpi .sle (rowIxBB (F := F) src) (broadcastInDim S500000x1 ![0, 1] bcast_S1x1_S500000x1_0_1
            (broadcastInDim S1x1 ![1] bcast_S1_S1x1_1 (constantI S1 32 99999#32)))))
        (constantI S_ 1 1#1) reducesTo_S500000x1_S500000_d1 h_S_))
    (Host.gather gather_S100000x32_S500000x1_S500000x32_1_0_n_n_0_1_132 h (rowIxBB (F := F) src))
    (broadcastInDim S500000x32 ![] bcast_S_S500000x32 (constant (F := F) S_ .f32 0x7FC00000#32))

/-- The mean over incoming edges: the looked-up rows summed per destination, divided by the number of incoming edges
    clamped below at one. -/
def meanBB (msg : (⟨S500000x32, .f32⟩ : BufTy).Contents (Elt F)) (dst : (⟨S500000, .i32⟩ : BufTy).Contents (Elt F)) : (⟨S100000x32, .f32⟩ : BufTy).Contents (Elt F) :=
  Host.divf
    (Host.scatterAdd scatter_S100000x32_S500000x1_S500000x32_1_0_0_1
      (broadcastInDim S100000x32 ![] bcast_S_S100000x32 (constant (F := F) S_ .f32 0x00000000#32))
      (broadcastInDim S500000x1 ![0] bcast_S500000_S500000x1_0 dst) msg)
    (broadcastInDim S100000x32 ![0, 1] bcast_S100000x1_S100000x32_0_1 (broadcastInDim S100000x1 ![0] bcast_S100000_S100000x1_0
      (maximumf
        (Host.scatterAdd scatter_S100000_S500000x1_S500000_n_0_0_1
          (broadcastInDim S100000 ![] bcast_S_S100000 (constant (F := F) S_ .f32 0x00000000#32))
          (broadcastInDim S500000x1 ![0] bcast_S500000_S500000x1_0 dst)
          (broadcastInDim S500000 ![] bcast_S_S500000 (constant (F := F) S_ .f32 0x3F800000#32)))
        (broadcastInDim S100000 ![] bcast_S_S100000 (constant (F := F) S_ .f32 0x3F800000#32)))))

/-- The bridge encoder on the host. -/
def encB (x : (⟨S100000x16, .f32⟩ : BufTy).Contents (Elt F)) (w : (⟨S16x32, .f32⟩ : BufTy).Contents (Elt F)) (b : (⟨S32, .f32⟩ : BufTy).Contents (Elt F)) : (⟨S100000x32, .f32⟩ : BufTy).Contents (Elt F) :=
  maximumf (addf (Host.dotGeneral dot_S100000x16_S16x32_S100000x32_1_0_0_1_n_n none x w)
      (broadcastInDim S100000x32 ![0, 1] bcast_S1x32_S100000x32_0_1 (broadcastInDim S1x32 ![1] bcast_S32_S1x32_1 b)))
    (broadcastInDim S100000x32 ![] bcast_S_S100000x32 (constant (F := F) S_ .f32 0x00000000#32))

/-- The road encoder on the host. -/
def encR (x : (⟨S200000x8, .f32⟩ : BufTy).Contents (Elt F)) (w : (⟨S8x32, .f32⟩ : BufTy).Contents (Elt F)) (b : (⟨S32, .f32⟩ : BufTy).Contents (Elt F)) : (⟨S200000x32, .f32⟩ : BufTy).Contents (Elt F) :=
  maximumf (addf (Host.dotGeneral dot_S200000x8_S8x32_S200000x32_1_0_0_1_n_n none x w)
      (broadcastInDim S200000x32 ![0, 1] bcast_S1x32_S200000x32_0_1 (broadcastInDim S1x32 ![1] bcast_S32_S1x32_1 b)))
    (broadcastInDim S200000x32 ![] bcast_S_S200000x32 (constant (F := F) S_ .f32 0x00000000#32))

/-- One relation's layer on the host. -/
def sageH (mean h : (⟨S100000x32, .f32⟩ : BufTy).Contents (Elt F)) (wl : (⟨S32x32, .f32⟩ : BufTy).Contents (Elt F)) (bl : (⟨S32, .f32⟩ : BufTy).Contents (Elt F)) (wr : (⟨S32x32, .f32⟩ : BufTy).Contents (Elt F)) :
    (⟨S100000x32, .f32⟩ : BufTy).Contents (Elt F) :=
  addf (addf (Host.dotGeneral dot_S100000x32_S32x32_S100000x32_1_0_0_1_n_n none mean wl)
      (broadcastInDim S100000x32 ![0, 1] bcast_S1x32_S100000x32_0_1 (broadcastInDim S1x32 ![1] bcast_S32_S1x32_1 bl)))
    (Host.dotGeneral dot_S100000x32_S32x32_S100000x32_1_0_0_1_n_n none h wr)

/-- The output layer on the host. -/
def headH (s1 s2 : (⟨S100000x32, .f32⟩ : BufTy).Contents (Elt F)) (wo : (⟨S32x1, .f32⟩ : BufTy).Contents (Elt F)) (bo : (⟨S1, .f32⟩ : BufTy).Contents (Elt F)) : (⟨S100000x1, .f32⟩ : BufTy).Contents (Elt F) :=
  addf (Host.dotGeneral dot_S100000x32_S32x1_S100000x1_1_0_0_1_n_n none
      (maximumf (addf s1 s2) (broadcastInDim S100000x32 ![] bcast_S_S100000x32 (constant (F := F) S_ .f32 0x00000000#32))) wo)
    (broadcastInDim S100000x1 ![0, 1] bcast_S1x1_S100000x1_0_1 (broadcastInDim S1x1 ![1] bcast_S1_S1x1_1 bo))

/-- The reference's result as a function of its argument arrays. -/
def out (a0 : (⟨S100000x16, .f32⟩ : BufTy).Contents (Elt F)) (a1 : (⟨S200000x8, .f32⟩ : BufTy).Contents (Elt F)) (a4 a5 : (⟨S1000000, .i32⟩ : BufTy).Contents (Elt F)) (a6 a7 : (⟨S500000, .i32⟩ : BufTy).Contents (Elt F))
    (a8 : (⟨S16x32, .f32⟩ : BufTy).Contents (Elt F)) (a9 : (⟨S32, .f32⟩ : BufTy).Contents (Elt F)) (a10 : (⟨S8x32, .f32⟩ : BufTy).Contents (Elt F)) (a11 : (⟨S32, .f32⟩ : BufTy).Contents (Elt F))
    (a15 : (⟨S32x32, .f32⟩ : BufTy).Contents (Elt F)) (a16 : (⟨S32, .f32⟩ : BufTy).Contents (Elt F)) (a17 a18 : (⟨S32x32, .f32⟩ : BufTy).Contents (Elt F)) (a19 : (⟨S32, .f32⟩ : BufTy).Contents (Elt F))
    (a20 : (⟨S32x32, .f32⟩ : BufTy).Contents (Elt F)) (a21 : (⟨S32x1, .f32⟩ : BufTy).Contents (Elt F)) (a22 : (⟨S1, .f32⟩ : BufTy).Contents (Elt F)) : (⟨S100000x1, .f32⟩ : BufTy).Contents (Elt F) :=
  headH (sageH (meanRB (takeRB (encR a1 a10 a11) a4) a5) (encB a0 a8 a9) a15 a16 a17)
    (sageH (meanBB (takeBB (encB a0 a8 a9) a6) a7) (encB a0 a8 a9) a18 a19 a20) a21 a22

end Cert.ReferenceIdeal.Chain

end
-- ==== Proof.RefValue.lean ====
/-
  The reference's result buffer after its run: the fold of the 112 operations, read at the result buffer, is the
  composition of the named stages applied to the argument arrays' launch contents.
-/
import proofs.«171575_j3770981286512_1_alg».proof.Proof.RefRun
import proofs.«171575_j3770981286512_1_alg».proof.Proof.RefChain

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- The result buffer after the operations, from any contents `V`. -/
theorem out_eq (V : Valuation τ sig (Elt F)) :
    after ops V (main_v53 : DevRef τ sig)
      = Chain.out (V (main_arg0 : DevRef τ sig)) (V (main_arg1 : DevRef τ sig)) (V (main_arg4 : DevRef τ sig))
          (V (main_arg5 : DevRef τ sig)) (V (main_arg6 : DevRef τ sig)) (V (main_arg7 : DevRef τ sig))
          (V (main_arg8 : DevRef τ sig)) (V (main_arg9 : DevRef τ sig)) (V (main_arg10 : DevRef τ sig))
          (V (main_arg11 : DevRef τ sig)) (V (main_arg15 : DevRef τ sig)) (V (main_arg16 : DevRef τ sig))
          (V (main_arg17 : DevRef τ sig)) (V (main_arg18 : DevRef τ sig)) (V (main_arg19 : DevRef τ sig))
          (V (main_arg20 : DevRef τ sig)) (V (main_arg21 : DevRef τ sig)) (V (main_arg22 : DevRef τ sig)) := by
  after_results_simp <;> rfl

end Cert.ReferenceIdeal.HostRun

end
-- ==== Proof.RefKept.lean ====
/-
  The reference's argument buffers after its run: none of the 112 operations writes an argument, so each argument
  buffer holds afterwards what it held before.
-/
import proofs.«171575_j3770981286512_1_alg».proof.Proof.RefRun

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem kept_main_arg0 (V : Valuation τ sig (Elt F)) : after ops V (main_arg0 : DevRef τ sig) = V (main_arg0 : DevRef τ sig) := by
  after_results_simp

set_option maxRecDepth 65536 in
set_option maxHeartbeats 4000000 in
theorem kept_main_arg1 (V : Valuation τ sig (Elt F)) : after ops V (main_arg1 : DevRef τ sig) = V (main_arg1 : DevRef τ sig) := by
  after_results_simp

set_option maxRecDepth 65536 in
set_option maxHeartbeats 4000000 in
theorem kept_main_arg2 (V : Valuation τ sig (Elt F)) : after ops V (main_arg2 : DevRef τ sig) = V (main_arg2 : DevRef τ sig) := by
  after_results_simp

set_option maxRecDepth 65536 in
set_option maxHeartbeats 4000000 in
theorem kept_main_arg3 (V : Valuation τ sig (Elt F)) : after ops V (main_arg3 : DevRef τ sig) = V (main_arg3 : DevRef τ sig) := by
  after_results_simp

set_option maxRecDepth 65536 in
set_option maxHeartbeats 4000000 in
theorem kept_main_arg4 (V : Valuation τ sig (Elt F)) : after ops V (main_arg4 : DevRef τ sig) = V (main_arg4 : DevRef τ sig) := by
  after_results_simp

set_option maxRecDepth 65536 in
set_option maxHeartbeats 4000000 in
theorem kept_main_arg5 (V : Valuation τ sig (Elt F)) : after ops V (main_arg5 : DevRef τ sig) = V (main_arg5 : DevRef τ sig) := by
  after_results_simp

set_option maxRecDepth 65536 in
set_option maxHeartbeats 4000000 in
theorem kept_main_arg6 (V : Valuation τ sig (Elt F)) : after ops V (main_arg6 : DevRef τ sig) = V (main_arg6 : DevRef τ sig) := by
  after_results_simp

set_option maxRecDepth 65536 in
set_option maxHeartbeats 4000000 in
theorem kept_main_arg7 (V : Valuation τ sig (Elt F)) : after ops V (main_arg7 : DevRef τ sig) = V (main_arg7 : DevRef τ sig) := by
  after_results_simp

set_option maxRecDepth 65536 in
set_option maxHeartbeats 4000000 in
theorem kept_main_arg8 (V : Valuation τ sig (Elt F)) : after ops V (main_arg8 : DevRef τ sig) = V (main_arg8 : DevRef τ sig) := by
  after_results_simp

set_option maxRecDepth 65536 in
set_option maxHeartbeats 4000000 in
theorem kept_main_arg9 (V : Valuation τ sig (Elt F)) : after ops V (main_arg9 : DevRef τ sig) = V (main_arg9 : DevRef τ sig) := by
  after_results_simp

set_option maxRecDepth 65536 in
set_option maxHeartbeats 4000000 in
theorem kept_main_arg10 (V : Valuation τ sig (Elt F)) : after ops V (main_arg10 : DevRef τ sig) = V (main_arg10 : DevRef τ sig) := by
  after_results_simp

set_option maxRecDepth 65536 in
set_option maxHeartbeats 4000000 in
theorem kept_main_arg11 (V : Valuation τ sig (Elt F)) : after ops V (main_arg11 : DevRef τ sig) = V (main_arg11 : DevRef τ sig) := by
  after_results_simp

set_option maxRecDepth 65536 in
set_option maxHeartbeats 4000000 in
theorem kept_main_arg12 (V : Valuation τ sig (Elt F)) : after ops V (main_arg12 : DevRef τ sig) = V (main_arg12 : DevRef τ sig) := by
  after_results_simp

set_option maxRecDepth 65536 in
set_option maxHeartbeats 4000000 in
theorem kept_main_arg13 (V : Valuation τ sig (Elt F)) : after ops V (main_arg13 : DevRef τ sig) = V (main_arg13 : DevRef τ sig) := by
  after_results_simp

set_option maxRecDepth 65536 in
set_option maxHeartbeats 4000000 in
theorem kept_main_arg14 (V : Valuation τ sig (Elt F)) : after ops V (main_arg14 : DevRef τ sig) = V (main_arg14 : DevRef τ sig) := by
  after_results_simp

set_option maxRecDepth 65536 in
set_option maxHeartbeats 4000000 in
theorem kept_main_arg15 (V : Valuation τ sig (Elt F)) : after ops V (main_arg15 : DevRef τ sig) = V (main_arg15 : DevRef τ sig) := by
  after_results_simp

set_option maxRecDepth 65536 in
set_option maxHeartbeats 4000000 in
theorem kept_main_arg16 (V : Valuation τ sig (Elt F)) : after ops V (main_arg16 : DevRef τ sig) = V (main_arg16 : DevRef τ sig) := by
  after_results_simp

set_option maxRecDepth 65536 in
set_option maxHeartbeats 4000000 in
theorem kept_main_arg17 (V : Valuation τ sig (Elt F)) : after ops V (main_arg17 : DevRef τ sig) = V (main_arg17 : DevRef τ sig) := by
  after_results_simp

set_option maxRecDepth 65536 in
set_option maxHeartbeats 4000000 in
theorem kept_main_arg18 (V : Valuation τ sig (Elt F)) : after ops V (main_arg18 : DevRef τ sig) = V (main_arg18 : DevRef τ sig) := by
  after_results_simp

set_option maxRecDepth 65536 in
set_option maxHeartbeats 4000000 in
theorem kept_main_arg19 (V : Valuation τ sig (Elt F)) : after ops V (main_arg19 : DevRef τ sig) = V (main_arg19 : DevRef τ sig) := by
  after_results_simp

set_option maxRecDepth 65536 in
set_option maxHeartbeats 4000000 in
theorem kept_main_arg20 (V : Valuation τ sig (Elt F)) : after ops V (main_arg20 : DevRef τ sig) = V (main_arg20 : DevRef τ sig) := by
  after_results_simp

set_option maxRecDepth 65536 in
set_option maxHeartbeats 4000000 in
theorem kept_main_arg21 (V : Valuation τ sig (Elt F)) : after ops V (main_arg21 : DevRef τ sig) = V (main_arg21 : DevRef τ sig) := by
  after_results_simp

set_option maxRecDepth 65536 in
set_option maxHeartbeats 4000000 in
theorem kept_main_arg22 (V : Valuation τ sig (Elt F)) : after ops V (main_arg22 : DevRef τ sig) = V (main_arg22 : DevRef τ sig) := by
  after_results_simp

end Cert.ReferenceIdeal.HostRun

end
-- ==== Proof.LibHostLayers.lean ====
/-
  Host-side layers of a message-passing network read entry by entry over the extended reals, for any extents.

  A bias vector spread over the rows by the host's two broadcasts (first to one row, then down the rows) reads, at
  `(p, q)`, the vector viewed as one row at `(0, q)`. With that, the host's encoder (matrix product, bias, maximum with a
  broadcast zero), relation layer (mean times left weights plus bias plus features times right weights) and output layer
  (sum of two layers cut off below at zero, times output weights, plus bias) are the functions `Hgnn.enc`, `Hgnn.sage` and
  `Hgnn.head`: the host's matrix product is the sum of products over the contracted coordinate in the same order.
-/
import proofs.«171575_j3770981286512_1_alg».proof.Proof.LibGnnLayers
import Idealize.ShloMosaic.Lib.KernelVsHost
import Idealize.ShloMosaic.Lib.ValueLayout
import Idealize.ShloMosaic.Lib.IdealHost

noncomputable section

namespace Hgnn.Bridge

open Idealize.ShloMosaic Idealize.ShloMosaic.ValueIdx Idealize.ShloMosaic.DenseLayer

variable {M K N : Nat}

/-- A vector laid out as one row by the host's broadcast along axis 1 reads the vector at the column. -/
theorem bcast_row_apply {α : Type} {n : Nat} (hd : (⟨1, ![n]⟩ : Shape).BroadcastsInDim ⟨2, ![1, n]⟩ ![1])
    (x : (⟨1, ![n]⟩ : Shape).Idx → α) (u : Fin 1) (q : Fin n) :
    broadcastInDim ⟨2, ![1, n]⟩ ![1] hd x (ix2 u q) = x (ix1 q) := by
  refine broadcastInDim_apply ![1] hd x (ix2 u q) (ix1 q) ?_
  intro a
  match a with
  | ⟨0, _⟩ =>
    show q.val = if n = 1 then 0 else q.val
    split
    · have := q.isLt; omega
    · rfl

/-- A bias vector spread over `m` rows by the host's two broadcasts reads, at `(p, q)`, the vector viewed as one row
    at `(0, q)`. -/
theorem bias_apply {α : Type} {m n : Nat} (hd1 : (⟨1, ![n]⟩ : Shape).BroadcastsInDim ⟨2, ![1, n]⟩ ![1])
    (hd2 : (⟨2, ![1, n]⟩ : Shape).BroadcastsInDim ⟨2, ![m, n]⟩ ![0, 1]) (hs : (⟨1, ![n]⟩ : Shape).ShapeCasts ⟨2, ![1, n]⟩)
    (b : (⟨1, ![n]⟩ : Shape).Idx → α) (p : Fin m) (q : Fin n) :
    broadcastInDim ⟨2, ![m, n]⟩ ![0, 1] hd2 (broadcastInDim ⟨2, ![1, n]⟩ ![1] hd1 b) (ix2 p q)
      = shapeCast ⟨2, ![1, n]⟩ b hs (ix2 (0 : Fin 1) q) := by
  rw [broadcastInDim_oneRow_apply, bcast_row_apply, shapeCast_a_1a_apply]

/-- The host's encoder is `enc`. -/
theorem hostEnc_eq (wf : DotDims.WF ⟨2, ![M, K]⟩ ⟨2, ![K, N]⟩ ⟨2, ![M, N]⟩ [1] [0] [0] [1] [] [])
    (hd1 : (⟨1, ![N]⟩ : Shape).BroadcastsInDim ⟨2, ![1, N]⟩ ![1])
    (hd2 : (⟨2, ![1, N]⟩ : Shape).BroadcastsInDim ⟨2, ![M, N]⟩ ![0, 1])
    (h0 : (⟨0, ![]⟩ : Shape).BroadcastsInDim ⟨2, ![M, N]⟩ ![]) (hs : (⟨1, ![N]⟩ : Shape).ShapeCasts ⟨2, ![1, N]⟩)
    (x : FVec Ideal ⟨2, ![M, K]⟩ .f32) (w : FVec Ideal ⟨2, ![K, N]⟩ .f32) (b : FVec Ideal ⟨1, ![N]⟩ .f32) :
    maximumf (addf (Host.dotGeneral (PlainDot.dims wf) none x w)
        (broadcastInDim ⟨2, ![M, N]⟩ ![0, 1] hd2 (broadcastInDim ⟨2, ![1, N]⟩ ![1] hd1 b)))
      (broadcastInDim ⟨2, ![M, N]⟩ ![] h0 (constant (F := Ideal) ⟨0, ![]⟩ .f32 0x00000000#32))
      = Hgnn.enc x w (shapeCast ⟨2, ![1, N]⟩ b hs) := by
  funext i
  obtain ⟨p, q, rfl⟩ : ∃ (p : Fin M) (q : Fin N), i = ix2 p q := ⟨i 0, i 1, eq_ix2 i⟩
  rw [maximumf_apply, addf_apply, Hgnn.enc_apply, bias_apply hd1 hd2 hs, broadcastInDim_scalar_apply,
    PlainDot.dotGeneral_apply]
  rfl

/-- The host's relation layer is `sage`. -/
theorem hostSage_eq (wf : DotDims.WF ⟨2, ![M, K]⟩ ⟨2, ![K, N]⟩ ⟨2, ![M, N]⟩ [1] [0] [0] [1] [] [])
    (hd1 : (⟨1, ![N]⟩ : Shape).BroadcastsInDim ⟨2, ![1, N]⟩ ![1])
    (hd2 : (⟨2, ![1, N]⟩ : Shape).BroadcastsInDim ⟨2, ![M, N]⟩ ![0, 1])
    (hs : (⟨1, ![N]⟩ : Shape).ShapeCasts ⟨2, ![1, N]⟩)
    (mean h : FVec Ideal ⟨2, ![M, K]⟩ .f32) (wl wr : FVec Ideal ⟨2, ![K, N]⟩ .f32) (bl : FVec Ideal ⟨1, ![N]⟩ .f32) :
    addf (addf (Host.dotGeneral (PlainDot.dims wf) none mean wl)
        (broadcastInDim ⟨2, ![M, N]⟩ ![0, 1] hd2 (broadcastInDim ⟨2, ![1, N]⟩ ![1] hd1 bl)))
      (Host.dotGeneral (PlainDot.dims wf) none h wr)
      = Hgnn.sage mean h wl (shapeCast ⟨2, ![1, N]⟩ bl hs) wr := by
  funext i
  obtain ⟨p, q, rfl⟩ : ∃ (p : Fin M) (q : Fin N), i = ix2 p q := ⟨i 0, i 1, eq_ix2 i⟩
  rw [addf_apply, addf_apply, Hgnn.sage_apply, bias_apply hd1 hd2 hs, PlainDot.dotGeneral_apply, PlainDot.dotGeneral_apply]

/-- The host's output layer is `head`. -/
theorem hostHead_eq (wf : DotDims.WF ⟨2, ![M, K]⟩ ⟨2, ![K, N]⟩ ⟨2, ![M, N]⟩ [1] [0] [0] [1] [] [])
    (hd1 : (⟨1, ![N]⟩ : Shape).BroadcastsInDim ⟨2, ![1, N]⟩ ![1])
    (hd2 : (⟨2, ![1, N]⟩ : Shape).BroadcastsInDim ⟨2, ![M, N]⟩ ![0, 1])
    (h0 : (⟨0, ![]⟩ : Shape).BroadcastsInDim ⟨2, ![M, K]⟩ ![]) (hs : (⟨1, ![N]⟩ : Shape).ShapeCasts ⟨2, ![1, N]⟩)
    (s1 s2 : FVec Ideal ⟨2, ![M, K]⟩ .f32) (wo : FVec Ideal ⟨2, ![K, N]⟩ .f32) (bo : FVec Ideal ⟨1, ![N]⟩ .f32) :
    addf (Host.dotGeneral (PlainDot.dims wf) none
        (maximumf (addf s1 s2) (broadcastInDim ⟨2, ![M, K]⟩ ![] h0 (constant (F := Ideal) ⟨0, ![]⟩ .f32 0x00000000#32))) wo)
      (broadcastInDim ⟨2, ![M, N]⟩ ![0, 1] hd2 (broadcastInDim ⟨2, ![1, N]⟩ ![1] hd1 bo))
      = Hgnn.head s1 s2 wo (shapeCast ⟨2, ![1, N]⟩ bo hs) := by
  funext i
  obtain ⟨p, q, rfl⟩ : ∃ (p : Fin M) (q : Fin N), i = ix2 p q := ⟨i 0, i 1, eq_ix2 i⟩
  rw [addf_apply, Hgnn.head_apply, bias_apply hd1 hd2 hs, PlainDot.dotGeneral_apply]
  refine congrArg (fun s => s + shapeCast ⟨2, ![1, N]⟩ bo hs (ix2 (0 : Fin 1) q)) (Finset.sum_congr rfl fun k _ => ?_)
  rw [maximumf_apply, addf_apply, broadcastInDim_scalar_apply]
  rfl

end Hgnn.Bridge

end
-- ==== Proof.Bridge.lean ====
/-
  The two programs compute one function. The reference's encoder, relation layer and output layer are, entry by entry,
  the functions the kernel's regions compute (the host-side readings are stated once for any extents). The row look-ups
  and the means over incoming edges are the same host operations in both programs, applied to equal arrays. No law of
  the extended reals beyond reading each operation at an index is used: every sum has the same terms in the same order
  on both sides.
-/
import proofs.«171575_j3770981286512_1_alg».proof.Proof.KerOut
import proofs.«171575_j3770981286512_1_alg».proof.Proof.RefChain
import proofs.«171575_j3770981286512_1_alg».proof.Proof.Gen.KernelIdeal
import proofs.«171575_j3770981286512_1_alg».proof.Proof.Gen.ReferenceIdeal
import proofs.«171575_j3770981286512_1_alg».proof.Proof.LibHostLayers

noncomputable section

namespace Hgnn.Bridge

open Idealize.ShloMosaic Idealize.ShloMosaic.ValueIdx Idealize.ShloMosaic.DenseLayer

open Cert.ReferenceIdeal.Facts₀ Cert.ReferenceIdeal.Facts in
/-- The reference's bridge encoder. -/
theorem encB_eq (x : (⟨Cert.ReferenceIdeal.S100000x16, .f32⟩ : BufTy).Contents (Elt Ideal)) (w : (⟨Cert.ReferenceIdeal.S16x32, .f32⟩ : BufTy).Contents (Elt Ideal)) (b : (⟨Cert.ReferenceIdeal.S32, .f32⟩ : BufTy).Contents (Elt Ideal))
    (hs : (⟨1, ![32]⟩ : Shape).ShapeCasts ⟨2, ![1, 32]⟩) :
    Cert.ReferenceIdeal.Chain.encB (F := Ideal) x w b = Hgnn.enc (M := 100000) (K := 16) (N := 32) x w (shapeCast ⟨2, ![1, 32]⟩ b hs) :=
  hostEnc_eq (M := 100000) (K := 16) (N := 32) Cert.ReferenceIdeal.dot_S100000x16_S16x32_S100000x32_1_0_0_1_n_n.wf _ _ _ hs x w b

open Cert.ReferenceIdeal.Facts₀ Cert.ReferenceIdeal.Facts in
/-- The reference's road encoder. -/
theorem encR_eq (x : (⟨Cert.ReferenceIdeal.S200000x8, .f32⟩ : BufTy).Contents (Elt Ideal)) (w : (⟨Cert.ReferenceIdeal.S8x32, .f32⟩ : BufTy).Contents (Elt Ideal)) (b : (⟨Cert.ReferenceIdeal.S32, .f32⟩ : BufTy).Contents (Elt Ideal))
    (hs : (⟨1, ![32]⟩ : Shape).ShapeCasts ⟨2, ![1, 32]⟩) :
    Cert.ReferenceIdeal.Chain.encR (F := Ideal) x w b = Hgnn.enc (M := 200000) (K := 8) (N := 32) x w (shapeCast ⟨2, ![1, 32]⟩ b hs) :=
  hostEnc_eq (M := 200000) (K := 8) (N := 32) Cert.ReferenceIdeal.dot_S200000x8_S8x32_S200000x32_1_0_0_1_n_n.wf _ _ _ hs x w b

/-- The reference's relation layer. -/
theorem sageH_eq (mean h : (⟨Cert.ReferenceIdeal.S100000x32, .f32⟩ : BufTy).Contents (Elt Ideal)) (wl : (⟨Cert.ReferenceIdeal.S32x32, .f32⟩ : BufTy).Contents (Elt Ideal)) (bl : (⟨Cert.ReferenceIdeal.S32, .f32⟩ : BufTy).Contents (Elt Ideal))
    (wr : (⟨Cert.ReferenceIdeal.S32x32, .f32⟩ : BufTy).Contents (Elt Ideal)) (hs : (⟨1, ![32]⟩ : Shape).ShapeCasts ⟨2, ![1, 32]⟩) :
    Cert.ReferenceIdeal.Chain.sageH (F := Ideal) mean h wl bl wr
      = Hgnn.sage (M := 100000) (K := 32) (N := 32) mean h wl (shapeCast ⟨2, ![1, 32]⟩ bl hs) wr :=
  hostSage_eq (M := 100000) (K := 32) (N := 32) Cert.ReferenceIdeal.dot_S100000x32_S32x32_S100000x32_1_0_0_1_n_n.wf _ _ hs mean h wl wr bl

/-- The reference's output layer. -/
theorem headH_eq (s1 s2 : (⟨Cert.ReferenceIdeal.S100000x32, .f32⟩ : BufTy).Contents (Elt Ideal)) (wo : (⟨Cert.ReferenceIdeal.S32x1, .f32⟩ : BufTy).Contents (Elt Ideal)) (bo : (⟨Cert.ReferenceIdeal.S1, .f32⟩ : BufTy).Contents (Elt Ideal))
    (hs : (⟨1, ![1]⟩ : Shape).ShapeCasts ⟨2, ![1, 1]⟩) :
    Cert.ReferenceIdeal.Chain.headH (F := Ideal) s1 s2 wo bo
      = Hgnn.head (M := 100000) (K := 32) (N := 1) s1 s2 wo (shapeCast ⟨2, ![1, 1]⟩ bo hs) :=
  hostHead_eq (M := 100000) (K := 32) (N := 1) Cert.ReferenceIdeal.dot_S100000x32_S32x1_S100000x1_1_0_0_1_n_n.wf _ _ _ hs s1 s2 wo bo

attribute [local irreducible] Host.reduce Host.gather Host.scatterAdd Host.divf in
/-- The row look-ups and the means are the same host operations in both programs. -/
theorem chain_eq :
    (@Cert.KernelIdeal.Chain.takeRB Ideal _ _ = @Cert.ReferenceIdeal.Chain.takeRB Ideal _ _)
    ∧ (@Cert.KernelIdeal.Chain.meanRB Ideal _ _ = @Cert.ReferenceIdeal.Chain.meanRB Ideal _ _)
    ∧ (@Cert.KernelIdeal.Chain.takeBB Ideal _ _ = @Cert.ReferenceIdeal.Chain.takeBB Ideal _ _)
    ∧ (@Cert.KernelIdeal.Chain.meanBB Ideal _ _ = @Cert.ReferenceIdeal.Chain.meanBB Ideal _ _) :=
  ⟨rfl, rfl, rfl, rfl⟩

open Cert.KernelIdeal.Facts₀ Cert.KernelIdeal.Facts in
/-- The reference's result is the kernel program's result, as functions of the argument arrays. -/
theorem out_eq (a0 : (⟨Cert.ReferenceIdeal.S100000x16, .f32⟩ : BufTy).Contents (Elt Ideal)) (a1 : (⟨Cert.ReferenceIdeal.S200000x8, .f32⟩ : BufTy).Contents (Elt Ideal)) (a4 a5 : (⟨Cert.ReferenceIdeal.S1000000, .i32⟩ : BufTy).Contents (Elt Ideal))
    (a6 a7 : (⟨Cert.ReferenceIdeal.S500000, .i32⟩ : BufTy).Contents (Elt Ideal)) (a8 : (⟨Cert.ReferenceIdeal.S16x32, .f32⟩ : BufTy).Contents (Elt Ideal)) (a9 : (⟨Cert.ReferenceIdeal.S32, .f32⟩ : BufTy).Contents (Elt Ideal)) (a10 : (⟨Cert.ReferenceIdeal.S8x32, .f32⟩ : BufTy).Contents (Elt Ideal))
    (a11 : (⟨Cert.ReferenceIdeal.S32, .f32⟩ : BufTy).Contents (Elt Ideal)) (a15 : (⟨Cert.ReferenceIdeal.S32x32, .f32⟩ : BufTy).Contents (Elt Ideal)) (a16 : (⟨Cert.ReferenceIdeal.S32, .f32⟩ : BufTy).Contents (Elt Ideal)) (a17 a18 : (⟨Cert.ReferenceIdeal.S32x32, .f32⟩ : BufTy).Contents (Elt Ideal))
    (a19 : (⟨Cert.ReferenceIdeal.S32, .f32⟩ : BufTy).Contents (Elt Ideal)) (a20 : (⟨Cert.ReferenceIdeal.S32x32, .f32⟩ : BufTy).Contents (Elt Ideal)) (a21 : (⟨Cert.ReferenceIdeal.S32x1, .f32⟩ : BufTy).Contents (Elt Ideal)) (a22 : (⟨Cert.ReferenceIdeal.S1, .f32⟩ : BufTy).Contents (Elt Ideal)) :
    Cert.ReferenceIdeal.Chain.out (F := Ideal) a0 a1 a4 a5 a6 a7 a8 a9 a10 a11 a15 a16 a17 a18 a19 a20 a21 a22
      = Cert.KernelIdeal.Out.out a0 a1 a4 a5 a6 a7 a8 a9 a10 a11 a15 a16 a17 a18 a19 a20 a21 a22 := by
  unfold Cert.ReferenceIdeal.Chain.out Cert.KernelIdeal.Out.out Cert.KernelIdeal.Out.hB Cert.KernelIdeal.Out.hR
  rw [encB_eq a0 a8 a9 Cert.KernelIdeal.Facts₀.shapeCasts_S32_S1x32, encR_eq a1 a10 a11 Cert.KernelIdeal.Facts₀.shapeCasts_S32_S1x32,
    headH_eq _ _ a21 a22 Cert.KernelIdeal.Facts₀.shapeCasts_S1_S1x1,
    sageH_eq _ _ a15 a16 a17 Cert.KernelIdeal.Facts₀.shapeCasts_S32_S1x32,
    sageH_eq _ _ a18 a19 a20 Cert.KernelIdeal.Facts₀.shapeCasts_S32_S1x32,
    ← chain_eq.1, ← chain_eq.2.1, ← chain_eq.2.2.1, ← chain_eq.2.2.2]

end Hgnn.Bridge

end
-- ==== Proof.lean ====
/- The proof of `Cert.Claim` (proofs.«171575_j3770981286512_1_alg».proof.Defs).

   The program is a two-relation message-passing layer on a graph of bridge and road nodes. Both node types are encoded
   (features times weights, plus a bias row, cut off below at zero); for each of the two relations that end in a bridge the
   encoded rows of the source nodes are looked up along the edges, summed per destination and divided by the number of
   incoming edges clamped below at one; each relation's layer is that mean times its left weights plus its bias plus the
   bridge's own encoding times its right weights; the two layers are added, cut off below at zero, multiplied by the
   output weights and shifted by the output bias.

   The kernel computes the three dense stages in three pipelined regions over row tiles of 10000 rows, rounding the matrix
   unit's operands to a narrower format on the way in, and leaves the look-ups and the means to host operations between
   the regions; the reference computes everything with host operations. Over the extended reals a change of format is the
   identity and a matrix unit's product into a zero accumulator is the host's product, both the plain sum of products over
   the contracted coordinate; a row tile's result is the whole-array function's block, and the tiles cover the arrays. The
   look-ups and the means are the same operations in both programs. So both results are ONE function of the argument
   arrays, `Cert.KernelIdeal.Out.out`; every sum has the same terms in the same order on both sides, and the precondition
   (finite inputs) is not needed. The idealization rewrote nothing, so `preserves` is trivial; the kernel programs'
   frames are the generated ones, the reference's frame is its run with the results dropped. -/
import proofs.«171575_j3770981286512_1_alg».proof.Defs
import proofs.«171575_j3770981286512_1_alg».proof.Proof.Gen.Kernel
import proofs.«171575_j3770981286512_1_alg».proof.Proof.Gen.Kernel.Frame
import proofs.«171575_j3770981286512_1_alg».proof.Proof.Gen.KernelIdeal
import proofs.«171575_j3770981286512_1_alg».proof.Proof.Gen.KernelIdeal.Frame
import proofs.«171575_j3770981286512_1_alg».proof.Proof.Gen.ReferenceIdeal
import proofs.«171575_j3770981286512_1_alg».proof.Proof.Gen.Pre_finite_inputs
import proofs.«171575_j3770981286512_1_alg».proof.Proof.KerRun
import proofs.«171575_j3770981286512_1_alg».proof.Proof.KerValue
import proofs.«171575_j3770981286512_1_alg».proof.Proof.RefRun
import proofs.«171575_j3770981286512_1_alg».proof.Proof.RefValue
import proofs.«171575_j3770981286512_1_alg».proof.Proof.RefKept
import proofs.«171575_j3770981286512_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its results dropped: each argument buffer ends as launched. -/
theorem frame_ri : Cert.frame_ReferenceIdeal := fun m ρ _ =>
  (θ_run Cert.ReferenceIdeal.defs _ _).mono (fun _ h c =>
    ⟨(h c Cert.ReferenceIdeal.main_arg0).trans (Cert.ReferenceIdeal.HostRun.kept_main_arg0 _),
     (h c Cert.ReferenceIdeal.main_arg1).trans (Cert.ReferenceIdeal.HostRun.kept_main_arg1 _),
     (h c Cert.ReferenceIdeal.main_arg2).trans (Cert.ReferenceIdeal.HostRun.kept_main_arg2 _),
     (h c Cert.ReferenceIdeal.main_arg3).trans (Cert.ReferenceIdeal.HostRun.kept_main_arg3 _),
     (h c Cert.ReferenceIdeal.main_arg4).trans (Cert.ReferenceIdeal.HostRun.kept_main_arg4 _),
     (h c Cert.ReferenceIdeal.main_arg5).trans (Cert.ReferenceIdeal.HostRun.kept_main_arg5 _),
     (h c Cert.ReferenceIdeal.main_arg6).trans (Cert.ReferenceIdeal.HostRun.kept_main_arg6 _),
     (h c Cert.ReferenceIdeal.main_arg7).trans (Cert.ReferenceIdeal.HostRun.kept_main_arg7 _),
     (h c Cert.ReferenceIdeal.main_arg8).trans (Cert.ReferenceIdeal.HostRun.kept_main_arg8 _),
     (h c Cert.ReferenceIdeal.main_arg9).trans (Cert.ReferenceIdeal.HostRun.kept_main_arg9 _),
     (h c Cert.ReferenceIdeal.main_arg10).trans (Cert.ReferenceIdeal.HostRun.kept_main_arg10 _),
     (h c Cert.ReferenceIdeal.main_arg11).trans (Cert.ReferenceIdeal.HostRun.kept_main_arg11 _),
     (h c Cert.ReferenceIdeal.main_arg12).trans (Cert.ReferenceIdeal.HostRun.kept_main_arg12 _),
     (h c Cert.ReferenceIdeal.main_arg13).trans (Cert.ReferenceIdeal.HostRun.kept_main_arg13 _),
     (h c Cert.ReferenceIdeal.main_arg14).trans (Cert.ReferenceIdeal.HostRun.kept_main_arg14 _),
     (h c Cert.ReferenceIdeal.main_arg15).trans (Cert.ReferenceIdeal.HostRun.kept_main_arg15 _),
     (h c Cert.ReferenceIdeal.main_arg16).trans (Cert.ReferenceIdeal.HostRun.kept_main_arg16 _),
     (h c Cert.ReferenceIdeal.main_arg17).trans (Cert.ReferenceIdeal.HostRun.kept_main_arg17 _),
     (h c Cert.ReferenceIdeal.main_arg18).trans (Cert.ReferenceIdeal.HostRun.kept_main_arg18 _),
     (h c Cert.ReferenceIdeal.main_arg19).trans (Cert.ReferenceIdeal.HostRun.kept_main_arg19 _),
     (h c Cert.ReferenceIdeal.main_arg20).trans (Cert.ReferenceIdeal.HostRun.kept_main_arg20 _),
     (h c Cert.ReferenceIdeal.main_arg21).trans (Cert.ReferenceIdeal.HostRun.kept_main_arg21 _),
     (h c Cert.ReferenceIdeal.main_arg22).trans (Cert.ReferenceIdeal.HostRun.kept_main_arg22 _)⟩)
    (Cert.ReferenceIdeal.HostRun.run_all (F := Ideal) m ρ)

/-- The idealization pass rewrote no operation. -/
theorem preserves : Cert.preserves_Kernel_KernelIdeal := trivial

set_option maxHeartbeats 4000000 in
/-- Both idealized programs end with the result array at one function of the argument arrays. -/
theorem algebraic : Cert.algebraic_KernelIdeal_ReferenceIdeal := by
  intro m ρ m' ρ' _ hagree
  refine ⟨fun c => Cert.KernelIdeal.Out.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.HostBack.W9_main_v33 m ρ c), (h c).2⟩)
      (Cert.KernelIdeal.Gen.run_result m ρ)
  · refine (θ_run Cert.ReferenceIdeal.defs _ _).mono (fun r h c =>
      ⟨?_, (h c Cert.ReferenceIdeal.main_arg0).trans (Cert.ReferenceIdeal.HostRun.kept_main_arg0 _),
       (h c Cert.ReferenceIdeal.main_arg1).trans (Cert.ReferenceIdeal.HostRun.kept_main_arg1 _),
       (h c Cert.ReferenceIdeal.main_arg2).trans (Cert.ReferenceIdeal.HostRun.kept_main_arg2 _),
       (h c Cert.ReferenceIdeal.main_arg3).trans (Cert.ReferenceIdeal.HostRun.kept_main_arg3 _),
       (h c Cert.ReferenceIdeal.main_arg4).trans (Cert.ReferenceIdeal.HostRun.kept_main_arg4 _),
       (h c Cert.ReferenceIdeal.main_arg5).trans (Cert.ReferenceIdeal.HostRun.kept_main_arg5 _),
       (h c Cert.ReferenceIdeal.main_arg6).trans (Cert.ReferenceIdeal.HostRun.kept_main_arg6 _),
       (h c Cert.ReferenceIdeal.main_arg7).trans (Cert.ReferenceIdeal.HostRun.kept_main_arg7 _),
       (h c Cert.ReferenceIdeal.main_arg8).trans (Cert.ReferenceIdeal.HostRun.kept_main_arg8 _),
       (h c Cert.ReferenceIdeal.main_arg9).trans (Cert.ReferenceIdeal.HostRun.kept_main_arg9 _),
       (h c Cert.ReferenceIdeal.main_arg10).trans (Cert.ReferenceIdeal.HostRun.kept_main_arg10 _),
       (h c Cert.ReferenceIdeal.main_arg11).trans (Cert.ReferenceIdeal.HostRun.kept_main_arg11 _),
       (h c Cert.ReferenceIdeal.main_arg12).trans (Cert.ReferenceIdeal.HostRun.kept_main_arg12 _),
       (h c Cert.ReferenceIdeal.main_arg13).trans (Cert.ReferenceIdeal.HostRun.kept_main_arg13 _),
       (h c Cert.ReferenceIdeal.main_arg14).trans (Cert.ReferenceIdeal.HostRun.kept_main_arg14 _),
       (h c Cert.ReferenceIdeal.main_arg15).trans (Cert.ReferenceIdeal.HostRun.kept_main_arg15 _),
       (h c Cert.ReferenceIdeal.main_arg16).trans (Cert.ReferenceIdeal.HostRun.kept_main_arg16 _),
       (h c Cert.ReferenceIdeal.main_arg17).trans (Cert.ReferenceIdeal.HostRun.kept_main_arg17 _),
       (h c Cert.ReferenceIdeal.main_arg18).trans (Cert.ReferenceIdeal.HostRun.kept_main_arg18 _),
       (h c Cert.ReferenceIdeal.main_arg19).trans (Cert.ReferenceIdeal.HostRun.kept_main_arg19 _),
       (h c Cert.ReferenceIdeal.main_arg20).trans (Cert.ReferenceIdeal.HostRun.kept_main_arg20 _),
       (h c Cert.ReferenceIdeal.main_arg21).trans (Cert.ReferenceIdeal.HostRun.kept_main_arg21 _),
       (h c Cert.ReferenceIdeal.main_arg22).trans (Cert.ReferenceIdeal.HostRun.kept_main_arg22 _)⟩)
      (Cert.ReferenceIdeal.HostRun.run_all (F := Ideal) m' ρ')
    refine (h c Cert.ReferenceIdeal.main_v53).trans ((Cert.ReferenceIdeal.HostRun.out_eq _).trans ?_)
    obtain ⟨e0, e1, e2, e3, e4, e5, e6, e7, e8, e9, e10, e11, e12, e13, e14, e15, e16, e17, e18, e19, e20, e21, e22⟩ := hagree c
    show Cert.ReferenceIdeal.Chain.out (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22)) = _
    rw [e0, e1, e4, e5, e6, e7, e8, e9, e10, e11, e15, e16, e17, e18, e19, e20, e21, e22]
    exact Hgnn.Bridge.out_eq _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
